-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128x128 : Shape := ⟨4, ![4, 64, 128, 128]⟩
abbrev S4x1x128x128 : Shape := ⟨4, ![4, 1, 128, 128]⟩
abbrev S_ : Shape := ⟨0, ![]⟩

class Facts : Prop where
  bcast_S_S4x64x128x128 : S_.BroadcastsInDim S4x64x128x128 (![] : Fin 0 → Fin S4x64x128x128.rank)
  reducesTo_S4x64x128x128_S_d0_1_2_3 : S4x64x128x128.ReducesTo [0, 1, 2, 3] S_
  h_S_ : 0 < S_.numel

variable [Facts]

def fn {F : FTy → Type} [FloatOps F] (main_arg0 : FVec F S4x64x128x128 .f32) (main_arg1 : IVec S4x1x128x128 32) : IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_c : IVec S_ 1 := constantI S_ 1 1#1
  let main_v3 : IVec S_ 1 := (fun x v => Host.reduce IntOp.andi x v reducesTo_S4x64x128x128_S_d0_1_2_3 h_S_) main_v2 main_c
  main_v3
-- ==== Kernel.lean ====
abbrev S4x64x128x128 : Shape := ⟨4, ![4, 64, 128, 128]⟩
abbrev S4x1x128x128 : Shape := ⟨4, ![4, 1, 128, 128]⟩
abbrev S64 : Shape := ⟨1, ![64]⟩
abbrev S_ : Shape := ⟨0, ![]⟩
abbrev S64x1 : Shape := ⟨2, ![64, 1]⟩
abbrev S4x64x64x128 : Shape := ⟨4, ![4, 64, 64, 128]⟩
abbrev S4x64x64x64 : Shape := ⟨4, ![4, 64, 64, 64]⟩
abbrev S4x1x64x128 : Shape := ⟨4, ![4, 1, 64, 128]⟩
abbrev S4x1x64x64 : Shape := ⟨4, ![4, 1, 64, 64]⟩
abbrev S16384x64 : Shape := ⟨2, ![16384, 64]⟩
abbrev S16384 : Shape := ⟨1, ![16384]⟩
abbrev S16384x1 : Shape := ⟨2, ![16384, 1]⟩
abbrev S1x16384 : Shape := ⟨2, ![1, 16384]⟩
abbrev S1x1 : Shape := ⟨2, ![1, 1]⟩
abbrev S1024x64 : Shape := ⟨2, ![1024, 64]⟩
abbrev S1024x1 : Shape := ⟨2, ![1024, 1]⟩
abbrev S1x1024 : Shape := ⟨2, ![1, 1024]⟩
abbrev S64x1024 : Shape := ⟨2, ![64, 1024]⟩
abbrev S1024x1024 : Shape := ⟨2, ![1024, 1024]⟩
abbrev S1024 : Shape := ⟨1, ![1024]⟩
abbrev S1 : Shape := ⟨1, ![1]⟩

abbrev nBuf : Space → Nat
  | .hbm => 100
  | .vmem => 9
  | .smem => 0
  | _ => 0

abbrev bufTy : (tb : Table) → Fin (tcTables nBuf tb) → BufTy
  | .hbm, ⟨0, _⟩ => ⟨S4x64x128x128, .f32⟩
  | .hbm, ⟨1, _⟩ => ⟨S4x1x128x128, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S4x64x64x128, .f32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64x1, .i32⟩
  | .hbm, ⟨63, _⟩ => ⟨S4x64x64x64, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S4x1x64x128, .i32⟩
  | .hbm, ⟨73, _⟩ => ⟨S_, .i32⟩
  | .hbm, ⟨74, _⟩ => ⟨S64, .i32⟩
  | .hbm, ⟨75, _⟩ => ⟨S64, .i1⟩
  | .hbm, ⟨76, _⟩ => ⟨S_, .i32⟩
  | .hbm, ⟨77, _⟩ => ⟨S64, .i32⟩
  | .hbm, ⟨78, _⟩ => ⟨S64, .i32⟩
  | .hbm, ⟨79, _⟩ => ⟨S64, .i32⟩
  | .hbm, ⟨80, _⟩ => ⟨S64x1, .i32⟩
  | .hbm, ⟨81, _⟩ => ⟨S4x1x64x64, .i32⟩
  | .hbm, ⟨82, _⟩ => ⟨S4x64x64x64, .f32⟩
  | .hbm, ⟨83, _⟩ => ⟨S16384x64, .f32⟩
  | .hbm, ⟨84, _⟩ => ⟨S16384, .i32⟩
  | .hbm, ⟨85, _⟩ => ⟨S16384x64, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x64, .f32⟩
  | .hbm, ⟨94, _⟩ => ⟨S16384x64, .f32⟩
  | .hbm, ⟨95, _⟩ => ⟨S16384x64, .bf16⟩
  | .hbm, ⟨96, _⟩ => ⟨S16384x1, .i32⟩
  | .hbm, ⟨97, _⟩ => ⟨S1x16384, .i32⟩
  | .hbm, ⟨98, _⟩ => ⟨S1x1, .f32⟩
  | .hbm, ⟨99, _⟩ => ⟨S_, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_c_3 : Ref sig .tc := ⟨.hbm, 46, rfl⟩
abbrev main_v8 : Ref sig .tc := ⟨.hbm, 47, rfl⟩
abbrev main_v9 : Ref sig .tc := ⟨.hbm, 48, rfl⟩
abbrev main_c_4 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_c_8 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_c_9 : Ref sig .tc := ⟨.hbm, 73, rfl⟩
abbrev main_v29 : Ref sig .tc := ⟨.hbm, 74, rfl⟩
abbrev main_v30 : Ref sig .tc := ⟨.hbm, 75, rfl⟩
abbrev main_c_10 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v39 : Ref sig .tc := ⟨.hbm, 89, rfl⟩
abbrev main_cst : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S64 : S_.BroadcastsInDim S64 (![] : Fin 0 → Fin S64.rank)
  bcast_S64_S64x1_0 : S64.BroadcastsInDim S64x1 (![0] : Fin 1 → Fin S64x1.rank)
  transposes_S4x64x64x64_S4x64x64x64_0_2_3_1 : S4x64x64x64.Transposes [0, 2, 3, 1] S4x64x64x64
  shapeCasts_S4x64x64x64_S16384x64 : S4x64x64x64.ShapeCasts S16384x64
  shapeCasts_S4x1x64x64_S16384 : S4x1x64x64.ShapeCasts S16384
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bitsLt_bf16_f32 : FTy.bits .bf16 < FTy.bits .f32
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  gather_S4x64x128x128_S64x1_S4x64x64x128_013_2_n_n_2_1_4641128_wf : GatherDims.WF S4x64x128x128 S64x1 S4x64x64x128 [0, 1, 3] [2] [] [2] [] 1 ![4, 64, 1, 128]
  gather_S4x64x64x128_S64x1_S4x64x64x64_012_3_n_n_3_1_464641_wf : GatherDims.WF S4x64x64x128 S64x1 S4x64x64x64 [0, 1, 2] [3] [] [3] [] 1 ![4, 64, 64, 1]
  gather_S4x1x128x128_S64x1_S4x1x64x128_013_2_n_n_2_1_411128_wf : GatherDims.WF S4x1x128x128 S64x1 S4x1x64x128 [0, 1, 3] [2] [] [2] [] 1 ![4, 1, 1, 128]
  gather_S4x1x64x128_S64x1_S4x1x64x64_012_3_n_n_3_1_41641_wf : GatherDims.WF S4x1x64x128 S64x1 S4x1x64x64 [0, 1, 2] [3] [] [3] [] 1 ![4, 1, 64, 1]
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .bf16 = 32 ∨ (Rect.block (s := S16384x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .bf16 = 32 ∨ (Rect.block (s := S16384x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .i32 = 32 ∨ (Rect.block (s := S1x16384) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S4x64x128x128_S64x1_S4x64x64x128_013_2_n_n_2_1_4641128 : GatherDims S4x64x128x128 S64x1 S4x64x64x128 where
  offsetDims := [0, 1, 3]
  collapsedSliceDims := [2]
  operandBatchingDims := []
  startIndicesBatchingDims := []
  startIndexMap := [2]
  indexVectorDim := 1
  sliceSizes := ![4, 64, 1, 128]
  wf := gather_S4x64x128x128_S64x1_S4x64x64x128_013_2_n_n_2_1_4641128_wf
def gather_S4x64x64x128_S64x1_S4x64x64x64_012_3_n_n_3_1_464641 : GatherDims S4x64x64x128 S64x1 S4x64x64x64 where
  offsetDims := [0, 1, 2]
  collapsedSliceDims := [3]
  operandBatchingDims := []
  startIndicesBatchingDims := []
  startIndexMap := [3]
  indexVectorDim := 1
  sliceSizes := ![4, 64, 64, 1]
  wf := gather_S4x64x64x128_S64x1_S4x64x64x64_012_3_n_n_3_1_464641_wf
def gather_S4x1x128x128_S64x1_S4x1x64x128_013_2_n_n_2_1_411128 : GatherDims S4x1x128x128 S64x1 S4x1x64x128 where
  offsetDims := [0, 1, 3]
  collapsedSliceDims := [2]
  operandBatchingDims := []
  startIndicesBatchingDims := []
  startIndexMap := [2]
  indexVectorDim := 1
  sliceSizes := ![4, 1, 1, 128]
  wf := gather_S4x1x128x128_S64x1_S4x1x64x128_013_2_n_n_2_1_411128_wf
def gather_S4x1x64x128_S64x1_S4x1x64x64_012_3_n_n_3_1_41641 : GatherDims S4x1x64x128 S64x1 S4x1x64x64 where
  offsetDims := [0, 1, 2]
  collapsedSliceDims := [3]
  operandBatchingDims := []
  startIndicesBatchingDims := []
  startIndexMap := [3]
  indexVectorDim := 1
  sliceSizes := ![4, 1, 64, 1]
  wf := gather_S4x1x64x128_S64x1_S4x1x64x64_012_3_n_n_3_1_41641_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v44) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x128x128 : Shape := ⟨4, ![4, 64, 128, 128]⟩
abbrev S4x1x128x128 : Shape := ⟨4, ![4, 1, 128, 128]⟩
abbrev S64 : Shape := ⟨1, ![64]⟩
abbrev S_ : Shape := ⟨0, ![]⟩
abbrev S64x1 : Shape := ⟨2, ![64, 1]⟩
abbrev S4x64x64x128 : Shape := ⟨4, ![4, 64, 64, 128]⟩
abbrev S4x64x64x64 : Shape := ⟨4, ![4, 64, 64, 64]⟩
abbrev S4x1x64x128 : Shape := ⟨4, ![4, 1, 64, 128]⟩
abbrev S4x1x64x64 : Shape := ⟨4, ![4, 1, 64, 64]⟩
abbrev S16384x64 : Shape := ⟨2, ![16384, 64]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩
abbrev S1x16384 : Shape := ⟨2, ![1, 16384]⟩

abbrev nBuf : Space → Nat
  | .hbm => 109
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x1x128x128, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S4x64x64x128, .f32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64x1, .i32⟩
  | .hbm, ⟨63, _⟩ => ⟨S4x64x64x64, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S4x1x64x128, .i32⟩
  | .hbm, ⟨73, _⟩ => ⟨S_, .i32⟩
  | .hbm, ⟨74, _⟩ => ⟨S64, .i32⟩
  | .hbm, ⟨75, _⟩ => ⟨S64, .i1⟩
  | .hbm, ⟨76, _⟩ => ⟨S_, .i32⟩
  | .hbm, ⟨77, _⟩ => ⟨S64, .i32⟩
  | .hbm, ⟨78, _⟩ => ⟨S64, .i32⟩
  | .hbm, ⟨79, _⟩ => ⟨S64, .i32⟩
  | .hbm, ⟨80, _⟩ => ⟨S64x1, .i32⟩
  | .hbm, ⟨81, _⟩ => ⟨S4x1x64x64, .i32⟩
  | .hbm, ⟨82, _⟩ => ⟨S4x64x64x64, .f32⟩
  | .hbm, ⟨83, _⟩ => ⟨S16384x64, .f32⟩
  | .hbm, ⟨84, _⟩ => ⟨S16384, .i32⟩
  | .hbm, ⟨85, _⟩ => ⟨S16384, .f32⟩
  | .hbm, ⟨86, _⟩ => ⟨S16384x64, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x64, .f32⟩
  | .hbm, ⟨95, _⟩ => ⟨S16384x64, .f32⟩
  | .hbm, ⟨96, _⟩ => ⟨S64x16384, .f32⟩
  | .hbm, ⟨97, _⟩ => ⟨S16384x16384, .f32⟩
  | .hbm, ⟨98, _⟩ => ⟨S16384x1, .f32⟩
  | .hbm, ⟨99, _⟩ => ⟨S1x16384, .f32⟩
  | .hbm, ⟨100, _⟩ => ⟨S16384x16384, .f32⟩
  | .hbm, ⟨101, _⟩ => ⟨S16384x16384, .f32⟩
  | .hbm, ⟨102, _⟩ => ⟨S16384x16384, .i1⟩
  | .hbm, ⟨103, _⟩ => ⟨S16384x16384, .f32⟩
  | .hbm, ⟨104, _⟩ => ⟨S16384x16384, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_c_3 : Ref sig .tc := ⟨.hbm, 46, rfl⟩
abbrev main_v8 : Ref sig .tc := ⟨.hbm, 47, rfl⟩
abbrev main_v9 : Ref sig .tc := ⟨.hbm, 48, rfl⟩
abbrev main_c_4 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_c_8 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_c_9 : Ref sig .tc := ⟨.hbm, 73, rfl⟩
abbrev main_v29 : Ref sig .tc := ⟨.hbm, 74, rfl⟩
abbrev main_v30 : Ref sig .tc := ⟨.hbm, 75, rfl⟩
abbrev main_c_10 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v40 : Ref sig .tc := ⟨.hbm, 90, rfl⟩
abbrev main_cst : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_11 : Ref sig .tc := ⟨.hbm, 105, rfl⟩
abbrev main_v54 : Ref sig .tc := ⟨.hbm, 106, rfl⟩
abbrev main_cst_12 : Ref sig .tc := ⟨.hbm, 107, rfl⟩
abbrev main_v55 : Ref sig .tc := ⟨.hbm, 108, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  transposes_S4x64x64x64_S4x64x64x64_0_2_3_1 : S4x64x64x64.Transposes [0, 2, 3, 1] S4x64x64x64
  shapeCasts_S4x64x64x64_S16384x64 : S4x64x64x64.ShapeCasts S16384x64
  shapeCasts_S4x1x64x64_S16384 : S4x1x64x64.ShapeCasts S16384
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S16384x64_S64x16384_1_0 : S16384x64.Transposes [1, 0] S64x16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S_d0_1 : S16384x16384.ReducesTo [0, 1] S_
  gather_S4x64x128x128_S64x1_S4x64x64x128_013_2_n_n_2_1_4641128_wf : GatherDims.WF S4x64x128x128 S64x1 S4x64x64x128 [0, 1, 3] [2] [] [2] [] 1 ![4, 64, 1, 128]
  gather_S4x64x64x128_S64x1_S4x64x64x64_012_3_n_n_3_1_464641_wf : GatherDims.WF S4x64x64x128 S64x1 S4x64x64x64 [0, 1, 2] [3] [] [3] [] 1 ![4, 64, 64, 1]
  gather_S4x1x128x128_S64x1_S4x1x64x128_013_2_n_n_2_1_411128_wf : GatherDims.WF S4x1x128x128 S64x1 S4x1x64x128 [0, 1, 3] [2] [] [2] [] 1 ![4, 1, 1, 128]
  gather_S4x1x64x128_S64x1_S4x1x64x64_012_3_n_n_3_1_41641_wf : GatherDims.WF S4x1x64x128 S64x1 S4x1x64x64 [0, 1, 2] [3] [] [3] [] 1 ![4, 1, 64, 1]
  dot_S16384x64_S64x16384_S16384x16384_1_0_0_1_n_n_wf : DotDims.WF S16384x64 S64x16384 S16384x16384 [1] [0] [0] [1] [] []

variable [Facts₀]

def gather_S4x64x128x128_S64x1_S4x64x64x128_013_2_n_n_2_1_4641128 : GatherDims S4x64x128x128 S64x1 S4x64x64x128 where
  offsetDims := [0, 1, 3]
  collapsedSliceDims := [2]
  operandBatchingDims := []
  startIndicesBatchingDims := []
  startIndexMap := [2]
  indexVectorDim := 1
  sliceSizes := ![4, 64, 1, 128]
  wf := gather_S4x64x128x128_S64x1_S4x64x64x128_013_2_n_n_2_1_4641128_wf
def gather_S4x64x64x128_S64x1_S4x64x64x64_012_3_n_n_3_1_464641 : GatherDims S4x64x64x128 S64x1 S4x64x64x64 where
  offsetDims := [0, 1, 2]
  collapsedSliceDims := [3]
  operandBatchingDims := []
  startIndicesBatchingDims := []
  startIndexMap := [3]
  indexVectorDim := 1
  sliceSizes := ![4, 64, 64, 1]
  wf := gather_S4x64x64x128_S64x1_S4x64x64x64_012_3_n_n_3_1_464641_wf
def gather_S4x1x128x128_S64x1_S4x1x64x128_013_2_n_n_2_1_411128 : GatherDims S4x1x128x128 S64x1 S4x1x64x128 where
  offsetDims := [0, 1, 3]
  collapsedSliceDims := [2]
  operandBatchingDims := []
  startIndicesBatchingDims := []
  startIndexMap := [2]
  indexVectorDim := 1
  sliceSizes := ![4, 1, 1, 128]
  wf := gather_S4x1x128x128_S64x1_S4x1x64x128_013_2_n_n_2_1_411128_wf
def gather_S4x1x64x128_S64x1_S4x1x64x64_012_3_n_n_3_1_41641 : GatherDims S4x1x64x128 S64x1 S4x1x64x64 where
  offsetDims := [0, 1, 2]
  collapsedSliceDims := [3]
  operandBatchingDims := []
  startIndicesBatchingDims := []
  startIndexMap := [3]
  indexVectorDim := 1
  sliceSizes := ![4, 1, 64, 1]
  wf := gather_S4x1x64x128_S64x1_S4x1x64x64_012_3_n_n_3_1_41641_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.Launch.lean ====
/-
  The run of the kernel program around its one region, for windows that share an array.

  The program is seven stretches of host operations (the resize by two row gathers, the flattening, the row
  normalisation, the label column and row), the region, and one more host operation (the 1x1 result read as a scalar).
  Two input windows of the region read the same array (the normalised features, once by row block and once by column
  block), so the array's buffer is held by halves, one half per window, while the region runs, and put together again
  at its exit. The thread state between two segments is every unscoped buffer of the core at a valuation, beside the
  generator register and the (empty) debt of the core.
-/
import proofs.«164804_j46385646796817_1_alg».proof.Proof.Gen.Kernel.Launch
import proofs.«164804_j46385646796817_1_alg».proof.Proof.Gen.Kernel.Points
import Idealize.ShloMosaic.Lib.Pipeline.Regions
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The host operations before the region -/

/-- Core `c`'s buffers at launch, as a valuation; -/
abbrev V₀ (c : Dev nD) : Valuation τ sig (Elt F) := fun b => m (c, b)
/-- after each of the seven stretches; -/
abbrev V₁ (c : Dev nD) : Valuation τ sig (Elt F) := StableHlo.after hostOps0 (V₀ m c)
abbrev V₂ (c : Dev nD) : Valuation τ sig (Elt F) := StableHlo.after hostOps0_1 (V₁ m c)
abbrev V₃ (c : Dev nD) : Valuation τ sig (Elt F) := StableHlo.after hostOps0_2 (V₂ m c)
abbrev V₄ (c : Dev nD) : Valuation τ sig (Elt F) := StableHlo.after hostOps0_3 (V₃ m c)
abbrev V₅ (c : Dev nD) : Valuation τ sig (Elt F) := StableHlo.after hostOps0_4 (V₄ m c)
abbrev V₆ (c : Dev nD) : Valuation τ sig (Elt F) := StableHlo.after hostOps0_5 (V₅ m c)
/-- and when the region is entered. -/
abbrev V₇ (c : Dev nD) : Valuation τ sig (Elt F) := StableHlo.after hostOps0_6 (V₆ m c)
abbrev V (c : Dev nD) (b : Ref sig .tc) : Buf (Elt F) ((c : Thread nD τ).loc b) := V₇ m c b

/-! ## The segments -/

abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the generator register at some state and the core's empty debt. -/
abbrev R (c : Dev nD) : sProp 𝕄 :=
  iprop((∃ r, prngReg c r) ∗ ∃ W, owes (c : Thread nD τ) (0 : CellTallies nD τ sig Unit) W)

theorem fresh_of_forall {ops : List (HloOp τ sig (Elt F))} (h : ops.Forall fun op => op.fresh = ∅) : ∀ op ∈ ops, op.fresh = ∅ :=
  List.forall_iff_forall_mem.mp h

def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops (fun op h => sub_ucRefs op ((List.forall_iff_forall_mem.mp hsub) op h)) hf W R

theorem fresh0 : ∀ op ∈ (hostOps0 (F := F)), op.fresh = ∅ := by
  intro _ h; (repeat (cases h with | head => rfl | tail _ h => ?_)); exact nomatch h

theorem fresh1 : ∀ op ∈ (hostOps0_1 (F := F)), op.fresh = ∅ := by
  intro _ h; (repeat (cases h with | head => rfl | tail _ h => ?_)); exact nomatch h
theorem fresh2 : ∀ op ∈ (hostOps0_2 (F := F)), op.fresh = ∅ := by
  intro _ h; (repeat (cases h with | head => rfl | tail _ h => ?_)); exact nomatch h
theorem fresh3 : ∀ op ∈ (hostOps0_3 (F := F)), op.fresh = ∅ := by
  intro _ h; (repeat (cases h with | head => rfl | tail _ h => ?_)); exact nomatch h
theorem fresh4 : ∀ op ∈ (hostOps0_4 (F := F)), op.fresh = ∅ := by
  intro _ h; (repeat (cases h with | head => rfl | tail _ h => ?_)); exact nomatch h
theorem fresh5 : ∀ op ∈ (hostOps0_5 (F := F)), op.fresh = ∅ := by
  intro _ h; (repeat (cases h with | head => rfl | tail _ h => ?_)); exact nomatch h
theorem fresh6 : ∀ op ∈ (hostOps0_6 (F := F)), op.fresh = ∅ := by
  intro _ h; (repeat (cases h with | head => rfl | tail _ h => ?_)); exact nomatch h
theorem fresh7 : ∀ op ∈ (hostOps1 (F := F)), op.fresh = ∅ := by
  intro _ h; (repeat (cases h with | head => rfl | tail _ h => ?_)); exact nomatch h

/-! ## The pipeline's proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- what the accumulator's staging buffer holds after the body at each position: a parameter here
variable (acc : Dev nD → (n : ℕ) → n < cfg0.N → Vec F S1x1 .f32)

/-- The proof data on core `c`: the arrays as the region finds them; after the body each input's buffer at its block
    and the accumulator's at `acc`; the shared array held by halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc c t.val t.isLt
  Φ _ := Pipeline.ΦA spec0 c
  q w := match w with
    | ⟨0, _⟩ => fullShare.left
    | ⟨1, _⟩ => fullShare.right
    | _ => fullShare
  owed _ := 0

/-- The valuation the region leaves: the result array at what the pipeline wrote back, every other buffer as found. -/
abbrev V₈ (c : Dev nD) : Valuation τ sig (Elt F) :=
  Function.update (V₇ m c) (Proc.devRef .tc main_v47) ((dats m acc 0 c).arrAt 4 cfg0.N)
abbrev V₉ (c : Dev nD) : Valuation τ sig (Elt F) := StableHlo.after hostOps1 (V₈ m acc c)

/-! ## The buffers behind the windows -/

/-- The four buffers behind the region's five windows. -/
abbrev T : Finset (DevRef τ sig) :=
  {Proc.devRef .tc main_v44, Proc.devRef .tc main_v45, Proc.devRef .tc main_v46, Proc.devRef .tc main_v47}
theorem T_sub : (T : Finset (DevRef τ sig)) ⊆ ucRefs τ sig := by decide

theorem held_T (c : Dev nD) (W : Valuation τ sig (Elt F)) :
    (StableHlo.held (c : Thread nD τ) T W : sProp 𝕄)
      = iprop((((c : Thread nD τ).1, Proc.devRef .tc main_v44) ↦{fullShare} W (Proc.devRef .tc main_v44))
          ∗ (((c : Thread nD τ).1, Proc.devRef .tc main_v45) ↦{fullShare} W (Proc.devRef .tc main_v45))
          ∗ (((c : Thread nD τ).1, Proc.devRef .tc main_v46) ↦{fullShare} W (Proc.devRef .tc main_v46))
          ∗ (((c : Thread nD τ).1, Proc.devRef .tc main_v47) ↦{fullShare} W (Proc.devRef .tc main_v47))) := by
  unfold StableHlo.held T
  rw [bigSep_insert (by decide), bigSep_insert (by decide), bigSep_insert (by decide), bigSep_singleton]
  rfl

/-- A whole buffer held at the full share is held by its two halves. -/
theorem split_half {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The proof data's arrays, one by one: the shared array by halves, the others whole. -/
theorem arrays_list (c : Dev nD) (Fa : (w : Fin cfg0.W) → Buf (Elt F) ((cfg0.win w).arr.view.loc (c.tc : Thread nD τ))) :
    ((dats m acc 0 c).arrays Fa : sProp 𝕄)
      = iprop((((c : Thread nD τ).1, Proc.devRef .tc main_v44) ↦{fullShare.left} Fa 0)
          ∗ (((c : Thread nD τ).1, Proc.devRef .tc main_v44) ↦{fullShare.right} Fa 1)
          ∗ (((c : Thread nD τ).1, Proc.devRef .tc main_v45) ↦{fullShare} Fa 2)
          ∗ (((c : Thread nD τ).1, Proc.devRef .tc main_v46) ↦{fullShare} Fa 3)
          ∗ (((c : Thread nD τ).1, Proc.devRef .tc main_v47) ↦{fullShare} Fa 4)) := by
  unfold Dat.arrays
  have h : ∀ w ∈ (Finset.univ : Finset (Fin cfg0.W)),
      ((cfg0.win w).arr.view.loc (c.tc : Thread nD τ) ↦[(cfg0.win w).arr.view.set]{(dats m acc 0 c).share w} Fa w : sProp 𝕄)
        = ((cfg0.win w).arr.view.loc (c.tc : Thread nD τ) ↦{(dats m acc 0 c).share w} Fa w) := fun w _ => by
    rw [(arr_whole0 w).set_eq_univ]
  rw [bigSep_congr h, bigSep_W0]
  rfl

/-! ## The valuation the region leaves, buffer by buffer -/

theorem ne44 : (Proc.devRef .tc main_v44 : DevRef τ sig) ≠ Proc.devRef .tc main_v47 := by decide
theorem ne45 : (Proc.devRef .tc main_v45 : DevRef τ sig) ≠ Proc.devRef .tc main_v47 := by decide
theorem ne46 : (Proc.devRef .tc main_v46 : DevRef τ sig) ≠ Proc.devRef .tc main_v47 := by decide
theorem v47_mem_T : (Proc.devRef .tc main_v47 : DevRef τ sig) ∈ (T : Finset (DevRef τ sig)) := by decide

theorem V₈_of_ne (c : Dev nD) (b : DevRef τ sig) (h : b ≠ Proc.devRef .tc main_v47) : V₈ m acc c b = V₇ m c b :=
  Function.update_of_ne h _ _
theorem V₈_v47 (c : Dev nD) : V₈ m acc c (Proc.devRef .tc main_v47) = (dats m acc 0 c).arrAt 4 cfg0.N :=
  Function.update_self ..

theorem held_rest_V₈ (c : Dev nD) :
    (StableHlo.held (c : Thread nD τ) (ucRefs τ sig \ T) (V₈ m acc c) : sProp 𝕄) = StableHlo.held (c : Thread nD τ) (ucRefs τ sig \ T) (V₇ m c) :=
  StableHlo.held_congr _ fun b hb => V₈_of_ne m acc c b fun e => (Finset.mem_sdiff.mp hb).2 (e ▸ v47_mem_T)

variable (hbody : ∀ c, BodyObligation (dats m acc 0 c) (defs₀ (F := F)) 𝒱₀ () Set.univ)

set_option maxHeartbeats 2000000 in
/-- The region: entered from every unscoped buffer at the contents after the host operations, the four buffers behind
    its windows into the pipeline (the shared one split into its halves), the generator register into the invariant,
    the other buffers bypassing; left with the result array at what the pipeline wrote back. -/
def reg0 : Pipeline.RegionSeg (pcfgs (F := F)) adm (dats m acc) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (ucRefs τ sig) (V₇ m c) ∗ R c)
  post c := iprop(StableHlo.held (c : Thread nD τ) (ucRefs τ sig) (V₈ m acc c) ∗ R c)
  X c := iprop(∃ r, prngReg c r)
  Y c := iprop(∃ r, prngReg c r)
  Z c := iprop(StableHlo.held (c : Thread nD τ) (ucRefs τ sig \ T) (V₇ m c))
  hentry c := by
    rw [Pipeline.ownSems0_none, arrays_list, StableHlo.held_sub_split (c : Thread nD τ) T_sub (V₇ m c), held_T]
    have hs := (split_half (F := F) (ℓ := ((c : Thread nD τ).1, Proc.devRef .tc main_v44)) (V₇ m c (Proc.devRef .tc main_v44))).1
    iintro ⟨⟨⟨⟨H44, H45, H46, H47⟩, HZ⟩, Hp, HO⟩, -, -⟩
    ihave H44' := hs $$ H44
    icases H44' with ⟨H44l, H44r⟩
    imodintro
    isplitl [H44l H44r H45 H46 H47]
    · isplitl [H44l]; · iexact H44l
      isplitl [H44r]; · iexact H44r
      isplitl [H45]; · iexact H45
      isplitl [H46]; · iexact H46
      iexact H47
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m acc 0 c).Φ 0 = Pipeline.ΦA spec0 c from rfl]; unfold Pipeline.ΦA
    iintro ⟨HX, -, Hr⟩
    isplitl [Hr]; · iexact Hr
    iexact HX
  hout c := by
    rw [show (dats m acc 0 c).Φ (Fin.last _) = Pipeline.ΦA spec0 c from rfl, Pipeline.ownSems0_none]; unfold Pipeline.ΦA
    iintro ⟨Hr, Hp⟩
    isplitl [Hp]; · iexact Hp
    isplitr; · iempintro
    iexact Hr
  hexit c := by
    rw [arrays_list, StableHlo.held_sub_split (c : Thread nD τ) T_sub (V₈ m acc c), held_T, held_rest_V₈,
      V₈_of_ne m acc c _ ne44, V₈_of_ne m acc c _ ne45, V₈_of_ne m acc c _ ne46, V₈_v47]
    rw [(dats m acc 0 c).arrAt_in 0 rfl _, (dats m acc 0 c).arrAt_in 1 rfl _, (dats m acc 0 c).arrAt_in 2 rfl _, (dats m acc 0 c).arrAt_in 3 rfl _]
    have hs := (split_half (F := F) (ℓ := ((c : Thread nD τ).1, Proc.devRef .tc main_v44)) (V₇ m c (Proc.devRef .tc main_v44))).2
    iintro ⟨⟨H44l, H44r, H45, H46, H47⟩, HO, HY, HZ⟩
    ihave H44 := hs $$ [H44l H44r]
    · isplitl [H44l]; · iexact H44l
      iexact H44r
    imodintro
    isplitl [H44 H45 H46 H47 HZ]
    · isplitr [HZ]
      · isplitl [H44]; · iexact H44
        isplitl [H45]; · iexact H45
        isplitl [H46]; · iexact H46
        iexact H47
      · iexact HZ
    isplitl [HY]; · iexact HY
    unfold Pipeline.Dat.owesAt Pipeline.owesWithin
    icases HO with ⟨%W, -, HO⟩; iexists W; iexact HO

/-- @main as the list of its nine segments. -/
abbrev segs : List (Pipeline.Seg (pcfgs (F := F)) adm (dats m acc) () defs₀ 𝒱₀ L lv) :=
  [.host (hseg hostOps0 hostOps0_sub fresh0 (V₀ m)), .host (hseg hostOps0_1 hostOps0_1_sub fresh1 (V₁ m)),
   .host (hseg hostOps0_2 hostOps0_2_sub fresh2 (V₂ m)), .host (hseg hostOps0_3 hostOps0_3_sub fresh3 (V₃ m)),
   .host (hseg hostOps0_4 hostOps0_4_sub fresh4 (V₄ m)), .host (hseg hostOps0_5 hostOps0_5_sub fresh5 (V₅ m)),
   .host (hseg hostOps0_6 hostOps0_6_sub fresh6 (V₆ m)), .region (reg0 m acc hbody),
   .host (hseg hostOps1 hostOps1_sub fresh7 (V₈ m acc))]

theorem main_eq (c : Dev nD) : main (F := F) c = Pipeline.Seg.run (segs m acc hbody) := by
  rw [main_chain c, Pipeline.Seg.run_eq_chain]; rfl

end Cert.Kernel.Hand

end
-- ==== Proof.K.Run.lean ====
/-
  The run of the kernel program: the segments of @main composed, from any memory with zero counters to a final state in
  which every unscoped buffer of every core holds what the host operations and the region computed.
-/
import proofs.«164804_j46385646796817_1_alg».proof.Proof.K.Launch

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → (n : ℕ) → n < cfg0.N → Vec F S1x1 .f32)

/-- The launch element: the pipeline library's at the staging cells. -/
def u₀ : UR sig nD τ := initOf (Pipeline.cells cfgs cellOf_inj) (Pipeline.launchToks cfgs cellOf_inj)

/-- The last thread state: every unscoped buffer after the last host operation, the generator register at some state. -/
abbrev Tₙ (c : Dev nD) : sProp 𝕄 :=
  iprop(StableHlo.held (c : Thread nD τ) (ucRefs τ sig) (V₉ m acc c) ∗ ∃ r, prngReg c r)

set_option backward.isDefEq.respectTransparency.types false in
set_option maxHeartbeats 2000000 in
/-- At any float values, from any memory with zero counters: every weakly fair execution of @main on the TensorCores
    terminates, nothing faulting, and every final state has every unscoped buffer at the valuation the segments compute. -/
theorem run_main (hbody : ∀ c, BodyObligation (dats m acc 0 c) (defs₀ (F := F)) 𝒱₀ () Set.univ) : θ_run defs (onTc (τ := τ) (main (F := F))) ⟨m, fun _ => 0, ρ⟩
    (fun r => ∀ c : Dev nD, ∀ b ∈ ucRefs τ sig, r.2.mem ((c : Dev nD), b) = V₉ m acc c b) :=
  Pipeline.θ_run_regions_kit (pcfgs (F := F)) adm (dats m acc) () cellOf_inj EP defs₀ 𝒱₀ L lv m ρ main (segs m acc hbody)
    (fun c Q => by rw [main_eq m acc hbody c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c)) (Tₙ := Tₙ m acc)
    (hch := by
      refine ⟨fun c => .rfl, fun c => .rfl, fun c => .rfl, fun c => .rfl, fun c => .rfl, fun c => .rfl, fun c => .rfl, fun c => .rfl, fun c => .rfl, fun c => ?_⟩
      show iprop(StableHlo.held (c : Thread nD τ) (ucRefs τ sig) (V₉ m acc c) ∗ R c)
        ⊢ iprop(Tₙ m acc c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (ucRefs τ sig) (V₀ m c) from unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem ((c : Dev nD), b) = V₉ m acc c b)
    (hfin := fun c s' => by
      dsimp only [Tₙ]; unfold StableHlo.held
      iintro ⟨⟨Hh, -⟩, HSI⟩
      ihave Hr := (pointsTo_read_all (ucRefs τ sig) (fun b => ((c : Dev nD), b)) (V₉ m acc c) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.K.Conds.lean ====
/- The two branch conditions of the kernel body as propositions over the grid coordinates, their closed
   forms over the 256 points of the 16×16 grid, and the staging memrefs the body is called with at a point. -/
import proofs.«164804_j46385646796817_1_alg».proof.Proof.Gen.Kernel.Launch
import proofs.«164804_j46385646796817_1_alg».proof.Proof.Gen.Kernel.Skeleton
import proofs.«164804_j46385646796817_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional: both grid coordinates are 0 (the scalar chain of the
    body with the coordinates substituted). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The condition of the body's second conditional: both grid coordinates are 15. -/
abbrev cond0_1 (i : grid0.Coords) : Prop :=
  (Scalar.cmpi .ne (Scalar.extui (Scalar.andi (Scalar.cmpi .eq (BitVec.ofNat 32 (i 0).val) 15#32) (Scalar.cmpi .eq (BitVec.ofNat 32 (i 1).val) 15#32))) 0#32) = 1#1

/-- The first condition holds at the first point only. -/
theorem hcond0_0 : ∀ t : Fin cfg0.N, cond0_0 (grid0.coords t) ↔ t.val = 0 :=
  (by decide +kernel : ∀ t : Fin grid0.N, cond0_0 (grid0.coords t) ↔ t.val = 0)

/-- The second condition holds at the last point only. -/
theorem hcond0_1 : ∀ t : Fin cfg0.N, cond0_1 (grid0.coords t) ↔ t.val = 255 :=
  (by decide +kernel : ∀ t : Fin grid0.N, cond0_1 (grid0.coords t) ↔ t.val = 255)

/-! ## The staging memrefs at a point -/

/-- One staging buffer of the output window, through which its contents are stated. -/
abbrev VO0_4 : View sig .tc .vmem S1x1 .f32 := (Memref.whole cc0_stg4_0 : Memref sig .tc .vmem S1x1 .f32).view

/-- Each window's current staging memref at point `t`, and its wholeness. -/
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- The body as the pipeline calls it at point `t` is the kernel function on these memrefs. -/
theorem bodyAt0_eq (t : Fin cfg0.N) :
    bodyAt0 (F := F) t = cc0__masked_cos_sim_sum_kernel (grid0.coords t) (ms0_0 t) (hs0_0 t) (ms0_1 t) (hs0_1 t) (ms0_2 t) (hs0_2 t) (ms0_3 t) (hs0_3 t) (ms0_4 t) (hs0_4 t) := rfl

end Cert.Kernel.Hand

end
-- ==== Proof.K.RunA.lean ====
/- The kernel body run as a whole at the FIRST grid point: what it leaves in the accumulator, as the list of
   pieces its stores write, together with the body's triple on any whole memrefs. -/
import proofs.«164804_j46385646796817_1_alg».proof.Proof.K.Conds

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (first conditional taken, second not): the accumulator is zeroed and the block's
    sum added to it.
    The pieces the body's stores leave in the accumulator's memref (last first), with the proof that on whole
    memrefs — the four inputs at their contents, the accumulator at its running contents — the body runs to a
    continuation holding the inputs as they were and the accumulator with those pieces written. -/
noncomputable def kernelRun0_A (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunB.lean ====
/- The kernel body run as a whole at a MIDDLE grid point (neither the first nor the last): what it leaves in
   the accumulator, as the list of pieces its stores write, together with the body's triple on any whole memrefs. -/
import proofs.«164804_j46385646796817_1_alg».proof.Proof.K.RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (neither conditional taken): the block's sum is added to the running accumulator.
    The pieces the body's stores leave in the accumulator's memref (last first), with the proof that on whole
    memrefs — the four inputs at their contents, the accumulator at its running contents — the body runs to a
    continuation holding the inputs as they were and the accumulator with those pieces written. -/
noncomputable def kernelRun0_B (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunC.lean ====
/- The kernel body run as a whole at the LAST grid point: what it leaves in the accumulator, as the list of
   pieces its stores write, together with the body's triple on any whole memrefs. -/
import proofs.«164804_j46385646796817_1_alg».proof.Proof.K.RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (second conditional taken, first not): the block's sum is added to the running
    accumulator and the total is scaled.
    The pieces the body's stores leave in the accumulator's memref (last first), with the proof that on whole
    memrefs — the four inputs at their contents, the accumulator at its running contents — the body runs to a
    continuation holding the inputs as they were and the accumulator with those pieces written. -/
noncomputable def kernelRun0_C (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.Outs.lean ====
/- What each of the three runs of the kernel body leaves in the accumulator: the pieces cover its one-element
   block, and read back they are the body's arithmetic on the point's input blocks and the accumulator's
   running contents — zero then the block's sum at the first point, the running contents plus the block's sum
   at a middle point, that total scaled at the last point. -/
import proofs.«164804_j46385646796817_1_alg».proof.Proof.K.RunC
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the first point's run tile the one-element block, so they cover it. -/
theorem cover0_A_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_A c i arg2 harg2 arg3 harg3 arg4 harg4 arg5 harg5 arg6 harg6 hc0 hc1 x0 x1 x2 x3 xo4).1, y ∈ pc.1.set :=
  View.cover_of_tiledL (kernelRun0_A c i arg2 harg2 arg3 harg3 arg4 harg4 arg5 harg5 arg6 harg6 hc0 hc1 x0 x1 x2 x3 xo4).1 S1x1.size (by sl_kernel_rfl) y

/-- What that run leaves in the accumulator: its pieces read back over junk. -/
def out0_A_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_A c i arg2 harg2 arg3 harg3 arg4 harg4 arg5 harg5 arg6 harg6 hc0 hc1 x0 x1 x2 x3 xo4).1)

/-- The pieces of the middle point's run tile the one-element block, so they cover it. -/
theorem cover0_B_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1x1.size (by sl_kernel_rfl) y

/-- What that run leaves in the accumulator: its pieces read back over junk. -/
def out0_B_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-- The pieces of the last point's run tile the one-element block, so they cover it. -/
theorem cover0_C_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_C c i arg2 harg2 arg3 harg3 arg4 harg4 arg5 harg5 arg6 harg6 hc0 hc1 x0 x1 x2 x3 xo4).1, y ∈ pc.1.set :=
  View.cover_of_tiledL (kernelRun0_C c i arg2 harg2 arg3 harg3 arg4 harg4 arg5 harg5 arg6 harg6 hc0 hc1 x0 x1 x2 x3 xo4).1 S1x1.size (by sl_kernel_rfl) y

/-- What that run leaves in the accumulator: its pieces read back over junk. -/
def out0_C_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_C c i arg2 harg2 arg3 harg3 arg4 harg4 arg5 harg5 arg6 harg6 hc0 hc1 x0 x1 x2 x3 xo4).1)

/-- The zero offsets of a rank-2 whole-block rectangle. -/
theorem hz2 : (![0, 0] : Fin 2 → Nat) = fun _ => 0 := by decide

/-- At the first point the accumulator ends at the block's sum added to zero, whatever it held. -/
theorem out0_A_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    out0_A_4 c i arg2 harg2 arg3 harg3 arg4 harg4 arg5 harg5 arg6 harg6 hc0 hc1 x0 x1 x2 x3 xo4 = k0_pay2 x0 x1 x2 x3 k0_pay1 := by
  unfold out0_A_4
  rw [View.read_writes_eq_canon _ _ _ (cover0_A_4 c i arg2 harg2 arg3 harg3 arg4 harg4 arg5 harg5 arg6 harg6 hc0 hc1 x0 x1 x2 x3 xo4)]
  unfold kernelRun0_A
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

/-- At a middle point the accumulator ends at the block's sum added to what it held. -/
theorem out0_B_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    out0_B_4 c i arg2 harg2 arg3 harg3 arg4 harg4 arg5 harg5 arg6 harg6 hc0 hc1 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

/-- At the last point the accumulator ends at the scaled total: the block's sum added to what it held, times
    the constant. -/
theorem out0_C_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) :
    out0_C_4 c i arg2 harg2 arg3 harg3 arg4 harg4 arg5 harg5 arg6 harg6 hc0 hc1 x0 x1 x2 x3 xo4 = k0_pay3 (k0_pay2 x0 x1 x2 x3 xo4) := by
  unfold out0_C_4
  rw [View.read_writes_eq_canon _ _ _ (cover0_C_4 c i arg2 harg2 arg3 harg3 arg4 harg4 arg5 harg5 arg6 harg6 hc0 hc1 x0 x1 x2 x3 xo4)]
  unfold kernelRun0_C
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

end Cert.Kernel.Hand

end
-- ==== Proof.K.Body.lean ====
/-
  The body of the region, point by point.

  The region's grid has 256 points. At the first the body zeroes the accumulator and adds the sum of the point's
  block to it; at a middle point it adds the block's sum to what the accumulator holds; at the last it adds the
  block's sum and scales the total. The accumulator's staging buffer is written back at the last point only, so at
  every later point it holds what the body left at the point before; each input's staging buffer holds the window's
  block of the array as the region found it. So, by the three runs of the body, the accumulator after position n is
  the recursion below, and the body meets the pipeline's obligation at every point.
-/
import proofs.«164804_j46385646796817_1_alg».proof.Proof.K.Launch
import proofs.«164804_j46385646796817_1_alg».proof.Proof.K.Outs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

variable (m : (ℓ : Loc nD τ sig) → Buf (Elt F) ℓ)

/-! ## What the accumulator holds after each point -/

/-- THE ACCUMULATION. What the accumulator's staging buffer holds after the body at position n: at the first
    position the block's sum added to zero; at a later one the block's sum added to what position n - 1 left (the
    buffer is not written back between), and at the last that total scaled. -/
def outsAt0 (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) k0_pay1
  | n + 1, hn =>
    if n + 1 = 255 then
      k0_pay3 (k0_pay2 (iblk m c 0 ⟨n + 1, hn⟩) (iblk m c 1 ⟨n + 1, hn⟩) (iblk m c 2 ⟨n + 1, hn⟩) (iblk m c 3 ⟨n + 1, hn⟩)
        (outsAt0 c n (Nat.lt_of_succ_lt hn)))
    else
      k0_pay2 (iblk m c 0 ⟨n + 1, hn⟩) (iblk m c 1 ⟨n + 1, hn⟩) (iblk m c 2 ⟨n + 1, hn⟩) (iblk m c 3 ⟨n + 1, hn⟩)
        (outsAt0 c n (Nat.lt_of_succ_lt hn))

/-- At the first point: the block's sum added to zero. -/
theorem outsAt0_A (c : Dev nD) (t : Fin cfg0.N) (h0 : t.val = 0) :
    outsAt0 m c t.val t.isLt = k0_pay2 (iblk m c 0 t) (iblk m c 1 t) (iblk m c 2 t) (iblk m c 3 t) k0_pay1 := by
  obtain ⟨n, hn⟩ := t
  cases n with
  | zero => exact rfl
  | succ n => exact absurd h0 (Nat.succ_ne_zero n)

/-- At a middle point: the block's sum added to what the point before left. -/
theorem outsAt0_B (c : Dev nD) (t : Fin cfg0.N) (h0 : t.val ≠ 0) (h1 : t.val ≠ 255) :
    outsAt0 m c t.val t.isLt = k0_pay2 (iblk m c 0 t) (iblk m c 1 t) (iblk m c 2 t) (iblk m c 3 t)
      (outsAt0 m c (t.val - 1) (Nat.lt_of_le_of_lt (Nat.sub_le _ _) t.isLt)) := by
  obtain ⟨n, hn⟩ := t
  cases n with
  | zero => exact absurd rfl h0
  | succ n => exact (if_neg h1).trans rfl

/-- At the last point: that total, scaled. -/
theorem outsAt0_C (c : Dev nD) (t : Fin cfg0.N) (h1 : t.val = 255) :
    outsAt0 m c t.val t.isLt = k0_pay3 (k0_pay2 (iblk m c 0 t) (iblk m c 1 t) (iblk m c 2 t) (iblk m c 3 t)
      (outsAt0 m c (t.val - 1) (Nat.lt_of_le_of_lt (Nat.sub_le _ _) t.isLt))) := by
  obtain ⟨n, hn⟩ := t
  cases n with
  | zero => exact absurd h1 (by show ¬ (0 : ℕ) = 255; omega)
  | succ n => exact (if_pos h1).trans rfl

/-! ## The proof data, projected -/

/-- The proof data's arrays are the contents the region finds (the definition projected, nothing unfolded further). -/
theorem A_eq (c : Dev nD) (w : Fin cfg0.W) : (dats m (outsAt0 m) 0 c).A w = V m c (Pipeline.arrRef spec0 w) := by
  dsimp only [dats]

/-- What the body leaves, window by window. -/
theorem after_0 (c : Dev nD) (t : Fin cfg0.N) : (dats m (outsAt0 m) 0 c).after 0 t = iblk m c 0 t := by dsimp only [dats]
theorem after_1 (c : Dev nD) (t : Fin cfg0.N) : (dats m (outsAt0 m) 0 c).after 1 t = iblk m c 1 t := by dsimp only [dats]
theorem after_2 (c : Dev nD) (t : Fin cfg0.N) : (dats m (outsAt0 m) 0 c).after 2 t = iblk m c 2 t := by dsimp only [dats]
theorem after_3 (c : Dev nD) (t : Fin cfg0.N) : (dats m (outsAt0 m) 0 c).after 3 t = iblk m c 3 t := by dsimp only [dats]
theorem after_4 (c : Dev nD) (t : Fin cfg0.N) : (dats m (outsAt0 m) 0 c).after 4 t = outsAt0 m c t.val t.isLt := by dsimp only [dats]

/-! ## What the staging buffers hold when the body is called -/

/-- Each input's current staging buffer holds its block at every point, fetched there or not: unfetched, the block
    index has not moved since the fetch, and the body leaves the block in place. -/
theorem before_in_0 (c : Dev nD) (t : Fin cfg0.N) (d) : (dats m (outsAt0 m) 0 c).before 0 t d = iblk m c 0 t :=
  ((dats m (outsAt0 m) 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_in_1 (c : Dev nD) (t : Fin cfg0.N) (d) : (dats m (outsAt0 m) 0 c).before 1 t d = iblk m c 1 t :=
  ((dats m (outsAt0 m) 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_in_2 (c : Dev nD) (t : Fin cfg0.N) (d) : (dats m (outsAt0 m) 0 c).before 2 t d = iblk m c 2 t :=
  ((dats m (outsAt0 m) 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_in_3 (c : Dev nD) (t : Fin cfg0.N) (d) : (dats m (outsAt0 m) 0 c).before 3 t d = iblk m c 3 t :=
  ((dats m (outsAt0 m) 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At a point after the first the accumulator's staging buffer holds what the body left at the point before: the
    buffer is written back at the last point only, and the window is live and uncut. -/
theorem before_out (c : Dev nD) (t : Fin cfg0.N) (ht : t.val ≠ 0) (d) :
    (dats m (outsAt0 m) 0 c).before 4 t d = outsAt0 m c (t.val - 1) (Nat.lt_of_le_of_lt (Nat.sub_le _ _) t.isLt) := by
  have hN : t.val < 256 := lt_of_lt_of_eq t.isLt (show cfg0.N = 256 from N_0)
  rw [Dat.before_out_kept _ 4 rfl t ht (Bool.eq_false_iff.mpr fun h => by have := (flush0_4 _).mp h; dsimp only at this; omega)
    (fun _ => rfl) (fun _ _ => rfl)]
  dsimp only [dats]

/-! ## The body obligation, at a generic point -/

/-- What the body is called with at point t: the invariant, the core's (empty) debt, and the five staging buffers, -/
def bodyPre (c : Dev nD) (t : Fin cfg0.N) : sProp 𝕄 :=
  iprop((dats m (outsAt0 m) 0 c).Φ t.castSucc ∗ (dats m (outsAt0 m) 0 c).owesAt () t.castSucc
    ∗ (∃ d, owns (c : Thread nD τ) (ms0_0 t) fullShare ((dats m (outsAt0 m) 0 c).before 0 t d))
    ∗ (∃ d, owns (c : Thread nD τ) (ms0_1 t) fullShare ((dats m (outsAt0 m) 0 c).before 1 t d))
    ∗ (∃ d, owns (c : Thread nD τ) (ms0_2 t) fullShare ((dats m (outsAt0 m) 0 c).before 2 t d))
    ∗ (∃ d, owns (c : Thread nD τ) (ms0_3 t) fullShare ((dats m (outsAt0 m) 0 c).before 3 t d))
    ∗ (∃ d, owns (c : Thread nD τ) (ms0_4 t) fullShare ((dats m (outsAt0 m) 0 c).before 4 t d)))

/-- and what it returns. -/
def bodyPost (c : Dev nD) (t : Fin cfg0.N) : sProp 𝕄 :=
  iprop((dats m (outsAt0 m) 0 c).Φ t.succ ∗ (dats m (outsAt0 m) 0 c).owesAt () t.succ
    ∗ owns (c : Thread nD τ) (ms0_0 t) fullShare ((dats m (outsAt0 m) 0 c).after 0 t)
    ∗ owns (c : Thread nD τ) (ms0_1 t) fullShare ((dats m (outsAt0 m) 0 c).after 1 t)
    ∗ owns (c : Thread nD τ) (ms0_2 t) fullShare ((dats m (outsAt0 m) 0 c).after 2 t)
    ∗ owns (c : Thread nD τ) (ms0_3 t) fullShare ((dats m (outsAt0 m) 0 c).after 3 t)
    ∗ owns (c : Thread nD τ) (ms0_4 t) fullShare ((dats m (outsAt0 m) 0 c).after 4 t))

set_option maxHeartbeats 1600000 in
/-- The body at any point. The inputs' staging buffers hold their blocks; the closed forms of the two conditions say
    which of the three runs the point is in. At the first point the accumulator's buffer holds contents nothing has
    named, and the run does not depend on them: it ends at the block's sum added to zero. At a later point the buffer
    holds what the point before left, and the run adds the block's sum to it (and scales the total at the last). The
    invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in_0, before_in_1, before_in_2, before_in_3]
  rw [show (dats m (outsAt0 m) 0 c).Φ t.succ = (dats m (outsAt0 m) 0 c).Φ t.castSucc from rfl,
    show (dats m (outsAt0 m) 0 c).owesAt () t.succ = (dats m (outsAt0 m) 0 c).owesAt () t.castSucc from rfl,
    after_0, after_1, after_2, after_3, after_4]
  have hN : t.val < 256 := lt_of_lt_of_eq t.isLt (show cfg0.N = 256 from N_0)
  by_cases h0 : t.val = 0
  · have h1 : t.val ≠ 255 := by omega
    rw [outsAt0_A m c t h0]
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h))
      (iblk m c 0 t) (iblk m c 1 t) (iblk m c 2 t) (iblk m c 3 t) ((dats m (outsAt0 m) 0 c).before 4 t d4)).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ _ _ _ (cover0_A_4 c _ _ _ _ _ _ _ _ _ _ _ _ _ _ _ _ _ _)).trans
      (out0_A_4_eq c (grid0.coords t) _ _ _ _ _ _ _ _ _ _ ((hcond0_0 t).mpr h0) (fun h => h1 ((hcond0_1 t).mp h))
        (iblk m c 0 t) (iblk m c 1 t) (iblk m c 2 t) (iblk m c 3 t) ((dats m (outsAt0 m) 0 c).before 4 t d4))
  · simp only [before_out m c t h0]
    by_cases h1 : t.val = 255
    · rw [outsAt0_C m c t h1]
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1)
        (iblk m c 0 t) (iblk m c 1 t) (iblk m c 2 t) (iblk m c 3 t)
        (outsAt0 m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ _ _ _ (cover0_C_4 c _ _ _ _ _ _ _ _ _ _ _ _ _ _ _ _ _ _)).trans
        (out0_C_4_eq c (grid0.coords t) _ _ _ _ _ _ _ _ _ _ (fun h => h0 ((hcond0_0 t).mp h)) ((hcond0_1 t).mpr h1)
          (iblk m c 0 t) (iblk m c 1 t) (iblk m c 2 t) (iblk m c 3 t)
          (outsAt0 m c (t.val - 1) (Nat.lt_of_le_of_lt (Nat.sub_le _ _) t.isLt)))
    · rw [outsAt0_B m c t h0 h1]
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h))
        (iblk m c 0 t) (iblk m c 1 t) (iblk m c 2 t) (iblk m c 3 t)
        (outsAt0 m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ _ _ _ (cover0_B_4 c _ _ _ _ _ _ _ _ _ _ _ _ _ _ _ _ _ _)).trans
        (out0_B_4_eq c (grid0.coords t) _ _ _ _ _ _ _ _ _ _ (fun h => h0 ((hcond0_0 t).mp h)) (fun h => h1 ((hcond0_1 t).mp h))
          (iblk m c 0 t) (iblk m c 1 t) (iblk m c 2 t) (iblk m c 3 t)
          (outsAt0 m c (t.val - 1) (Nat.lt_of_le_of_lt (Nat.sub_le _ _) t.isLt)))

/-- The pipeline's body obligation, at every point. -/
theorem body_obligation (c : Dev nD) : BodyObligation (dats m (outsAt0 m) 0 c) (defs₀ (F := F)) 𝒱₀ () Set.univ := fun t => by
  rw [bigSep_W0, bigSep_W0]
  exact sound_body m c t

end Cert.Kernel.Hand

end
-- ==== Proof.K.Final.lean ====
/- What the region's result array holds at the end: the accumulator's one-element block is written back once,
   after the last grid point, and that block is the whole array. -/
import proofs.«164804_j46385646796817_1_alg».proof.Proof.K.Launch
import Idealize.ShloMosaic.Lib.Pipeline.Value

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)
variable (acc : Dev nD → (n : ℕ) → n < cfg0.N → Vec F S1x1 .f32)

/-- The last point of the 16 × 16 grid. -/
def lastPt : Fin cfg0.N := ⟨255, by rw [show cfg0.N = 256 from N_0]; decide⟩

/-- The one write-back of the result window, after the last point, writes what the accumulator then holds:
    its block, read through zero offsets of the array's own sizes, is the array. -/
theorem flushed4 (c : Dev nD) (t : Fin cfg0.N) (hf : (cfg0.win 4).flush t = true) :
    (dats m acc 0 c).flushed 4 t
      = ((cfg0.win 4).blk t).view.read (Elt F) (acc c 255 lastPt.isLt : Buf (Elt F) ((c : Thread nD τ).loc main_v47)) := by
  have hN : cfg0.N = 256 := N_0
  have h1 : t.val = 255 := by have := (flush0_4 t).mp hf; have := t.isLt; omega
  obtain rfl : t = lastPt := Fin.ext h1
  show (cfg0.win 4).cut (grid0.coords lastPt) ((dats m acc 0 c).after 4 lastPt) = _
  rw [show (dats m acc 0 c).after 4 lastPt = acc c 255 lastPt.isLt from rfl]
  have hz' : (fun a => win0_4.index lastPt a * main_v47.ty.shape.size a) = fun _ => 0 :=
    funext fun a => by fin_cases a <;> decide
  exact (Memref.read_access_unit_zero (Elt F) main_v47 hz' (fun a => by rw [congrFun hz' a]; simp)
    (acc c 255 lastPt.isLt : Buf (Elt F) ((c : Thread nD τ).loc main_v47))).symm

/-- So the result array ends holding what the accumulator holds after the last point. -/
theorem final4 (c : Dev nD) :
    (dats m acc 0 c).arrAt 4 cfg0.N = (acc c 255 lastPt.isLt : Buf (Elt F) ((c : Thread nD τ).loc main_v47)) :=
  (dats m acc 0 c).arrAt_eq_of_cover 4 (acc c 255 lastPt.isLt : Buf (Elt F) ((c : Thread nD τ).loc main_v47))
    (flushed4 m acc c) fun i =>
    ⟨lastPt, (flush0_4 lastPt).mpr rfl, by
      show i ∈ ((View.whole main_v47).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

end Cert.Kernel.Hand

end
-- ==== Proof.K.HostValue.lean ====
import proofs.«164804_j46385646796817_1_alg».proof.Proof.K.Launch
import Idealize.ShloMosaic.Lib.StableHlo.Run

/-! The kernel program's host side read as functions of its two arguments.

Before its one region the program runs the same chain of tensor operations as the reference: it takes every second
row and column of each plane and flattens (`preF` for the features, `preL` for the labels) and divides each feature
row by the larger of its norm and a small constant (`normF`). It then rounds the normalised rows to the narrower
float format and lays the labels out as a column and as a row; these are the arrays the region's windows read.
After the region one more operation reads the region's 1 × 1 result as a scalar.

This module states the three stages over the kernel program's own vocabulary, spelled as the reference's are,
reads the arrays the region finds off the valuation at its entry, and reads the result and the arguments off the
valuation at the program's end. -/

noncomputable section

namespace Cert.Kernel.Hand

open Cert.Kernel Cert.Kernel.Gen Idealize.ShloMosaic Idealize.ShloMosaic.TcCoe Idealize.SL.Sem Idealize.ShloMosaic.StableHlo

/-! ## The index vectors -/

/-- `k ↦ 128 · k` for `k < 64`. -/
def idxTimes : IVec S64 32 :=
  muli (iotaInDim S64 32 0) (broadcastInDim S64 ![] bcast_S_S64 (constantI S_ 32 128#32))

/-- Floor division of a vector by a scalar as the program's helper computes it: the truncated quotient,
    lowered by one where dividend and divisor differ in sign and the remainder is not zero. -/
def floorDiv (a : IVec S64 32) (d : IVec S_ 32) : IVec S64 32 :=
  select
    (andi (cmpi .ne (signi a) (broadcastInDim S64 ![] bcast_S_S64 (signi (id d))))
      (cmpi .ne (Host.remsi a (broadcastInDim S64 ![] bcast_S_S64 (id d)))
        (broadcastInDim S64 ![] bcast_S_S64 (constantI S_ 32 0#32))))
    (subi (Host.divsi a (broadcastInDim S64 ![] bcast_S_S64 (id d)))
      (broadcastInDim S64 ![] bcast_S_S64 (constantI S_ 32 1#32)))
    (Host.divsi a (broadcastInDim S64 ![] bcast_S_S64 (id d)))

/-- `k ↦ ⌊128 · k / 64⌋` (that is `2 k`): the coordinate the `k`-th kept row, or column, is read at. -/
def idxBase : IVec S64 32 := floorDiv idxTimes (constantI S_ 32 64#32)

/-- A negative coordinate counts from the end of an axis of length 128. -/
def idxWrap (v : IVec S64 32) : IVec S64 32 :=
  select (cmpi .slt v (broadcastInDim S64 ![] bcast_S_S64 (constantI S_ 32 0#32)))
    (addi v (broadcastInDim S64 ![] bcast_S_S64 (constantI S_ 32 128#32))) v

/-- The row coordinates, as the column of start indices the first gather of each argument takes. -/
def idxRows : IVec S64x1 32 := broadcastInDim S64x1 ![0] bcast_S64_S64x1_0 (idxWrap idxBase)

/-- The column coordinates, for the second gather: the same vector, computed a second time by the program. -/
def idxCols : IVec S64x1 32 := broadcastInDim S64x1 ![0] bcast_S64_S64x1_0 (idxWrap idxBase)

theorem idxCols_eq : idxCols = idxRows := rfl

variable {F : FTy → Type} [FloatOps F]

/-! ## The four stages -/

/-- The feature rows: rows then columns of each plane subsampled, channels moved last, flattened. -/
def preF (x : FVec F S4x64x128x128 .f32) : FVec F S16384x64 .f32 :=
  shapeCast S16384x64
    (transpose S4x64x64x64 [0, 2, 3, 1]
      (Host.gather gather_S4x64x64x128_S64x1_S4x64x64x64_012_3_n_n_3_1_464641
        (Host.gather gather_S4x64x128x128_S64x1_S4x64x64x128_013_2_n_n_2_1_4641128 x idxRows) idxCols)
      transposes_S4x64x64x64_S4x64x64x64_0_2_3_1)
    shapeCasts_S4x64x64x64_S16384x64

/-- The labels: subsampled the same way and flattened. -/
def preL (l : IVec S4x1x128x128 32) : IVec S16384 32 :=
  shapeCast S16384
    (Host.gather gather_S4x1x64x128_S64x1_S4x1x64x64_012_3_n_n_3_1_41641
      (Host.gather gather_S4x1x128x128_S64x1_S4x1x64x128_013_2_n_n_2_1_411128 l idxRows) idxCols)
    shapeCasts_S4x1x64x64_S16384

/-- Each row divided by the larger of its Euclidean norm and the constant `0x2B8CBCCC` (about `1e-12`). -/
def normF (f : FVec F S16384x64 .f32) : FVec F S16384x64 .f32 :=
  Host.divf f
    (broadcastInDim S16384x64 ![0, 1] bcast_S16384x1_S16384x64_0_1
      (maximumf
        (Host.sqrt (broadcastInDim S16384x1 ![0] bcast_S16384_S16384x1_0
          (Host.reduceAdd (mulf f f) (constant S_ .f32 0x00000000#32) reducesTo_S16384x64_S16384_d1 h_S_)))
        (broadcastInDim S16384x1 ![] bcast_S_S16384x1 (constant S_ .f32 0x2B8CBCCC#32))))

/-! ## The contents before the region -/

attribute [local irreducible] Host.gather Host.reduceAdd in
set_option maxRecDepth 8192 in
set_option maxHeartbeats 1600000 in
/-- After the first five stretches the feature-row buffer holds `preF` of the float argument. -/
theorem v37_eq (W : Valuation τ sig (Elt F)) :
    after hostOps0_4 (after hostOps0_3 (after hostOps0_2 (after hostOps0_1 (after hostOps0 W)))) (main_v37 : DevRef τ sig)
      = preF (W (main_arg0 : DevRef τ sig)) := by
  after_results_simp
  rfl

attribute [local irreducible] Host.gather Host.reduceAdd in
set_option maxRecDepth 8192 in
set_option maxHeartbeats 1600000 in
/-- … and the label buffer `preL` of the integer argument. -/
theorem v38_eq (W : Valuation τ sig (Elt F)) :
    after hostOps0_4 (after hostOps0_3 (after hostOps0_2 (after hostOps0_1 (after hostOps0 W)))) (main_v38 : DevRef τ sig)
      = preL (W (main_arg1 : DevRef τ sig)) := by
  after_results_simp
  rfl

attribute [local irreducible] Host.gather Host.reduceAdd in
set_option maxRecDepth 8192 in
set_option maxHeartbeats 1600000 in
/-- The last two stretches before the region: the feature rows normalised, then rounded to the narrower format; -/
theorem v44_step (W : Valuation τ sig (Elt F)) :
    after hostOps0_6 (after hostOps0_5 W) (main_v44 : DevRef τ sig)
      = (truncf .bf16 (normF (W (main_v37 : DevRef τ sig))) bitsLt_bf16_f32 : FVec F S16384x64 .bf16) := by
  after_results_simp
  rfl

/-- the labels as a column; -/
theorem v45_step (W : Valuation τ sig (Elt F)) :
    after hostOps0_6 (after hostOps0_5 W) (main_v45 : DevRef τ sig)
      = shapeCast S16384x1 (W (main_v38 : DevRef τ sig)) shapeCasts_S16384_S16384x1 := by
  after_results_simp
  rfl

/-- the labels as a row. -/
theorem v46_step (W : Valuation τ sig (Elt F)) :
    after hostOps0_6 (after hostOps0_5 W) (main_v46 : DevRef τ sig)
      = shapeCast S1x16384 (W (main_v38 : DevRef τ sig)) shapeCasts_S16384_S1x16384 := by
  after_results_simp
  rfl

variable (m : (ℓ : Loc nD τ sig) → Buf (Elt F) ℓ)

/-- The region's first two windows read the normalised feature rows, rounded to the narrower format. -/
theorem V_v44 (c : Dev nD) :
    V m c main_v44
      = (truncf .bf16 (normF (preF (m ((c.tc : Thread nD τ).loc main_arg0)))) bitsLt_bf16_f32 : FVec F S16384x64 .bf16) := by
  show after hostOps0_6 (after hostOps0_5 (V₅ m c)) _ = _
  rw [v44_step, show V₅ m c (main_v37 : DevRef τ sig) = _ from v37_eq (V₀ m c)]

/-- Its third window reads the labels as a column. -/
theorem V_v45 (c : Dev nD) :
    V m c main_v45 = shapeCast S16384x1 (preL (m ((c.tc : Thread nD τ).loc main_arg1))) shapeCasts_S16384_S16384x1 := by
  show after hostOps0_6 (after hostOps0_5 (V₅ m c)) _ = _
  rw [v45_step, show V₅ m c (main_v38 : DevRef τ sig) = _ from v38_eq (V₀ m c)]

/-- Its fourth window reads the labels as a row. -/
theorem V_v46 (c : Dev nD) :
    V m c main_v46 = shapeCast S1x16384 (preL (m ((c.tc : Thread nD τ).loc main_arg1))) shapeCasts_S16384_S1x16384 := by
  show after hostOps0_6 (after hostOps0_5 (V₅ m c)) _ = _
  rw [v46_step, show V₅ m c (main_v38 : DevRef τ sig) = _ from v38_eq (V₀ m c)]

/-! ## The contents at the program's end -/

/-- No operation before the region writes an argument. -/
theorem arg0_pre (W : Valuation τ sig (Elt F)) :
    after hostOps0_6 (after hostOps0_5 (after hostOps0_4 (after hostOps0_3 (after hostOps0_2 (after hostOps0_1
      (after hostOps0 W)))))) (main_arg0 : DevRef τ sig) = W (main_arg0 : DevRef τ sig) := by
  after_results_simp

theorem arg1_pre (W : Valuation τ sig (Elt F)) :
    after hostOps0_6 (after hostOps0_5 (after hostOps0_4 (after hostOps0_3 (after hostOps0_2 (after hostOps0_1
      (after hostOps0 W)))))) (main_arg1 : DevRef τ sig) = W (main_arg1 : DevRef τ sig) := by
  after_results_simp

variable (acc : Dev nD → (n : ℕ) → n < cfg0.N → Vec F S1x1 .f32)

/-- The arguments end as they were: the region writes its result array only, the last operation the scalar. -/
theorem V₉_arg0 (c : Dev nD) :
    V₉ m acc c (Proc.devRef .tc main_arg0) = m ((c.tc : Thread nD τ).loc main_arg0) := by
  show after hostOps1 (V₈ m acc c) _ = _
  have h : V₈ m acc c (Proc.devRef .tc main_arg0) = m ((c.tc : Thread nD τ).loc main_arg0) :=
    (V₈_of_ne m acc c _ (by decide)).trans (arg0_pre (V₀ m c))
  generalize V₈ m acc c = W at h ⊢
  after_results_simp
  exact h

theorem V₉_arg1 (c : Dev nD) :
    V₉ m acc c (Proc.devRef .tc main_arg1) = m ((c.tc : Thread nD τ).loc main_arg1) := by
  show after hostOps1 (V₈ m acc c) _ = _
  have h : V₈ m acc c (Proc.devRef .tc main_arg1) = m ((c.tc : Thread nD τ).loc main_arg1) :=
    (V₈_of_ne m acc c _ (by decide)).trans (arg1_pre (V₀ m c))
  generalize V₈ m acc c = W at h ⊢
  after_results_simp
  exact h

/-- The result is the region's 1 × 1 array read as a scalar. -/
theorem V₉_v48 (c : Dev nD) :
    V₉ m acc c (Proc.devRef .tc main_v48)
      = shapeCast S_ ((dats m acc 0 c).arrAt 4 cfg0.N) shapeCasts_S1x1_S_ := by
  show after hostOps1 (V₈ m acc c) _ = _
  have h := V₈_v47 m acc c
  generalize V₈ m acc c = W at h ⊢
  after_results_simp
  rw [h]
  rfl

end Cert.Kernel.Hand

end
-- ==== Proof.K.Frame.lean ====
/-
  The kernel program's run read at its result and its arguments: every weakly fair execution ends with the scalar
  result holding the accumulator as the last grid point left it, and with both argument arrays as launched (no host
  operation writes an argument, and the region's windows only read the arrays derived from them).
-/
import proofs.«164804_j46385646796817_1_alg».proof.Proof.K.Run
import proofs.«164804_j46385646796817_1_alg».proof.Proof.K.Body
import proofs.«164804_j46385646796817_1_alg».proof.Proof.K.Final
import proofs.«164804_j46385646796817_1_alg».proof.Proof.K.HostValue

noncomputable section

namespace Cert.Kernel.Hand

open Cert.Kernel Cert.Kernel.Gen
open Idealize.ShloMosaic Idealize.ShloMosaic.TcCoe Idealize.SL.Sem
open Idealize.ShloMosaic.Pipeline (ucRefs)

variable {F : FTy → Type} [FloatOps F]
variable (m : (ℓ : Loc nD τ sig) → Buf (Elt F) ℓ) (ρ : Dev nD → PrngReg)

theorem mem_arg0 : (Proc.devRef .tc main_arg0 : DevRef τ sig) ∈ ucRefs τ sig := by decide
theorem mem_arg1 : (Proc.devRef .tc main_arg1 : DevRef τ sig) ∈ ucRefs τ sig := by decide
theorem mem_v48 : (Proc.devRef .tc main_v48 : DevRef τ sig) ∈ ucRefs τ sig := by decide

/-- The result buffer after the last host operation: the accumulator after the last point, read as a scalar. -/
theorem V₉_result (c : Dev nD) :
    V₉ m (outsAt0 m) c (Proc.devRef .tc main_v48) = shapeCast S_ (outsAt0 m c 255 lastPt.isLt) shapeCasts_S1x1_S_ := by
  rw [V₉_v48 m (outsAt0 m) c, final4 m (outsAt0 m) c]

/-- The run, read at the result and the arguments. -/
theorem run : θ_run defs (onTc (τ := τ) (main (F := F))) ⟨m, fun _ => 0, ρ⟩ (fun r => ∀ c : Dev nD,
      r.2.mem ((c.tc : Thread nD τ).loc main_v48) = shapeCast S_ (outsAt0 m c 255 lastPt.isLt) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ mem_v48).trans (V₉_result m c), (h c _ mem_arg0).trans (V₉_arg0 m (outsAt0 m) c),
        (h c _ mem_arg1).trans (V₉_arg1 m (outsAt0 m) c)⟩)
    (run_main m ρ (outsAt0 m) fun c => body_obligation m c)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.KI.Launch.lean ====
/-
  The run of the kernel program around its one region, for windows that share an array.

  The program is seven stretches of host operations (the resize by two row gathers, the flattening, the row
  normalisation, the label column and row), the region, and one more host operation (the 1x1 result read as a scalar).
  Two input windows of the region read the same array (the normalised features, once by row block and once by column
  block), so the array's buffer is held by halves, one half per window, while the region runs, and put together again
  at its exit. The thread state between two segments is every unscoped buffer of the core at a valuation, beside the
  generator register and the (empty) debt of the core.
-/
import proofs.«164804_j46385646796817_1_alg».proof.Proof.Gen.KernelIdeal.Launch
import proofs.«164804_j46385646796817_1_alg».proof.Proof.Gen.KernelIdeal.Points
import Idealize.ShloMosaic.Lib.Pipeline.Regions
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The host operations before the region -/

/-- Core `c`'s buffers at launch, as a valuation; -/
abbrev V₀ (c : Dev nD) : Valuation τ sig (Elt F) := fun b => m (c, b)
/-- after each of the seven stretches; -/
abbrev V₁ (c : Dev nD) : Valuation τ sig (Elt F) := StableHlo.after hostOps0 (V₀ m c)
abbrev V₂ (c : Dev nD) : Valuation τ sig (Elt F) := StableHlo.after hostOps0_1 (V₁ m c)
abbrev V₃ (c : Dev nD) : Valuation τ sig (Elt F) := StableHlo.after hostOps0_2 (V₂ m c)
abbrev V₄ (c : Dev nD) : Valuation τ sig (Elt F) := StableHlo.after hostOps0_3 (V₃ m c)
abbrev V₅ (c : Dev nD) : Valuation τ sig (Elt F) := StableHlo.after hostOps0_4 (V₄ m c)
abbrev V₆ (c : Dev nD) : Valuation τ sig (Elt F) := StableHlo.after hostOps0_5 (V₅ m c)
/-- and when the region is entered. -/
abbrev V₇ (c : Dev nD) : Valuation τ sig (Elt F) := StableHlo.after hostOps0_6 (V₆ m c)
abbrev V (c : Dev nD) (b : Ref sig .tc) : Buf (Elt F) ((c : Thread nD τ).loc b) := V₇ m c b

/-! ## The segments -/

abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the generator register at some state and the core's empty debt. -/
abbrev R (c : Dev nD) : sProp 𝕄 :=
  iprop((∃ r, prngReg c r) ∗ ∃ W, owes (c : Thread nD τ) (0 : CellTallies nD τ sig Unit) W)

theorem fresh_of_forall {ops : List (HloOp τ sig (Elt F))} (h : ops.Forall fun op => op.fresh = ∅) : ∀ op ∈ ops, op.fresh = ∅ :=
  List.forall_iff_forall_mem.mp h

def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops (fun op h => sub_ucRefs op ((List.forall_iff_forall_mem.mp hsub) op h)) hf W R

theorem fresh0 : ∀ op ∈ (hostOps0 (F := F)), op.fresh = ∅ := by
  intro _ h; (repeat (cases h with | head => rfl | tail _ h => ?_)); exact nomatch h

theorem fresh1 : ∀ op ∈ (hostOps0_1 (F := F)), op.fresh = ∅ := by
  intro _ h; (repeat (cases h with | head => rfl | tail _ h => ?_)); exact nomatch h
theorem fresh2 : ∀ op ∈ (hostOps0_2 (F := F)), op.fresh = ∅ := by
  intro _ h; (repeat (cases h with | head => rfl | tail _ h => ?_)); exact nomatch h
theorem fresh3 : ∀ op ∈ (hostOps0_3 (F := F)), op.fresh = ∅ := by
  intro _ h; (repeat (cases h with | head => rfl | tail _ h => ?_)); exact nomatch h
theorem fresh4 : ∀ op ∈ (hostOps0_4 (F := F)), op.fresh = ∅ := by
  intro _ h; (repeat (cases h with | head => rfl | tail _ h => ?_)); exact nomatch h
theorem fresh5 : ∀ op ∈ (hostOps0_5 (F := F)), op.fresh = ∅ := by
  intro _ h; (repeat (cases h with | head => rfl | tail _ h => ?_)); exact nomatch h
theorem fresh6 : ∀ op ∈ (hostOps0_6 (F := F)), op.fresh = ∅ := by
  intro _ h; (repeat (cases h with | head => rfl | tail _ h => ?_)); exact nomatch h
theorem fresh7 : ∀ op ∈ (hostOps1 (F := F)), op.fresh = ∅ := by
  intro _ h; (repeat (cases h with | head => rfl | tail _ h => ?_)); exact nomatch h

/-! ## The pipeline's proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- what the accumulator's staging buffer holds after the body at each position: a parameter here
variable (acc : Dev nD → (n : ℕ) → n < cfg0.N → Vec F S1x1 .f32)

/-- The proof data on core `c`: the arrays as the region finds them; after the body each input's buffer at its block
    and the accumulator's at `acc`; the shared array held by halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc c t.val t.isLt
  Φ _ := Pipeline.ΦA spec0 c
  q w := match w with
    | ⟨0, _⟩ => fullShare.left
    | ⟨1, _⟩ => fullShare.right
    | _ => fullShare
  owed _ := 0

/-- The valuation the region leaves: the result array at what the pipeline wrote back, every other buffer as found. -/
abbrev V₈ (c : Dev nD) : Valuation τ sig (Elt F) :=
  Function.update (V₇ m c) (Proc.devRef .tc main_v47) ((dats m acc 0 c).arrAt 4 cfg0.N)
abbrev V₉ (c : Dev nD) : Valuation τ sig (Elt F) := StableHlo.after hostOps1 (V₈ m acc c)

/-! ## The buffers behind the windows -/

/-- The four buffers behind the region's five windows. -/
abbrev T : Finset (DevRef τ sig) :=
  {Proc.devRef .tc main_v44, Proc.devRef .tc main_v45, Proc.devRef .tc main_v46, Proc.devRef .tc main_v47}
theorem T_sub : (T : Finset (DevRef τ sig)) ⊆ ucRefs τ sig := by decide

theorem held_T (c : Dev nD) (W : Valuation τ sig (Elt F)) :
    (StableHlo.held (c : Thread nD τ) T W : sProp 𝕄)
      = iprop((((c : Thread nD τ).1, Proc.devRef .tc main_v44) ↦{fullShare} W (Proc.devRef .tc main_v44))
          ∗ (((c : Thread nD τ).1, Proc.devRef .tc main_v45) ↦{fullShare} W (Proc.devRef .tc main_v45))
          ∗ (((c : Thread nD τ).1, Proc.devRef .tc main_v46) ↦{fullShare} W (Proc.devRef .tc main_v46))
          ∗ (((c : Thread nD τ).1, Proc.devRef .tc main_v47) ↦{fullShare} W (Proc.devRef .tc main_v47))) := by
  unfold StableHlo.held T
  rw [bigSep_insert (by decide), bigSep_insert (by decide), bigSep_insert (by decide), bigSep_singleton]
  rfl

/-- A whole buffer held at the full share is held by its two halves. -/
theorem split_half {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The proof data's arrays, one by one: the shared array by halves, the others whole. -/
theorem arrays_list (c : Dev nD) (Fa : (w : Fin cfg0.W) → Buf (Elt F) ((cfg0.win w).arr.view.loc (c.tc : Thread nD τ))) :
    ((dats m acc 0 c).arrays Fa : sProp 𝕄)
      = iprop((((c : Thread nD τ).1, Proc.devRef .tc main_v44) ↦{fullShare.left} Fa 0)
          ∗ (((c : Thread nD τ).1, Proc.devRef .tc main_v44) ↦{fullShare.right} Fa 1)
          ∗ (((c : Thread nD τ).1, Proc.devRef .tc main_v45) ↦{fullShare} Fa 2)
          ∗ (((c : Thread nD τ).1, Proc.devRef .tc main_v46) ↦{fullShare} Fa 3)
          ∗ (((c : Thread nD τ).1, Proc.devRef .tc main_v47) ↦{fullShare} Fa 4)) := by
  unfold Dat.arrays
  have h : ∀ w ∈ (Finset.univ : Finset (Fin cfg0.W)),
      ((cfg0.win w).arr.view.loc (c.tc : Thread nD τ) ↦[(cfg0.win w).arr.view.set]{(dats m acc 0 c).share w} Fa w : sProp 𝕄)
        = ((cfg0.win w).arr.view.loc (c.tc : Thread nD τ) ↦{(dats m acc 0 c).share w} Fa w) := fun w _ => by
    rw [(arr_whole0 w).set_eq_univ]
  rw [bigSep_congr h, bigSep_W0]
  rfl

/-! ## The valuation the region leaves, buffer by buffer -/

theorem ne44 : (Proc.devRef .tc main_v44 : DevRef τ sig) ≠ Proc.devRef .tc main_v47 := by decide
theorem ne45 : (Proc.devRef .tc main_v45 : DevRef τ sig) ≠ Proc.devRef .tc main_v47 := by decide
theorem ne46 : (Proc.devRef .tc main_v46 : DevRef τ sig) ≠ Proc.devRef .tc main_v47 := by decide
theorem v47_mem_T : (Proc.devRef .tc main_v47 : DevRef τ sig) ∈ (T : Finset (DevRef τ sig)) := by decide

theorem V₈_of_ne (c : Dev nD) (b : DevRef τ sig) (h : b ≠ Proc.devRef .tc main_v47) : V₈ m acc c b = V₇ m c b :=
  Function.update_of_ne h _ _
theorem V₈_v47 (c : Dev nD) : V₈ m acc c (Proc.devRef .tc main_v47) = (dats m acc 0 c).arrAt 4 cfg0.N :=
  Function.update_self ..

theorem held_rest_V₈ (c : Dev nD) :
    (StableHlo.held (c : Thread nD τ) (ucRefs τ sig \ T) (V₈ m acc c) : sProp 𝕄) = StableHlo.held (c : Thread nD τ) (ucRefs τ sig \ T) (V₇ m c) :=
  StableHlo.held_congr _ fun b hb => V₈_of_ne m acc c b fun e => (Finset.mem_sdiff.mp hb).2 (e ▸ v47_mem_T)

variable (hbody : ∀ c, BodyObligation (dats m acc 0 c) (defs₀ (F := F)) 𝒱₀ () Set.univ)

set_option maxHeartbeats 2000000 in
/-- The region: entered from every unscoped buffer at the contents after the host operations, the four buffers behind
    its windows into the pipeline (the shared one split into its halves), the generator register into the invariant,
    the other buffers bypassing; left with the result array at what the pipeline wrote back. -/
def reg0 : Pipeline.RegionSeg (pcfgs (F := F)) adm (dats m acc) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (ucRefs τ sig) (V₇ m c) ∗ R c)
  post c := iprop(StableHlo.held (c : Thread nD τ) (ucRefs τ sig) (V₈ m acc c) ∗ R c)
  X c := iprop(∃ r, prngReg c r)
  Y c := iprop(∃ r, prngReg c r)
  Z c := iprop(StableHlo.held (c : Thread nD τ) (ucRefs τ sig \ T) (V₇ m c))
  hentry c := by
    rw [Pipeline.ownSems0_none, arrays_list, StableHlo.held_sub_split (c : Thread nD τ) T_sub (V₇ m c), held_T]
    have hs := (split_half (F := F) (ℓ := ((c : Thread nD τ).1, Proc.devRef .tc main_v44)) (V₇ m c (Proc.devRef .tc main_v44))).1
    iintro ⟨⟨⟨⟨H44, H45, H46, H47⟩, HZ⟩, Hp, HO⟩, -, -⟩
    ihave H44' := hs $$ H44
    icases H44' with ⟨H44l, H44r⟩
    imodintro
    isplitl [H44l H44r H45 H46 H47]
    · isplitl [H44l]; · iexact H44l
      isplitl [H44r]; · iexact H44r
      isplitl [H45]; · iexact H45
      isplitl [H46]; · iexact H46
      iexact H47
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m acc 0 c).Φ 0 = Pipeline.ΦA spec0 c from rfl]; unfold Pipeline.ΦA
    iintro ⟨HX, -, Hr⟩
    isplitl [Hr]; · iexact Hr
    iexact HX
  hout c := by
    rw [show (dats m acc 0 c).Φ (Fin.last _) = Pipeline.ΦA spec0 c from rfl, Pipeline.ownSems0_none]; unfold Pipeline.ΦA
    iintro ⟨Hr, Hp⟩
    isplitl [Hp]; · iexact Hp
    isplitr; · iempintro
    iexact Hr
  hexit c := by
    rw [arrays_list, StableHlo.held_sub_split (c : Thread nD τ) T_sub (V₈ m acc c), held_T, held_rest_V₈,
      V₈_of_ne m acc c _ ne44, V₈_of_ne m acc c _ ne45, V₈_of_ne m acc c _ ne46, V₈_v47]
    rw [(dats m acc 0 c).arrAt_in 0 rfl _, (dats m acc 0 c).arrAt_in 1 rfl _, (dats m acc 0 c).arrAt_in 2 rfl _, (dats m acc 0 c).arrAt_in 3 rfl _]
    have hs := (split_half (F := F) (ℓ := ((c : Thread nD τ).1, Proc.devRef .tc main_v44)) (V₇ m c (Proc.devRef .tc main_v44))).2
    iintro ⟨⟨H44l, H44r, H45, H46, H47⟩, HO, HY, HZ⟩
    ihave H44 := hs $$ [H44l H44r]
    · isplitl [H44l]; · iexact H44l
      iexact H44r
    imodintro
    isplitl [H44 H45 H46 H47 HZ]
    · isplitr [HZ]
      · isplitl [H44]; · iexact H44
        isplitl [H45]; · iexact H45
        isplitl [H46]; · iexact H46
        iexact H47
      · iexact HZ
    isplitl [HY]; · iexact HY
    unfold Pipeline.Dat.owesAt Pipeline.owesWithin
    icases HO with ⟨%W, -, HO⟩; iexists W; iexact HO

/-- @main as the list of its nine segments. -/
abbrev segs : List (Pipeline.Seg (pcfgs (F := F)) adm (dats m acc) () defs₀ 𝒱₀ L lv) :=
  [.host (hseg hostOps0 hostOps0_sub fresh0 (V₀ m)), .host (hseg hostOps0_1 hostOps0_1_sub fresh1 (V₁ m)),
   .host (hseg hostOps0_2 hostOps0_2_sub fresh2 (V₂ m)), .host (hseg hostOps0_3 hostOps0_3_sub fresh3 (V₃ m)),
   .host (hseg hostOps0_4 hostOps0_4_sub fresh4 (V₄ m)), .host (hseg hostOps0_5 hostOps0_5_sub fresh5 (V₅ m)),
   .host (hseg hostOps0_6 hostOps0_6_sub fresh6 (V₆ m)), .region (reg0 m acc hbody),
   .host (hseg hostOps1 hostOps1_sub fresh7 (V₈ m acc))]

theorem main_eq (c : Dev nD) : main (F := F) c = Pipeline.Seg.run (segs m acc hbody) := by
  rw [main_chain c, Pipeline.Seg.run_eq_chain]; rfl

end Cert.KernelIdeal.Hand

end
-- ==== Proof.KI.Run.lean ====
/-
  The run of the kernel program: the segments of @main composed, from any memory with zero counters to a final state in
  which every unscoped buffer of every core holds what the host operations and the region computed.
-/
import proofs.«164804_j46385646796817_1_alg».proof.Proof.KI.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (acc : Dev nD → (n : ℕ) → n < cfg0.N → Vec F S1x1 .f32)

/-- The launch element: the pipeline library's at the staging cells. -/
def u₀ : UR sig nD τ := initOf (Pipeline.cells cfgs cellOf_inj) (Pipeline.launchToks cfgs cellOf_inj)

/-- The last thread state: every unscoped buffer after the last host operation, the generator register at some state. -/
abbrev Tₙ (c : Dev nD) : sProp 𝕄 :=
  iprop(StableHlo.held (c : Thread nD τ) (ucRefs τ sig) (V₉ m acc c) ∗ ∃ r, prngReg c r)

set_option backward.isDefEq.respectTransparency.types false in
set_option maxHeartbeats 2000000 in
/-- At any float values, from any memory with zero counters: every weakly fair execution of @main on the TensorCores
    terminates, nothing faulting, and every final state has every unscoped buffer at the valuation the segments compute. -/
theorem run_main (hbody : ∀ c, BodyObligation (dats m acc 0 c) (defs₀ (F := F)) 𝒱₀ () Set.univ) : θ_run defs (onTc (τ := τ) (main (F := F))) ⟨m, fun _ => 0, ρ⟩
    (fun r => ∀ c : Dev nD, ∀ b ∈ ucRefs τ sig, r.2.mem ((c : Dev nD), b) = V₉ m acc c b) :=
  Pipeline.θ_run_regions_kit (pcfgs (F := F)) adm (dats m acc) () cellOf_inj EP defs₀ 𝒱₀ L lv m ρ main (segs m acc hbody)
    (fun c Q => by rw [main_eq m acc hbody c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c)) (Tₙ := Tₙ m acc)
    (hch := by
      refine ⟨fun c => .rfl, fun c => .rfl, fun c => .rfl, fun c => .rfl, fun c => .rfl, fun c => .rfl, fun c => .rfl, fun c => .rfl, fun c => .rfl, fun c => ?_⟩
      show iprop(StableHlo.held (c : Thread nD τ) (ucRefs τ sig) (V₉ m acc c) ∗ R c)
        ⊢ iprop(Tₙ m acc c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (ucRefs τ sig) (V₀ m c) from unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem ((c : Dev nD), b) = V₉ m acc c b)
    (hfin := fun c s' => by
      dsimp only [Tₙ]; unfold StableHlo.held
      iintro ⟨⟨Hh, -⟩, HSI⟩
      ihave Hr := (pointsTo_read_all (ucRefs τ sig) (fun b => ((c : Dev nD), b)) (V₉ m acc c) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KI.Conds.lean ====
/- The two branch conditions of the kernel body as propositions over the grid coordinates, their closed
   forms over the 256 points of the 16×16 grid, and the staging memrefs the body is called with at a point. -/
import proofs.«164804_j46385646796817_1_alg».proof.Proof.Gen.KernelIdeal.Launch
import proofs.«164804_j46385646796817_1_alg».proof.Proof.Gen.KernelIdeal.Skeleton
import proofs.«164804_j46385646796817_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional: both grid coordinates are 0 (the scalar chain of the
    body with the coordinates substituted). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The condition of the body's second conditional: both grid coordinates are 15. -/
abbrev cond0_1 (i : grid0.Coords) : Prop :=
  (Scalar.cmpi .ne (Scalar.extui (Scalar.andi (Scalar.cmpi .eq (BitVec.ofNat 32 (i 0).val) 15#32) (Scalar.cmpi .eq (BitVec.ofNat 32 (i 1).val) 15#32))) 0#32) = 1#1

/-- The first condition holds at the first point only. -/
theorem hcond0_0 : ∀ t : Fin cfg0.N, cond0_0 (grid0.coords t) ↔ t.val = 0 :=
  (by decide +kernel : ∀ t : Fin grid0.N, cond0_0 (grid0.coords t) ↔ t.val = 0)

/-- The second condition holds at the last point only. -/
theorem hcond0_1 : ∀ t : Fin cfg0.N, cond0_1 (grid0.coords t) ↔ t.val = 255 :=
  (by decide +kernel : ∀ t : Fin grid0.N, cond0_1 (grid0.coords t) ↔ t.val = 255)

/-! ## The staging memrefs at a point -/

/-- One staging buffer of the output window, through which its contents are stated. -/
abbrev VO0_4 : View sig .tc .vmem S1x1 .f32 := (Memref.whole cc0_stg4_0 : Memref sig .tc .vmem S1x1 .f32).view

/-- Each window's current staging memref at point `t`, and its wholeness. -/
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- The body as the pipeline calls it at point `t` is the kernel function on these memrefs. -/
theorem bodyAt0_eq (t : Fin cfg0.N) :
    bodyAt0 (F := F) t = cc0__masked_cos_sim_sum_kernel (grid0.coords t) (ms0_0 t) (hs0_0 t) (ms0_1 t) (hs0_1 t) (ms0_2 t) (hs0_2 t) (ms0_3 t) (hs0_3 t) (ms0_4 t) (hs0_4 t) := rfl

end Cert.KernelIdeal.Hand

end
-- ==== Proof.KI.RunA.lean ====
/- The kernel body run as a whole at the FIRST grid point: what it leaves in the accumulator, as the list of
   pieces its stores write, together with the body's triple on any whole memrefs. -/
import proofs.«164804_j46385646796817_1_alg».proof.Proof.KI.Conds

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (first conditional taken, second not): the accumulator is zeroed and the block's
    sum added to it.
    The pieces the body's stores leave in the accumulator's memref (last first), with the proof that on whole
    memrefs — the four inputs at their contents, the accumulator at its running contents — the body runs to a
    continuation holding the inputs as they were and the accumulator with those pieces written. -/
noncomputable def kernelRun0_A (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/- The kernel body run as a whole at a MIDDLE grid point (neither the first nor the last): what it leaves in
   the accumulator, as the list of pieces its stores write, together with the body's triple on any whole memrefs. -/
import proofs.«164804_j46385646796817_1_alg».proof.Proof.KI.RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point (neither conditional taken): the block's sum is added to the running accumulator.
    The pieces the body's stores leave in the accumulator's memref (last first), with the proof that on whole
    memrefs — the four inputs at their contents, the accumulator at its running contents — the body runs to a
    continuation holding the inputs as they were and the accumulator with those pieces written. -/
noncomputable def kernelRun0_B (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunC.lean ====
/- The kernel body run as a whole at the LAST grid point: what it leaves in the accumulator, as the list of
   pieces its stores write, together with the body's triple on any whole memrefs. -/
import proofs.«164804_j46385646796817_1_alg».proof.Proof.KI.RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point (second conditional taken, first not): the block's sum is added to the running
    accumulator and the total is scaled.
    The pieces the body's stores leave in the accumulator's memref (last first), with the proof that on whole
    memrefs — the four inputs at their contents, the accumulator at its running contents — the body runs to a
    continuation holding the inputs as they were and the accumulator with those pieces written. -/
noncomputable def kernelRun0_C (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__masked_cos_sim_sum_kernel i arg2 harg2 arg3 harg3 arg4 harg4 arg5 harg5 arg6 harg6) K } := by
  refine ⟨?_, fun E K => ?run⟩
  case run =>
    simp only [cc0__masked_cos_sim_sum_kernel_eq_skeleton]; unfold cc0__masked_cos_sim_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Outs.lean ====
/- What each of the three runs of the kernel body leaves in the accumulator: the pieces cover its one-element
   block, and read back they are the body's arithmetic on the point's input blocks and the accumulator's
   running contents — zero then the block's sum at the first point, the running contents plus the block's sum
   at a middle point, that total scaled at the last point. -/
import proofs.«164804_j46385646796817_1_alg».proof.Proof.KI.RunC
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the first point's run tile the one-element block, so they cover it. -/
theorem cover0_A_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_A c i arg2 harg2 arg3 harg3 arg4 harg4 arg5 harg5 arg6 harg6 hc0 hc1 x0 x1 x2 x3 xo4).1, y ∈ pc.1.set :=
  View.cover_of_tiledL (kernelRun0_A c i arg2 harg2 arg3 harg3 arg4 harg4 arg5 harg5 arg6 harg6 hc0 hc1 x0 x1 x2 x3 xo4).1 S1x1.size (by sl_kernel_rfl) y

/-- What that run leaves in the accumulator: its pieces read back over junk. -/
def out0_A_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_A c i arg2 harg2 arg3 harg3 arg4 harg4 arg5 harg5 arg6 harg6 hc0 hc1 x0 x1 x2 x3 xo4).1)

/-- The pieces of the middle point's run tile the one-element block, so they cover it. -/
theorem cover0_B_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1x1.size (by sl_kernel_rfl) y

/-- What that run leaves in the accumulator: its pieces read back over junk. -/
def out0_B_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-- The pieces of the last point's run tile the one-element block, so they cover it. -/
theorem cover0_C_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) (y : S1x1.Idx) :
    ∃ pc ∈ (kernelRun0_C c i arg2 harg2 arg3 harg3 arg4 harg4 arg5 harg5 arg6 harg6 hc0 hc1 x0 x1 x2 x3 xo4).1, y ∈ pc.1.set :=
  View.cover_of_tiledL (kernelRun0_C c i arg2 harg2 arg3 harg3 arg4 harg4 arg5 harg5 arg6 harg6 hc0 hc1 x0 x1 x2 x3 xo4).1 S1x1.size (by sl_kernel_rfl) y

/-- What that run leaves in the accumulator: its pieces read back over junk. -/
def out0_C_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) : Vec F S1x1 .f32 :=
  VO0_4.read (Elt F) (VO0_4.writes (Elt F) VO0_4.junk (kernelRun0_C c i arg2 harg2 arg3 harg3 arg4 harg4 arg5 harg5 arg6 harg6 hc0 hc1 x0 x1 x2 x3 xo4).1)

/-- The zero offsets of a rank-2 whole-block rectangle. -/
theorem hz2 : (![0, 0] : Fin 2 → Nat) = fun _ => 0 := by decide

/-- At the first point the accumulator ends at the block's sum added to zero, whatever it held. -/
theorem out0_A_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    out0_A_4 c i arg2 harg2 arg3 harg3 arg4 harg4 arg5 harg5 arg6 harg6 hc0 hc1 x0 x1 x2 x3 xo4 = k0_pay2 x0 x1 x2 x3 k0_pay1 := by
  unfold out0_A_4
  rw [View.read_writes_eq_canon _ _ _ (cover0_A_4 c i arg2 harg2 arg3 harg3 arg4 harg4 arg5 harg5 arg6 harg6 hc0 hc1 x0 x1 x2 x3 xo4)]
  unfold kernelRun0_A
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

/-- At a middle point the accumulator ends at the block's sum added to what it held. -/
theorem out0_B_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : ¬cond0_1 i)
    (x0 : Vec F S1024x64 .bf16) (x1 : Vec F S1024x64 .bf16) (x2 : Vec F S1024x1 .i32) (x3 : Vec F S1x1024 .i32) (xo4 : Vec F S1x1 .f32) :
    out0_B_4 c i arg2 harg2 arg3 harg3 arg4 harg4 arg5 harg5 arg6 harg6 hc0 hc1 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

/-- At the last point the accumulator ends at the scaled total: the block's sum added to what it held, times
    the constant. -/
theorem out0_C_4_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond0_0 i) (hc1 : cond0_1 i)
    (x0 : Vec F S1024x64 .bf16) (x1 : Vec F S1024x64 .bf16) (x2 : Vec F S1024x1 .i32) (x3 : Vec F S1x1024 .i32) (xo4 : Vec F S1x1 .f32) :
    out0_C_4 c i arg2 harg2 arg3 harg3 arg4 harg4 arg5 harg5 arg6 harg6 hc0 hc1 x0 x1 x2 x3 xo4 = k0_pay3 (k0_pay2 x0 x1 x2 x3 xo4) := by
  unfold out0_C_4
  rw [View.read_writes_eq_canon _ _ _ (cover0_C_4 c i arg2 harg2 arg3 harg3 arg4 harg4 arg5 harg5 arg6 harg6 hc0 hc1 x0 x1 x2 x3 xo4)]
  unfold kernelRun0_C
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x64) hz2, View.ld_unit_zero (S := S1024x1) hz2, View.ld_unit_zero (S := S1x1024) hz2, View.ld_unit_zero (S := S1x1) hz2]

end Cert.KernelIdeal.Hand

end
-- ==== Proof.KI.Body.lean ====
/-
  The body of the region, point by point.

  The region's grid has 256 points. At the first the body zeroes the accumulator and adds the sum of the point's
  block to it; at a middle point it adds the block's sum to what the accumulator holds; at the last it adds the
  block's sum and scales the total. The accumulator's staging buffer is written back at the last point only, so at
  every later point it holds what the body left at the point before; each input's staging buffer holds the window's
  block of the array as the region found it. So, by the three runs of the body, the accumulator after position n is
  the recursion below, and the body meets the pipeline's obligation at every point.
-/
import proofs.«164804_j46385646796817_1_alg».proof.Proof.KI.Launch
import proofs.«164804_j46385646796817_1_alg».proof.Proof.KI.Outs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ (UR sig nD τ) ℕ

variable (m : (ℓ : Loc nD τ sig) → Buf (Elt F) ℓ)

/-! ## What the accumulator holds after each point -/

/-- THE ACCUMULATION. What the accumulator's staging buffer holds after the body at position n: at the first
    position the block's sum added to zero; at a later one the block's sum added to what position n - 1 left (the
    buffer is not written back between), and at the last that total scaled. -/
def outsAt0 (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) k0_pay1
  | n + 1, hn =>
    if n + 1 = 255 then
      k0_pay3 (k0_pay2 (iblk m c 0 ⟨n + 1, hn⟩) (iblk m c 1 ⟨n + 1, hn⟩) (iblk m c 2 ⟨n + 1, hn⟩) (iblk m c 3 ⟨n + 1, hn⟩)
        (outsAt0 c n (Nat.lt_of_succ_lt hn)))
    else
      k0_pay2 (iblk m c 0 ⟨n + 1, hn⟩) (iblk m c 1 ⟨n + 1, hn⟩) (iblk m c 2 ⟨n + 1, hn⟩) (iblk m c 3 ⟨n + 1, hn⟩)
        (outsAt0 c n (Nat.lt_of_succ_lt hn))

/-- At the first point: the block's sum added to zero. -/
theorem outsAt0_A (c : Dev nD) (t : Fin cfg0.N) (h0 : t.val = 0) :
    outsAt0 m c t.val t.isLt = k0_pay2 (iblk m c 0 t) (iblk m c 1 t) (iblk m c 2 t) (iblk m c 3 t) k0_pay1 := by
  obtain ⟨n, hn⟩ := t
  cases n with
  | zero => exact rfl
  | succ n => exact absurd h0 (Nat.succ_ne_zero n)

/-- At a middle point: the block's sum added to what the point before left. -/
theorem outsAt0_B (c : Dev nD) (t : Fin cfg0.N) (h0 : t.val ≠ 0) (h1 : t.val ≠ 255) :
    outsAt0 m c t.val t.isLt = k0_pay2 (iblk m c 0 t) (iblk m c 1 t) (iblk m c 2 t) (iblk m c 3 t)
      (outsAt0 m c (t.val - 1) (Nat.lt_of_le_of_lt (Nat.sub_le _ _) t.isLt)) := by
  obtain ⟨n, hn⟩ := t
  cases n with
  | zero => exact absurd rfl h0
  | succ n => exact (if_neg h1).trans rfl

/-- At the last point: that total, scaled. -/
theorem outsAt0_C (c : Dev nD) (t : Fin cfg0.N) (h1 : t.val = 255) :
    outsAt0 m c t.val t.isLt = k0_pay3 (k0_pay2 (iblk m c 0 t) (iblk m c 1 t) (iblk m c 2 t) (iblk m c 3 t)
      (outsAt0 m c (t.val - 1) (Nat.lt_of_le_of_lt (Nat.sub_le _ _) t.isLt))) := by
  obtain ⟨n, hn⟩ := t
  cases n with
  | zero => exact absurd h1 (by show ¬ (0 : ℕ) = 255; omega)
  | succ n => exact (if_pos h1).trans rfl

/-! ## The proof data, projected -/

/-- The proof data's arrays are the contents the region finds (the definition projected, nothing unfolded further). -/
theorem A_eq (c : Dev nD) (w : Fin cfg0.W) : (dats m (outsAt0 m) 0 c).A w = V m c (Pipeline.arrRef spec0 w) := by
  dsimp only [dats]

/-- What the body leaves, window by window. -/
theorem after_0 (c : Dev nD) (t : Fin cfg0.N) : (dats m (outsAt0 m) 0 c).after 0 t = iblk m c 0 t := by dsimp only [dats]
theorem after_1 (c : Dev nD) (t : Fin cfg0.N) : (dats m (outsAt0 m) 0 c).after 1 t = iblk m c 1 t := by dsimp only [dats]
theorem after_2 (c : Dev nD) (t : Fin cfg0.N) : (dats m (outsAt0 m) 0 c).after 2 t = iblk m c 2 t := by dsimp only [dats]
theorem after_3 (c : Dev nD) (t : Fin cfg0.N) : (dats m (outsAt0 m) 0 c).after 3 t = iblk m c 3 t := by dsimp only [dats]
theorem after_4 (c : Dev nD) (t : Fin cfg0.N) : (dats m (outsAt0 m) 0 c).after 4 t = outsAt0 m c t.val t.isLt := by dsimp only [dats]

/-! ## What the staging buffers hold when the body is called -/

/-- Each input's current staging buffer holds its block at every point, fetched there or not: unfetched, the block
    index has not moved since the fetch, and the body leaves the block in place. -/
theorem before_in_0 (c : Dev nD) (t : Fin cfg0.N) (d) : (dats m (outsAt0 m) 0 c).before 0 t d = iblk m c 0 t :=
  ((dats m (outsAt0 m) 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_in_1 (c : Dev nD) (t : Fin cfg0.N) (d) : (dats m (outsAt0 m) 0 c).before 1 t d = iblk m c 1 t :=
  ((dats m (outsAt0 m) 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_in_2 (c : Dev nD) (t : Fin cfg0.N) (d) : (dats m (outsAt0 m) 0 c).before 2 t d = iblk m c 2 t :=
  ((dats m (outsAt0 m) 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_in_3 (c : Dev nD) (t : Fin cfg0.N) (d) : (dats m (outsAt0 m) 0 c).before 3 t d = iblk m c 3 t :=
  ((dats m (outsAt0 m) 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At a point after the first the accumulator's staging buffer holds what the body left at the point before: the
    buffer is written back at the last point only, and the window is live and uncut. -/
theorem before_out (c : Dev nD) (t : Fin cfg0.N) (ht : t.val ≠ 0) (d) :
    (dats m (outsAt0 m) 0 c).before 4 t d = outsAt0 m c (t.val - 1) (Nat.lt_of_le_of_lt (Nat.sub_le _ _) t.isLt) := by
  have hN : t.val < 256 := lt_of_lt_of_eq t.isLt (show cfg0.N = 256 from N_0)
  rw [Dat.before_out_kept _ 4 rfl t ht (Bool.eq_false_iff.mpr fun h => by have := (flush0_4 _).mp h; dsimp only at this; omega)
    (fun _ => rfl) (fun _ _ => rfl)]
  dsimp only [dats]

/-! ## The body obligation, at a generic point -/

/-- What the body is called with at point t: the invariant, the core's (empty) debt, and the five staging buffers, -/
def bodyPre (c : Dev nD) (t : Fin cfg0.N) : sProp 𝕄 :=
  iprop((dats m (outsAt0 m) 0 c).Φ t.castSucc ∗ (dats m (outsAt0 m) 0 c).owesAt () t.castSucc
    ∗ (∃ d, owns (c : Thread nD τ) (ms0_0 t) fullShare ((dats m (outsAt0 m) 0 c).before 0 t d))
    ∗ (∃ d, owns (c : Thread nD τ) (ms0_1 t) fullShare ((dats m (outsAt0 m) 0 c).before 1 t d))
    ∗ (∃ d, owns (c : Thread nD τ) (ms0_2 t) fullShare ((dats m (outsAt0 m) 0 c).before 2 t d))
    ∗ (∃ d, owns (c : Thread nD τ) (ms0_3 t) fullShare ((dats m (outsAt0 m) 0 c).before 3 t d))
    ∗ (∃ d, owns (c : Thread nD τ) (ms0_4 t) fullShare ((dats m (outsAt0 m) 0 c).before 4 t d)))

/-- and what it returns. -/
def bodyPost (c : Dev nD) (t : Fin cfg0.N) : sProp 𝕄 :=
  iprop((dats m (outsAt0 m) 0 c).Φ t.succ ∗ (dats m (outsAt0 m) 0 c).owesAt () t.succ
    ∗ owns (c : Thread nD τ) (ms0_0 t) fullShare ((dats m (outsAt0 m) 0 c).after 0 t)
    ∗ owns (c : Thread nD τ) (ms0_1 t) fullShare ((dats m (outsAt0 m) 0 c).after 1 t)
    ∗ owns (c : Thread nD τ) (ms0_2 t) fullShare ((dats m (outsAt0 m) 0 c).after 2 t)
    ∗ owns (c : Thread nD τ) (ms0_3 t) fullShare ((dats m (outsAt0 m) 0 c).after 3 t)
    ∗ owns (c : Thread nD τ) (ms0_4 t) fullShare ((dats m (outsAt0 m) 0 c).after 4 t))

set_option maxHeartbeats 1600000 in
/-- The body at any point. The inputs' staging buffers hold their blocks; the closed forms of the two conditions say
    which of the three runs the point is in. At the first point the accumulator's buffer holds contents nothing has
    named, and the run does not depend on them: it ends at the block's sum added to zero. At a later point the buffer
    holds what the point before left, and the run adds the block's sum to it (and scales the total at the last). The
    invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in_0, before_in_1, before_in_2, before_in_3]
  rw [show (dats m (outsAt0 m) 0 c).Φ t.succ = (dats m (outsAt0 m) 0 c).Φ t.castSucc from rfl,
    show (dats m (outsAt0 m) 0 c).owesAt () t.succ = (dats m (outsAt0 m) 0 c).owesAt () t.castSucc from rfl,
    after_0, after_1, after_2, after_3, after_4]
  have hN : t.val < 256 := lt_of_lt_of_eq t.isLt (show cfg0.N = 256 from N_0)
  by_cases h0 : t.val = 0
  · have h1 : t.val ≠ 255 := by omega
    rw [outsAt0_A m c t h0]
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => h1 ((hcond0_1 t).mp h))
      (iblk m c 0 t) (iblk m c 1 t) (iblk m c 2 t) (iblk m c 3 t) ((dats m (outsAt0 m) 0 c).before 4 t d4)).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ _ _ _ (cover0_A_4 c _ _ _ _ _ _ _ _ _ _ _ _ _ _ _ _ _ _)).trans
      (out0_A_4_eq c (grid0.coords t) _ _ _ _ _ _ _ _ _ _ ((hcond0_0 t).mpr h0) (fun h => h1 ((hcond0_1 t).mp h))
        (iblk m c 0 t) (iblk m c 1 t) (iblk m c 2 t) (iblk m c 3 t) ((dats m (outsAt0 m) 0 c).before 4 t d4))
  · simp only [before_out m c t h0]
    by_cases h1 : t.val = 255
    · rw [outsAt0_C m c t h1]
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1)
        (iblk m c 0 t) (iblk m c 1 t) (iblk m c 2 t) (iblk m c 3 t)
        (outsAt0 m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ _ _ _ (cover0_C_4 c _ _ _ _ _ _ _ _ _ _ _ _ _ _ _ _ _ _)).trans
        (out0_C_4_eq c (grid0.coords t) _ _ _ _ _ _ _ _ _ _ (fun h => h0 ((hcond0_0 t).mp h)) ((hcond0_1 t).mpr h1)
          (iblk m c 0 t) (iblk m c 1 t) (iblk m c 2 t) (iblk m c 3 t)
          (outsAt0 m c (t.val - 1) (Nat.lt_of_le_of_lt (Nat.sub_le _ _) t.isLt)))
    · rw [outsAt0_B m c t h0 h1]
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h))
        (iblk m c 0 t) (iblk m c 1 t) (iblk m c 2 t) (iblk m c 3 t)
        (outsAt0 m c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ _ _ _ (cover0_B_4 c _ _ _ _ _ _ _ _ _ _ _ _ _ _ _ _ _ _)).trans
        (out0_B_4_eq c (grid0.coords t) _ _ _ _ _ _ _ _ _ _ (fun h => h0 ((hcond0_0 t).mp h)) (fun h => h1 ((hcond0_1 t).mp h))
          (iblk m c 0 t) (iblk m c 1 t) (iblk m c 2 t) (iblk m c 3 t)
          (outsAt0 m c (t.val - 1) (Nat.lt_of_le_of_lt (Nat.sub_le _ _) t.isLt)))

/-- The pipeline's body obligation, at every point. -/
theorem body_obligation (c : Dev nD) : BodyObligation (dats m (outsAt0 m) 0 c) (defs₀ (F := F)) 𝒱₀ () Set.univ := fun t => by
  rw [bigSep_W0, bigSep_W0]
  exact sound_body m c t

end Cert.KernelIdeal.Hand

end
-- ==== Proof.KI.Final.lean ====
/- What the region's result array holds at the end: the accumulator's one-element block is written back once,
   after the last grid point, and that block is the whole array. -/
import proofs.«164804_j46385646796817_1_alg».proof.Proof.KI.Launch
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)
variable (acc : Dev nD → (n : ℕ) → n < cfg0.N → Vec F S1x1 .f32)

/-- The last point of the 16 × 16 grid. -/
def lastPt : Fin cfg0.N := ⟨255, by rw [show cfg0.N = 256 from N_0]; decide⟩

/-- The one write-back of the result window, after the last point, writes what the accumulator then holds:
    its block, read through zero offsets of the array's own sizes, is the array. -/
theorem flushed4 (c : Dev nD) (t : Fin cfg0.N) (hf : (cfg0.win 4).flush t = true) :
    (dats m acc 0 c).flushed 4 t
      = ((cfg0.win 4).blk t).view.read (Elt F) (acc c 255 lastPt.isLt : Buf (Elt F) ((c : Thread nD τ).loc main_v47)) := by
  have hN : cfg0.N = 256 := N_0
  have h1 : t.val = 255 := by have := (flush0_4 t).mp hf; have := t.isLt; omega
  obtain rfl : t = lastPt := Fin.ext h1
  show (cfg0.win 4).cut (grid0.coords lastPt) ((dats m acc 0 c).after 4 lastPt) = _
  rw [show (dats m acc 0 c).after 4 lastPt = acc c 255 lastPt.isLt from rfl]
  have hz' : (fun a => win0_4.index lastPt a * main_v47.ty.shape.size a) = fun _ => 0 :=
    funext fun a => by fin_cases a <;> decide
  exact (Memref.read_access_unit_zero (Elt F) main_v47 hz' (fun a => by rw [congrFun hz' a]; simp)
    (acc c 255 lastPt.isLt : Buf (Elt F) ((c : Thread nD τ).loc main_v47))).symm

/-- So the result array ends holding what the accumulator holds after the last point. -/
theorem final4 (c : Dev nD) :
    (dats m acc 0 c).arrAt 4 cfg0.N = (acc c 255 lastPt.isLt : Buf (Elt F) ((c : Thread nD τ).loc main_v47)) :=
  (dats m acc 0 c).arrAt_eq_of_cover 4 (acc c 255 lastPt.isLt : Buf (Elt F) ((c : Thread nD τ).loc main_v47))
    (flushed4 m acc c) fun i =>
    ⟨lastPt, (flush0_4 lastPt).mpr rfl, by
      show i ∈ ((View.whole main_v47).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

end Cert.KernelIdeal.Hand

end
-- ==== Proof.KI.HostValue.lean ====
import proofs.«164804_j46385646796817_1_alg».proof.Proof.KI.Launch
import Idealize.ShloMosaic.Lib.StableHlo.Run

/-! The kernel program's host side read as functions of its two arguments.

Before its one region the program runs the same chain of tensor operations as the reference: it takes every second
row and column of each plane and flattens (`preF` for the features, `preL` for the labels) and divides each feature
row by the larger of its norm and a small constant (`normF`). It then rounds the normalised rows to the narrower
float format and lays the labels out as a column and as a row; these are the arrays the region's windows read.
After the region one more operation reads the region's 1 × 1 result as a scalar.

This module states the three stages over the kernel program's own vocabulary, spelled as the reference's are,
reads the arrays the region finds off the valuation at its entry, and reads the result and the arguments off the
valuation at the program's end. -/

noncomputable section

namespace Cert.KernelIdeal.Hand

open Cert.KernelIdeal Cert.KernelIdeal.Gen Idealize.ShloMosaic Idealize.ShloMosaic.TcCoe Idealize.SL.Sem Idealize.ShloMosaic.StableHlo

/-! ## The index vectors -/

/-- `k ↦ 128 · k` for `k < 64`. -/
def idxTimes : IVec S64 32 :=
  muli (iotaInDim S64 32 0) (broadcastInDim S64 ![] bcast_S_S64 (constantI S_ 32 128#32))

/-- Floor division of a vector by a scalar as the program's helper computes it: the truncated quotient,
    lowered by one where dividend and divisor differ in sign and the remainder is not zero. -/
def floorDiv (a : IVec S64 32) (d : IVec S_ 32) : IVec S64 32 :=
  select
    (andi (cmpi .ne (signi a) (broadcastInDim S64 ![] bcast_S_S64 (signi (id d))))
      (cmpi .ne (Host.remsi a (broadcastInDim S64 ![] bcast_S_S64 (id d)))
        (broadcastInDim S64 ![] bcast_S_S64 (constantI S_ 32 0#32))))
    (subi (Host.divsi a (broadcastInDim S64 ![] bcast_S_S64 (id d)))
      (broadcastInDim S64 ![] bcast_S_S64 (constantI S_ 32 1#32)))
    (Host.divsi a (broadcastInDim S64 ![] bcast_S_S64 (id d)))

/-- `k ↦ ⌊128 · k / 64⌋` (that is `2 k`): the coordinate the `k`-th kept row, or column, is read at. -/
def idxBase : IVec S64 32 := floorDiv idxTimes (constantI S_ 32 64#32)

/-- A negative coordinate counts from the end of an axis of length 128. -/
def idxWrap (v : IVec S64 32) : IVec S64 32 :=
  select (cmpi .slt v (broadcastInDim S64 ![] bcast_S_S64 (constantI S_ 32 0#32)))
    (addi v (broadcastInDim S64 ![] bcast_S_S64 (constantI S_ 32 128#32))) v

/-- The row coordinates, as the column of start indices the first gather of each argument takes. -/
def idxRows : IVec S64x1 32 := broadcastInDim S64x1 ![0] bcast_S64_S64x1_0 (idxWrap idxBase)

/-- The column coordinates, for the second gather: the same vector, computed a second time by the program. -/
def idxCols : IVec S64x1 32 := broadcastInDim S64x1 ![0] bcast_S64_S64x1_0 (idxWrap idxBase)

theorem idxCols_eq : idxCols = idxRows := rfl

variable {F : FTy → Type} [FloatOps F]

/-! ## The four stages -/

/-- The feature rows: rows then columns of each plane subsampled, channels moved last, flattened. -/
def preF (x : FVec F S4x64x128x128 .f32) : FVec F S16384x64 .f32 :=
  shapeCast S16384x64
    (transpose S4x64x64x64 [0, 2, 3, 1]
      (Host.gather gather_S4x64x64x128_S64x1_S4x64x64x64_012_3_n_n_3_1_464641
        (Host.gather gather_S4x64x128x128_S64x1_S4x64x64x128_013_2_n_n_2_1_4641128 x idxRows) idxCols)
      transposes_S4x64x64x64_S4x64x64x64_0_2_3_1)
    shapeCasts_S4x64x64x64_S16384x64

/-- The labels: subsampled the same way and flattened. -/
def preL (l : IVec S4x1x128x128 32) : IVec S16384 32 :=
  shapeCast S16384
    (Host.gather gather_S4x1x64x128_S64x1_S4x1x64x64_012_3_n_n_3_1_41641
      (Host.gather gather_S4x1x128x128_S64x1_S4x1x64x128_013_2_n_n_2_1_411128 l idxRows) idxCols)
    shapeCasts_S4x1x64x64_S16384

/-- Each row divided by the larger of its Euclidean norm and the constant `0x2B8CBCCC` (about `1e-12`). -/
def normF (f : FVec F S16384x64 .f32) : FVec F S16384x64 .f32 :=
  Host.divf f
    (broadcastInDim S16384x64 ![0, 1] bcast_S16384x1_S16384x64_0_1
      (maximumf
        (Host.sqrt (broadcastInDim S16384x1 ![0] bcast_S16384_S16384x1_0
          (Host.reduceAdd (mulf f f) (constant S_ .f32 0x00000000#32) reducesTo_S16384x64_S16384_d1 h_S_)))
        (broadcastInDim S16384x1 ![] bcast_S_S16384x1 (constant S_ .f32 0x2B8CBCCC#32))))

/-! ## The contents before the region -/

attribute [local irreducible] Host.gather Host.reduceAdd in
set_option maxRecDepth 8192 in
set_option maxHeartbeats 1600000 in
/-- After the first five stretches the feature-row buffer holds `preF` of the float argument. -/
theorem v37_eq (W : Valuation τ sig (Elt F)) :
    after hostOps0_4 (after hostOps0_3 (after hostOps0_2 (after hostOps0_1 (after hostOps0 W)))) (main_v37 : DevRef τ sig)
      = preF (W (main_arg0 : DevRef τ sig)) := by
  after_results_simp
  rfl

attribute [local irreducible] Host.gather Host.reduceAdd in
set_option maxRecDepth 8192 in
set_option maxHeartbeats 1600000 in
/-- … and the label buffer `preL` of the integer argument. -/
theorem v38_eq (W : Valuation τ sig (Elt F)) :
    after hostOps0_4 (after hostOps0_3 (after hostOps0_2 (after hostOps0_1 (after hostOps0 W)))) (main_v38 : DevRef τ sig)
      = preL (W (main_arg1 : DevRef τ sig)) := by
  after_results_simp
  rfl

attribute [local irreducible] Host.gather Host.reduceAdd in
set_option maxRecDepth 8192 in
set_option maxHeartbeats 1600000 in
/-- The last two stretches before the region: the feature rows normalised, then rounded to the narrower format; -/
theorem v44_step (W : Valuation τ sig (Elt F)) :
    after hostOps0_6 (after hostOps0_5 W) (main_v44 : DevRef τ sig)
      = (truncf .bf16 (normF (W (main_v37 : DevRef τ sig))) bitsLt_bf16_f32 : FVec F S16384x64 .bf16) := by
  after_results_simp
  rfl

/-- the labels as a column; -/
theorem v45_step (W : Valuation τ sig (Elt F)) :
    after hostOps0_6 (after hostOps0_5 W) (main_v45 : DevRef τ sig)
      = shapeCast S16384x1 (W (main_v38 : DevRef τ sig)) shapeCasts_S16384_S16384x1 := by
  after_results_simp
  rfl

/-- the labels as a row. -/
theorem v46_step (W : Valuation τ sig (Elt F)) :
    after hostOps0_6 (after hostOps0_5 W) (main_v46 : DevRef τ sig)
      = shapeCast S1x16384 (W (main_v38 : DevRef τ sig)) shapeCasts_S16384_S1x16384 := by
  after_results_simp
  rfl

variable (m : (ℓ : Loc nD τ sig) → Buf (Elt F) ℓ)

/-- The region's first two windows read the normalised feature rows, rounded to the narrower format. -/
theorem V_v44 (c : Dev nD) :
    V m c main_v44
      = (truncf .bf16 (normF (preF (m ((c.tc : Thread nD τ).loc main_arg0)))) bitsLt_bf16_f32 : FVec F S16384x64 .bf16) := by
  show after hostOps0_6 (after hostOps0_5 (V₅ m c)) _ = _
  rw [v44_step, show V₅ m c (main_v37 : DevRef τ sig) = _ from v37_eq (V₀ m c)]

/-- Its third window reads the labels as a column. -/
theorem V_v45 (c : Dev nD) :
    V m c main_v45 = shapeCast S16384x1 (preL (m ((c.tc : Thread nD τ).loc main_arg1))) shapeCasts_S16384_S16384x1 := by
  show after hostOps0_6 (after hostOps0_5 (V₅ m c)) _ = _
  rw [v45_step, show V₅ m c (main_v38 : DevRef τ sig) = _ from v38_eq (V₀ m c)]

/-- Its fourth window reads the labels as a row. -/
theorem V_v46 (c : Dev nD) :
    V m c main_v46 = shapeCast S1x16384 (preL (m ((c.tc : Thread nD τ).loc main_arg1))) shapeCasts_S16384_S1x16384 := by
  show after hostOps0_6 (after hostOps0_5 (V₅ m c)) _ = _
  rw [v46_step, show V₅ m c (main_v38 : DevRef τ sig) = _ from v38_eq (V₀ m c)]

/-! ## The contents at the program's end -/

/-- No operation before the region writes an argument. -/
theorem arg0_pre (W : Valuation τ sig (Elt F)) :
    after hostOps0_6 (after hostOps0_5 (after hostOps0_4 (after hostOps0_3 (after hostOps0_2 (after hostOps0_1
      (after hostOps0 W)))))) (main_arg0 : DevRef τ sig) = W (main_arg0 : DevRef τ sig) := by
  after_results_simp

theorem arg1_pre (W : Valuation τ sig (Elt F)) :
    after hostOps0_6 (after hostOps0_5 (after hostOps0_4 (after hostOps0_3 (after hostOps0_2 (after hostOps0_1
      (after hostOps0 W)))))) (main_arg1 : DevRef τ sig) = W (main_arg1 : DevRef τ sig) := by
  after_results_simp

variable (acc : Dev nD → (n : ℕ) → n < cfg0.N → Vec F S1x1 .f32)

/-- The arguments end as they were: the region writes its result array only, the last operation the scalar. -/
theorem V₉_arg0 (c : Dev nD) :
    V₉ m acc c (Proc.devRef .tc main_arg0) = m ((c.tc : Thread nD τ).loc main_arg0) := by
  show after hostOps1 (V₈ m acc c) _ = _
  have h : V₈ m acc c (Proc.devRef .tc main_arg0) = m ((c.tc : Thread nD τ).loc main_arg0) :=
    (V₈_of_ne m acc c _ (by decide)).trans (arg0_pre (V₀ m c))
  generalize V₈ m acc c = W at h ⊢
  after_results_simp
  exact h

theorem V₉_arg1 (c : Dev nD) :
    V₉ m acc c (Proc.devRef .tc main_arg1) = m ((c.tc : Thread nD τ).loc main_arg1) := by
  show after hostOps1 (V₈ m acc c) _ = _
  have h : V₈ m acc c (Proc.devRef .tc main_arg1) = m ((c.tc : Thread nD τ).loc main_arg1) :=
    (V₈_of_ne m acc c _ (by decide)).trans (arg1_pre (V₀ m c))
  generalize V₈ m acc c = W at h ⊢
  after_results_simp
  exact h

/-- The result is the region's 1 × 1 array read as a scalar. -/
theorem V₉_v48 (c : Dev nD) :
    V₉ m acc c (Proc.devRef .tc main_v48)
      = shapeCast S_ ((dats m acc 0 c).arrAt 4 cfg0.N) shapeCasts_S1x1_S_ := by
  show after hostOps1 (V₈ m acc c) _ = _
  have h := V₈_v47 m acc c
  generalize V₈ m acc c = W at h ⊢
  after_results_simp
  rw [h]
  rfl

end Cert.KernelIdeal.Hand

end
-- ==== Proof.KI.Frame.lean ====
/-
  The kernel program's run read at its result and its arguments: every weakly fair execution ends with the scalar
  result holding the accumulator as the last grid point left it, and with both argument arrays as launched (no host
  operation writes an argument, and the region's windows only read the arrays derived from them).
-/
import proofs.«164804_j46385646796817_1_alg».proof.Proof.KI.Run
import proofs.«164804_j46385646796817_1_alg».proof.Proof.KI.Body
import proofs.«164804_j46385646796817_1_alg».proof.Proof.KI.Final
import proofs.«164804_j46385646796817_1_alg».proof.Proof.KI.HostValue

noncomputable section

namespace Cert.KernelIdeal.Hand

open Cert.KernelIdeal Cert.KernelIdeal.Gen
open Idealize.ShloMosaic Idealize.ShloMosaic.TcCoe Idealize.SL.Sem
open Idealize.ShloMosaic.Pipeline (ucRefs)

variable {F : FTy → Type} [FloatOps F]
variable (m : (ℓ : Loc nD τ sig) → Buf (Elt F) ℓ) (ρ : Dev nD → PrngReg)

theorem mem_arg0 : (Proc.devRef .tc main_arg0 : DevRef τ sig) ∈ ucRefs τ sig := by decide
theorem mem_arg1 : (Proc.devRef .tc main_arg1 : DevRef τ sig) ∈ ucRefs τ sig := by decide
theorem mem_v48 : (Proc.devRef .tc main_v48 : DevRef τ sig) ∈ ucRefs τ sig := by decide

/-- The result buffer after the last host operation: the accumulator after the last point, read as a scalar. -/
theorem V₉_result (c : Dev nD) :
    V₉ m (outsAt0 m) c (Proc.devRef .tc main_v48) = shapeCast S_ (outsAt0 m c 255 lastPt.isLt) shapeCasts_S1x1_S_ := by
  rw [V₉_v48 m (outsAt0 m) c, final4 m (outsAt0 m) c]

/-- The run, read at the result and the arguments. -/
theorem run : θ_run defs (onTc (τ := τ) (main (F := F))) ⟨m, fun _ => 0, ρ⟩ (fun r => ∀ c : Dev nD,
      r.2.mem ((c.tc : Thread nD τ).loc main_v48) = shapeCast S_ (outsAt0 m c 255 lastPt.isLt) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ mem_v48).trans (V₉_result m c), (h c _ mem_arg0).trans (V₉_arg0 m (outsAt0 m) c),
        (h c _ mem_arg1).trans (V₉_arg1 m (outsAt0 m) c)⟩)
    (run_main m ρ (outsAt0 m) fun c => body_obligation m c)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.KI.Payload.lean ====
/- The three stored values of the kernel body read at the accumulator's one index, over the extended reals:
   the zero splat, the accumulator's update (the running value plus the masked sum of the block's row
   products) and the final scale; with the small index lemmas they rest on (the product block at an entry,
   a column broadcast, a vector cast to a column, the row and column sums, the mask entry). -/
import proofs.«164804_j46385646796817_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal.Gen
open Idealize.ShloMosaic Idealize.ShloMosaic.ValueIdx

/-- The zero splat at its one index. -/
theorem pay1_apply (j : S1x1.Idx) : k0_pay1 (F := Ideal) j = Ideal.ofBits .f32 0x00000000#32 := rfl

theorem pay1_apply_zero (j : S1x1.Idx) : k0_pay1 (F := Ideal) j = (0 : EReal) :=
  (pay1_apply j).trans Ideal.ofBits_zero_f32

/-- The final scale at its one index: the accumulated total times the constant. -/
theorem pay3_apply (v : FVec Ideal S1x1 .f32) (j : S1x1.Idx) :
    k0_pay3 (F := Ideal) v j = v j * Ideal.ofBits .f32 0x31800000#32 := by
  unfold k0_pay3
  rw [shapeCast_self]
  rfl

/-- The mask entry: a one-bit "differs" flag widened to a word and read as a signed integer is 1 or 0. -/
theorem mask_val (a b : BitVec 32) :
    ((((IntOp.cmpi .ne a b).setWidth 32 : BitVec 32).toInt : ℝ) : EReal) = if a ≠ b then (1 : EReal) else 0 := by
  have e1 : ((BitVec.ofBool true).setWidth 32 : BitVec 32).toInt = 1 := by decide
  have e0 : ((BitVec.ofBool false).setWidth 32 : BitVec 32).toInt = 0 := by decide
  unfold IntOp.cmpi
  by_cases h : a = b
  · have hb : (a != b) = false := by simpa using h
    rw [if_neg (not_not.mpr h)]
    show ((((BitVec.ofBool (a != b)).setWidth 32 : BitVec 32).toInt : ℝ) : EReal) = 0
    rw [hb, e0]; simp
  · have hb : (a != b) = true := by simpa using h
    rw [if_pos h]
    show ((((BitVec.ofBool (a != b)).setWidth 32 : BitVec 32).toInt : ℝ) : EReal) = 1
    rw [hb, e1]; simp

/-- The product block at (r, s): the sum over the 64 shared coordinates of the two rows' products. -/
theorem mm_apply (a b : FVec Ideal S1024x64 .bf16) (r s : Fin 1024) :
    matmul dot_S1024x64_S64x1024_S1024x1024_1_0_0_1_n_n none a (transpose S64x1024 [1, 0] b transposes_S1024x64_p1_0_S64x1024)
        (constant (F := Ideal) S1024x1024 .f32 0x00000000#32) (ix2 r s)
      = ∑ c : Fin 64, a (ix2 r c) * b (ix2 s c) := by
  refine (Ideal.matmul_constant_zero_apply dot_S1024x64_S64x1024_S1024x1024_1_0_0_1_n_n none a _ (ix2 r s)).trans ?_
  rw [← Equiv.sum_comp (contrEquiv1 dot_S1024x64_S64x1024_S1024x1024_1_0_0_1_n_n 64 rfl rfl).symm]
  refine Finset.sum_congr rfl fun c _ => ?_
  have hl : dot_S1024x64_S64x1024_S1024x1024_1_0_0_1_n_n.lhsIdx (ix2 r s)
      ((contrEquiv1 dot_S1024x64_S64x1024_S1024x1024_1_0_0_1_n_n 64 rfl rfl).symm c) = ix2 r c := by
    funext ax
    match ax with
    | ⟨0, _⟩ => exact Fin.ext rfl
    | ⟨1, _⟩ =>
      exact Fin.ext ((DotDims.lhsIdx_val_of_single _ (cl := (1 : Fin 2)) rfl _ _).trans
        (contrEquiv1_symm_val dot_S1024x64_S64x1024_S1024x1024_1_0_0_1_n_n 64 rfl rfl c))
  have hr : dot_S1024x64_S64x1024_S1024x1024_1_0_0_1_n_n.rhsIdx (ix2 r s)
      ((contrEquiv1 dot_S1024x64_S64x1024_S1024x1024_1_0_0_1_n_n 64 rfl rfl).symm c) = ix2 c s := by
    funext ax
    match ax with
    | ⟨0, _⟩ =>
      exact Fin.ext ((DotDims.rhsIdx_val_of_single _ (cr := (0 : Fin 2)) rfl _ _).trans
        (contrEquiv1_symm_val dot_S1024x64_S64x1024_S1024x1024_1_0_0_1_n_n 64 rfl rfl c))
    | ⟨1, _⟩ => exact Fin.ext rfl
  rw [hl, hr]
  exact congrArg (a (ix2 r c) * ·) (transpose_ix2_apply b transposes_S1024x64_p1_0_S64x1024 c s)

/-- A column broadcast along the rows: an [a, 1] array broadcast to [a, b] reads, at (p, q), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An [a] array cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row: the lane reduction of a [1024, 1024] array at row r is the sum of the row's entries. -/
theorem rowSum_apply (v : FVec Ideal S1024x1024 .f32) (r : Fin 1024) :
    multiReduction (F := Ideal) .add [1] S1024 v 0x00000000#32 reduces_S1024x1024_S1024 (.inl rfl) rfl (ix1 r)
      = ∑ s : Fin 1024, v (ix2 r s) := by
  refine (Ideal.multiReduction_add_single v 0x00000000#32 reduces_S1024x1024_S1024 (.inl rfl) rfl (ix1 r)).trans ?_
  exact Finset.sum_congr rfl fun s _ => congrArg v (funext fun ax => match ax with
    | ⟨0, _⟩ => Fin.ext rfl
    | ⟨1, _⟩ => Fin.ext rfl)

/-- The sum down a column [1024, 1] is the sum of its entries. -/
theorem colSum_apply (v : FVec Ideal S1024x1 .f32) (q : Fin 1) :
    multiReduction (F := Ideal) .add [0] S1 v 0x00000000#32 reduces_S1024x1_S1 (.inl rfl) rfl (ix1 q)
      = ∑ r : Fin 1024, v (ix2 r q) := by
  refine (Ideal.multiReduction_add_single v 0x00000000#32 reduces_S1024x1_S1 (.inl rfl) rfl (ix1 q)).trans ?_
  exact Finset.sum_congr rfl fun r _ => congrArg v (funext fun ax => match ax with
    | ⟨0, _⟩ => Fin.ext rfl
    | ⟨1, _⟩ => Fin.ext rfl)

/-- The accumulator's update at its one index: the running value plus the masked sum of all the block's row
    products — over the rows r of the first operand and the rows s of the second, the product block's entry
    (the sum over the 64 shared coordinates) counted when the two labels differ. -/
theorem pay2_apply (x0 x1 : FVec Ideal S1024x64 .bf16) (x2 : IVec S1024x1 32) (x3 : IVec S1x1024 32)
    (xo : FVec Ideal S1x1 .f32) (j : S1x1.Idx) :
    k0_pay2 (F := Ideal) x0 x1 x2 x3 xo j
      = xo j + ∑ r : Fin 1024, ∑ s : Fin 1024,
          (if x2 (ix2 r 0) ≠ x3 (ix2 0 s) then (1 : EReal) else 0) * ∑ c : Fin 64, x0 (ix2 r c) * x1 (ix2 s c) := by
  obtain ⟨p, q, rfl⟩ : ∃ (p : Fin 1) (q : Fin 1), j = ix2 p q := ⟨j 0, j 1, eq_ix2 j⟩
  unfold k0_pay2
  simp only [shapeCast_self]
  refine congrArg (xo (ix2 p q) + ·) ?_
  refine (shapeCast_a_1a_apply _ shapeCasts_S1_S1x1 p q).trans ?_
  refine (colSum_apply _ q).trans ?_
  refine Finset.sum_congr rfl fun r _ => ?_
  refine (shapeCast_a_a1_apply _ shapeCasts_S1024_S1024x1 r q).trans ?_
  refine (rowSum_apply _ r).trans ?_
  refine Finset.sum_congr rfl fun s _ => ?_
  refine congrArg₂ (· * ·) ?_ (mm_apply x0 x1 r s)
  show ((((IntOp.cmpi .ne (broadcastTo S1024x1024 x2 broadcasts_S1024x1_S1024x1024 (ix2 r s))
      (broadcastTo S1024x1024 x3 broadcasts_S1x1024_S1024x1024 (ix2 r s))).setWidth 32 : BitVec 32).toInt : ℝ) : EReal) = _
  rw [broadcastTo_a1_ab_apply x2 broadcasts_S1024x1_S1024x1024 r s, broadcastTo_1b_ab_apply x3 broadcasts_S1x1024_S1024x1024 r s]
  exact mask_val _ _

end Cert.KernelIdeal.Hand

end
-- ==== Proof.KI.Blocks.lean ====
/-
  What the region's windows read and what it writes back.

  Point t of the 16×16 grid is block row t / 16 and block column t % 16. The row-feature window reads rows
  1024·(t / 16) … of the normalised features, the column-feature window rows 1024·(t % 16) … of the same array, the label
  column window the same rows of the label column, the label row window the same columns of the label row. The 1×1
  accumulator is written back once, after the last point, and is then the whole result array.
-/
import proofs.«164804_j46385646796817_1_alg».proof.Proof.KI.Launch
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)
variable (acc : Dev nD → (n : ℕ) → n < cfg0.N → Vec F S1x1 .f32)

/-! ## The windows' block indices over the grid -/

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx3 : ∀ t : Fin cfg0.N, win0_3.index t 0 = 0 ∧ win0_3.index t 1 = t.val % 16 :=
  (by decide +kernel : ∀ t : Fin grid0.N, win0_3.index t 0 = 0 ∧ win0_3.index t 1 = t.val % 16)

/-! ## The input blocks, entry by entry -/

/-- The row-feature block at point `t`: rows `1024·(t / 16) + r` of the normalised features. -/
theorem iblk0_apply (c : Dev nD) (t : Fin cfg0.N) (x : S1024x64.Idx) (k : S16384x64.Idx)
    (hk0 : (k 0).val = t.val / 16 * 1024 + (x 0).val) (hk1 : (k 1).val = (x 1).val) :
    (iblk m c 0 t : Vec F S1024x64 .bf16) x = (V m c main_v44 : S16384x64.Idx → Elt F .bf16) k := by
  have hi := idx0 t
  unfold iblk
  rw [View.read_apply]
  show V m c main_v44 _ = V m c main_v44 _
  refine congrArg (V m c main_v44) ?_
  funext a
  apply Fin.ext
  match a with
  | ⟨0, _⟩ => show win0_0.index t 0 * 1024 + 1 * (x 0).val = (k 0).val; rw [hi.1, hk0]; omega
  | ⟨1, _⟩ => show win0_0.index t 1 * 64 + 1 * (x 1).val = (k 1).val; rw [hi.2, hk1]; omega

/-- The column-feature block at point `t`: rows `1024·(t % 16) + s` of the same array. -/
theorem iblk1_apply (c : Dev nD) (t : Fin cfg0.N) (x : S1024x64.Idx) (k : S16384x64.Idx)
    (hk0 : (k 0).val = t.val % 16 * 1024 + (x 0).val) (hk1 : (k 1).val = (x 1).val) :
    (iblk m c 1 t : Vec F S1024x64 .bf16) x = (V m c main_v44 : S16384x64.Idx → Elt F .bf16) k := by
  have hi := idx1 t
  unfold iblk
  rw [View.read_apply]
  show V m c main_v44 _ = V m c main_v44 _
  refine congrArg (V m c main_v44) ?_
  funext a
  apply Fin.ext
  match a with
  | ⟨0, _⟩ => show win0_1.index t 0 * 1024 + 1 * (x 0).val = (k 0).val; rw [hi.1, hk0]; omega
  | ⟨1, _⟩ => show win0_1.index t 1 * 64 + 1 * (x 1).val = (k 1).val; rw [hi.2, hk1]; omega

/-- The label column's block at point `t`: rows `1024·(t / 16) + r`. -/
theorem iblk2_apply (c : Dev nD) (t : Fin cfg0.N) (x : S1024x1.Idx) (k : S16384x1.Idx)
    (hk0 : (k 0).val = t.val / 16 * 1024 + (x 0).val) (hk1 : (k 1).val = (x 1).val) :
    (iblk m c 2 t : Vec F S1024x1 .i32) x = (V m c main_v45 : S16384x1.Idx → Elt F .i32) k := by
  have hi := idx2 t
  unfold iblk
  rw [View.read_apply]
  show V m c main_v45 _ = V m c main_v45 _
  refine congrArg (V m c main_v45) ?_
  funext a
  apply Fin.ext
  match a with
  | ⟨0, _⟩ => show win0_2.index t 0 * 1024 + 1 * (x 0).val = (k 0).val; rw [hi.1, hk0]; omega
  | ⟨1, _⟩ => show win0_2.index t 1 * 1 + 1 * (x 1).val = (k 1).val; rw [hi.2, hk1]; omega

/-- The label row's block at point `t`: columns `1024·(t % 16) + s`. -/
theorem iblk3_apply (c : Dev nD) (t : Fin cfg0.N) (x : S1x1024.Idx) (k : S1x16384.Idx)
    (hk0 : (k 0).val = (x 0).val) (hk1 : (k 1).val = t.val % 16 * 1024 + (x 1).val) :
    (iblk m c 3 t : Vec F S1x1024 .i32) x = (V m c main_v46 : S1x16384.Idx → Elt F .i32) k := by
  have hi := idx3 t
  unfold iblk
  rw [View.read_apply]
  show V m c main_v46 _ = V m c main_v46 _
  refine congrArg (V m c main_v46) ?_
  funext a
  apply Fin.ext
  match a with
  | ⟨0, _⟩ => show win0_3.index t 0 * 1 + 1 * (x 0).val = (k 0).val; rw [hi.1, hk0]; omega
  | ⟨1, _⟩ => show win0_3.index t 1 * 1024 + 1 * (x 1).val = (k 1).val; rw [hi.2, hk1]; omega

end Cert.KernelIdeal.Hand

end
-- ==== Proof.LibSumBlocks.lean ====
/-
  A sum over `K * n` consecutive naturals is the sum, over `K` consecutive stretches of length `n`, of each
  stretch's sum — in any commutative additive monoid — and the same for a sum over `Fin (K * n)` read at
  `k * n + j`.
-/
import Mathlib.Algebra.BigOperators.Fin
import Mathlib.Algebra.BigOperators.Intervals

namespace Cert.LibSumBlocks

/-- `∑ p < K·n, f p = ∑ k < K, ∑ j < n, f (k·n + j)`. -/
theorem sum_range_mul {β : Type*} [AddCommMonoid β] (n : ℕ) (f : ℕ → β) :
    ∀ K : ℕ, ∑ p ∈ Finset.range (K * n), f p = ∑ k ∈ Finset.range K, ∑ j ∈ Finset.range n, f (k * n + j)
  | 0 => by simp
  | K + 1 => by
    rw [Nat.succ_mul, Finset.sum_range_add, sum_range_mul n f K, Finset.sum_range_succ]

/-- The same with the outer and inner sums over `Fin K` and `Fin n`, for a function on `Fin N` with `N = K·n`. -/
theorem sum_fin_mul {β : Type*} [AddCommMonoid β] (K n N : ℕ) (hN : N = K * n) (f : Fin N → β) :
    ∑ p : Fin N, f p
      = ∑ k : Fin K, ∑ j : Fin n, f ⟨k.val * n + j.val, by
          subst hN
          calc k.val * n + j.val < k.val * n + n := Nat.add_lt_add_left j.isLt _
            _ = (k.val + 1) * n := (Nat.succ_mul _ _).symm
            _ ≤ K * n := Nat.mul_le_mul_right _ k.isLt⟩ := by
  subst hN
  let g : ℕ → β := fun p => if h : p < K * n then f ⟨p, h⟩ else 0
  have hg : ∀ p : Fin (K * n), f p = g p.val := fun p => by simp [g, p.isLt]
  rw [Finset.sum_congr rfl (fun p _ => hg p), ← Finset.sum_range (fun p => g p), sum_range_mul n g K,
    Finset.sum_range (fun k => ∑ j ∈ Finset.range n, g (k * n + j))]
  refine Finset.sum_congr rfl fun k _ => ?_
  rw [Finset.sum_range (fun j => g (k.val * n + j))]
  refine Finset.sum_congr rfl fun j _ => ?_
  exact (hg ⟨k.val * n + j.val, _⟩).symm

end Cert.LibSumBlocks
-- ==== Proof.KI.Bridge.lean ====
/- The arithmetic that joins the kernel's walk over a 16 × 16 grid of 1024 × 1024 blocks to one sum over the
   whole 16384 × 16384 matrix: the running value after the last block is the sum of all entries (sums in the
   extended reals are those of a commutative additive monoid: no finiteness is used), and scaling by 2⁻²⁸ is
   dividing by 2²⁸. -/
import Mathlib.Algebra.BigOperators.Fin
import Mathlib.Algebra.BigOperators.Intervals
import Idealize.ShloMosaic.PureOps.Ideal
import Idealize.ShloMosaic.PureOps.Ideal.Laws
import proofs.«164804_j46385646796817_1_alg».proof.Proof.LibSumBlocks

noncomputable section

namespace Cert.KernelIdeal.Hand

open Idealize.ShloMosaic
open Finset

/-! ## The two constants -/

/-- The pattern `0x4D800000` denotes 2²⁸. -/
theorem ofBits_two_pow_28 : Ideal.ofBits .f32 0x4D800000#32 = ((268435456 : ℝ) : EReal) := by
  simp [Ideal.ofBits, Ideal.ieee, -EReal.coe_mul]; norm_num

/-- The pattern `0x31800000` denotes 2⁻²⁸. -/
theorem ofBits_two_pow_neg_28 : Ideal.ofBits .f32 0x31800000#32 = ((1 / 268435456 : ℝ) : EReal) := by
  simp [Ideal.ofBits, Ideal.ieee, -EReal.coe_mul]; norm_num

/-- Scaling by 2⁻²⁸ is dividing by 2²⁸, at the infinities too. -/
theorem scale_eq (x : EReal) :
    x * Ideal.ofBits .f32 0x31800000#32 = Ideal.div x (Ideal.ofBits .f32 0x4D800000#32) := by
  rw [ofBits_two_pow_neg_28, ofBits_two_pow_28, Ideal.div_coe (by norm_num)]

/-! ## The matrix cut into blocks -/

/-- The matrix extended by zero to all pairs of naturals. -/
def ext2 (g : Fin 16384 → Fin 16384 → EReal) (i j : ℕ) : EReal :=
  if h : i < 16384 ∧ j < 16384 then g ⟨i, h.1⟩ ⟨j, h.2⟩ else 0

theorem ext2_of_lt (g : Fin 16384 → Fin 16384 → EReal) {i j : ℕ} (hi : i < 16384) (hj : j < 16384) :
    ext2 g i j = g ⟨i, hi⟩ ⟨j, hj⟩ := dif_pos ⟨hi, hj⟩

/-- The sum of block `n` of the row-major walk: block row `n / 16`, block column `n % 16`. -/
def blockSum (g : Fin 16384 → Fin 16384 → EReal) (n : ℕ) : EReal :=
  ∑ r ∈ range 1024, ∑ s ∈ range 1024, ext2 g (n / 16 * 1024 + r) (n % 16 * 1024 + s)

theorem blockSum_eq (g : Fin 16384 → Fin 16384 → EReal) (n : ℕ) (hn : n < 256) :
    (∑ r : Fin 1024, ∑ s : Fin 1024, g ⟨n / 16 * 1024 + r.val, by omega⟩ ⟨n % 16 * 1024 + s.val, by omega⟩)
      = blockSum g n := by
  unfold blockSum
  rw [Finset.sum_range]
  refine sum_congr rfl fun r _ => ?_
  rw [Finset.sum_range]
  refine sum_congr rfl fun s _ => ?_
  exact (ext2_of_lt g _ _).symm

/-- The sum of all entries is the sum of the 256 blocks' sums. -/
theorem whole_eq (g : Fin 16384 → Fin 16384 → EReal) :
    ∑ i : Fin 16384, ∑ j : Fin 16384, g i j = ∑ n ∈ range 256, blockSum g n := by
  have e1 : ∑ i : Fin 16384, ∑ j : Fin 16384, g i j = ∑ i ∈ range (16 * 1024), ∑ j ∈ range (16 * 1024), ext2 g i j := by
    rw [Finset.sum_range]
    refine sum_congr rfl fun i _ => ?_
    rw [Finset.sum_range]
    refine sum_congr rfl fun j _ => ?_
    exact (ext2_of_lt g i.isLt j.isLt).symm
  have inner : ∀ i, ∑ j ∈ range (16 * 1024), ext2 g i j = ∑ bj ∈ range 16, ∑ s ∈ range 1024, ext2 g i (bj * 1024 + s) :=
    fun i => Cert.LibSumBlocks.sum_range_mul 1024 (fun j => ext2 g i j) 16
  rw [e1, Cert.LibSumBlocks.sum_range_mul 1024 (fun i => ∑ j ∈ range (16 * 1024), ext2 g i j) 16]
  simp only [inner]
  rw [show (256 : ℕ) = 16 * 16 from rfl, Cert.LibSumBlocks.sum_range_mul 16 (blockSum g) 16]
  refine sum_congr rfl fun bi _ => ?_
  rw [Finset.sum_comm]
  refine sum_congr rfl fun bj hbj => ?_
  have hb : bj < 16 := mem_range.mp hbj
  unfold blockSum
  rw [show (bi * 16 + bj) / 16 = bi by omega, show (bi * 16 + bj) % 16 = bj by omega]

/-! ## The running value -/

/-- A value started at zero plus the first term and increased by one term per step is the partial sum. -/
theorem acc_eq (B a : ℕ → EReal) (h0 : a 0 = 0 + B 0) (hs : ∀ n, n < 255 → a (n + 1) = a n + B (n + 1)) :
    ∀ n, n ≤ 255 → a n = ∑ k ∈ range (n + 1), B k
  | 0, _ => by rw [h0, zero_add, sum_range_one]
  | n + 1, h => by rw [hs n (by omega), acc_eq B a h0 hs n (by omega), sum_range_succ _ (n + 1)]

/-- THE WALK: started at zero plus block 0's sum and increased by block `n + 1`'s sum at step `n + 1`, the
    running value after the last block is the sum of all entries of the matrix. -/
theorem total_eq (g : Fin 16384 → Fin 16384 → EReal) (a : ℕ → EReal)
    (h0 : a 0 = 0 + ∑ r : Fin 1024, ∑ s : Fin 1024, g ⟨r.val, by omega⟩ ⟨s.val, by omega⟩)
    (hs : ∀ n (hn : n < 255), a (n + 1) = a n + ∑ r : Fin 1024, ∑ s : Fin 1024,
      g ⟨(n + 1) / 16 * 1024 + r.val, by omega⟩ ⟨(n + 1) % 16 * 1024 + s.val, by omega⟩) :
    a 255 = ∑ i : Fin 16384, ∑ j : Fin 16384, g i j := by
  have e : ∀ (i i' j j' : Fin 16384), i.val = i'.val → j.val = j'.val → g i j = g i' j' := by
    intro i i' j j' hi hj
    rw [Fin.ext hi, Fin.ext hj]
  have h0' : a 0 = 0 + blockSum g 0 := by
    rw [h0, ← blockSum_eq g 0 (by norm_num)]
    refine congrArg (0 + ·) (sum_congr rfl fun r _ => sum_congr rfl fun s _ => ?_)
    exact e _ _ _ _ (by simp) (by simp)
  have hs' : ∀ n, n < 255 → a (n + 1) = a n + blockSum g (n + 1) := fun n hn => by
    rw [hs n hn, blockSum_eq g (n + 1) (by omega)]
  rw [whole_eq, acc_eq (blockSum g) a h0' hs' 255 le_rfl]

/-- The kernel's result against the reference's: the walk's total scaled by 2⁻²⁸ is the whole sum, started
    from zero, divided by 2²⁸. -/
theorem result_eq (g : Fin 16384 → Fin 16384 → EReal) (a : ℕ → EReal)
    (h0 : a 0 = 0 + ∑ r : Fin 1024, ∑ s : Fin 1024, g ⟨r.val, by omega⟩ ⟨s.val, by omega⟩)
    (hs : ∀ n (hn : n < 255), a (n + 1) = a n + ∑ r : Fin 1024, ∑ s : Fin 1024,
      g ⟨(n + 1) / 16 * 1024 + r.val, by omega⟩ ⟨(n + 1) % 16 * 1024 + s.val, by omega⟩) :
    a 255 * Ideal.ofBits .f32 0x31800000#32
      = Ideal.div (0 + ∑ i : Fin 16384, ∑ j : Fin 16384, g i j) (Ideal.ofBits .f32 0x4D800000#32) := by
  rw [scale_eq, total_eq g a h0 hs, zero_add]

/-- The same with the reference's initial word `+0.0` in place of the literal zero. -/
theorem result_eq' (g : Fin 16384 → Fin 16384 → EReal) (a : ℕ → EReal)
    (h0 : a 0 = 0 + ∑ r : Fin 1024, ∑ s : Fin 1024, g ⟨r.val, by omega⟩ ⟨s.val, by omega⟩)
    (hs : ∀ n (hn : n < 255), a (n + 1) = a n + ∑ r : Fin 1024, ∑ s : Fin 1024,
      g ⟨(n + 1) / 16 * 1024 + r.val, by omega⟩ ⟨(n + 1) % 16 * 1024 + s.val, by omega⟩) :
    a 255 * Ideal.ofBits .f32 0x31800000#32
      = Ideal.div (Ideal.ofBits .f32 0x00000000#32 + ∑ i : Fin 16384, ∑ j : Fin 16384, g i j)
          (Ideal.ofBits .f32 0x4D800000#32) := by
  rw [Ideal.ofBits_zero_f32]; exact result_eq g a h0 hs

end Cert.KernelIdeal.Hand

end
-- ==== Proof.KI.Accum.lean ====
/-
  The accumulator after the last point, in one closed form over the extended reals.

  The normalised features are a 16384 × 64 array fn and the labels a vector lb of 16384 words. The masked product
  matrix has, at (i, j), the inner product of rows i and j of fn when the labels of i and j differ, and zero when they
  agree. Point t of the region's 16 × 16 grid adds to the accumulator the sum of block (t / 16, t % 16) of that matrix
  (1024 × 1024 entries): its four input blocks are rows 1024·(t / 16) … of the features, rows 1024·(t % 16) … of the
  same array, and the matching stretches of the label column and the label row. So after position n the accumulator
  is the sum of the first n + 1 blocks' sums, after the last block but for the final scale the sum of all entries of
  the matrix, and the scale by 2⁻²⁸ is the division by 2²⁸.
-/
import proofs.«164804_j46385646796817_1_alg».proof.Proof.KI.Body
import proofs.«164804_j46385646796817_1_alg».proof.Proof.KI.Payload
import proofs.«164804_j46385646796817_1_alg».proof.Proof.KI.Blocks
import proofs.«164804_j46385646796817_1_alg».proof.Proof.KI.Bridge

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The masked product matrix -/

/-- Entry (i, j): the inner product of rows i and j of the features, counted when their labels differ. -/
def gmat (fn : FVec Ideal S16384x64 .f32) (lb : IVec S16384 32) (i j : Fin 16384) : EReal :=
  (if lb (ix1 i) ≠ lb (ix1 j) then (1 : EReal) else 0) * ∑ k : Fin 64, fn (ix2 i k) * fn (ix2 j k)

/-- The accumulator's update on four blocks that are block row bi of the features, block row bj of the features, and
    the matching stretches of the labels: the running value plus the sum of block (bi, bj) of the matrix. -/
theorem pay2_block (fn : FVec Ideal S16384x64 .f32) (lb : IVec S16384 32) (bi bj : ℕ) (hbi : bi < 16) (hbj : bj < 16)
    (x0 x1 : FVec Ideal S1024x64 .bf16) (x2 : IVec S1024x1 32) (x3 : IVec S1x1024 32)
    (h0 : ∀ (r : Fin 1024) (k : Fin 64), x0 (ix2 r k) = fn (ix2 (⟨bi * 1024 + r.val, by omega⟩ : Fin 16384) k))
    (h1 : ∀ (s : Fin 1024) (k : Fin 64), x1 (ix2 s k) = fn (ix2 (⟨bj * 1024 + s.val, by omega⟩ : Fin 16384) k))
    (h2 : ∀ r : Fin 1024, x2 (ix2 r 0) = lb (ix1 (⟨bi * 1024 + r.val, by omega⟩ : Fin 16384)))
    (h3 : ∀ s : Fin 1024, x3 (ix2 0 s) = lb (ix1 (⟨bj * 1024 + s.val, by omega⟩ : Fin 16384)))
    (xo : FVec Ideal S1x1 .f32) (j : S1x1.Idx) :
    k0_pay2 (F := Ideal) x0 x1 x2 x3 xo j
      = xo j + ∑ r : Fin 1024, ∑ s : Fin 1024,
          gmat fn lb ⟨bi * 1024 + r.val, by omega⟩ ⟨bj * 1024 + s.val, by omega⟩ := by
  rw [pay2_apply]
  refine congrArg (xo j + ·) (Finset.sum_congr rfl fun r _ => Finset.sum_congr rfl fun s _ => ?_)
  unfold gmat
  rw [h2 r, h3 s]
  refine congrArg _ (Finset.sum_congr rfl fun k _ => ?_)
  rw [h0 r k, h1 s k]

variable (m : (ℓ : Loc nD τ sig) → Buf (Elt Ideal) ℓ) (c : Dev nD)
variable (fn : FVec Ideal S16384x64 .f32) (lb : IVec S16384 32)
variable (h44 : ∀ (i : Fin 16384) (k : Fin 64), (V m c main_v44 : S16384x64.Idx → Elt Ideal .bf16) (ix2 i k) = fn (ix2 i k))
variable (h45 : ∀ i : Fin 16384, (V m c main_v45 : S16384x1.Idx → Elt Ideal .i32) (ix2 i 0) = lb (ix1 i))
variable (h46 : ∀ j : Fin 16384, (V m c main_v46 : S1x16384.Idx → Elt Ideal .i32) (ix2 0 j) = lb (ix1 j))
include h44 h45 h46

/-- The update at point t of the grid: the running value plus the sum of block t of the row-major walk. -/
theorem pay2_point (t : Fin cfg0.N) (ht : t.val < 256) (xo : FVec Ideal S1x1 .f32) (j : S1x1.Idx) :
    k0_pay2 (F := Ideal) (iblk m c 0 t) (iblk m c 1 t) (iblk m c 2 t) (iblk m c 3 t) xo j
      = xo j + blockSum (gmat fn lb) t.val := by
  rw [← blockSum_eq (gmat fn lb) t.val ht]
  exact pay2_block fn lb (t.val / 16) (t.val % 16) (by omega) (by omega)
    (iblk m c 0 t) (iblk m c 1 t) (iblk m c 2 t) (iblk m c 3 t)
    (fun r k => (iblk0_apply m c t (ix2 r k) (ix2 (⟨t.val / 16 * 1024 + r.val, by omega⟩ : Fin 16384) k) rfl rfl).trans (h44 _ k))
    (fun s k => (iblk1_apply m c t (ix2 s k) (ix2 (⟨t.val % 16 * 1024 + s.val, by omega⟩ : Fin 16384) k) rfl rfl).trans (h44 _ k))
    (fun r => (iblk2_apply m c t (ix2 r 0) (ix2 (⟨t.val / 16 * 1024 + r.val, by omega⟩ : Fin 16384) 0) rfl rfl).trans (h45 _))
    (fun s => (iblk3_apply m c t (ix2 0 s) (ix2 0 (⟨t.val % 16 * 1024 + s.val, by omega⟩ : Fin 16384)) rfl rfl).trans (h46 _))
    xo j

/-- Before the last point the accumulator after position n is the sum of the first n + 1 blocks' sums. -/
theorem outs_partial (j : S1x1.Idx) : ∀ (n : ℕ) (hn : n < 255) (h : n < cfg0.N),
    outsAt0 (F := Ideal) m c n h j = ∑ k ∈ Finset.range (n + 1), blockSum (gmat fn lb) k
  | 0, _, h => by
    refine (congrFun (outsAt0_A m c ⟨0, h⟩ rfl) j).trans ?_
    rw [pay2_point m c fn lb h44 h45 h46 ⟨0, h⟩ (by show 0 < 256; omega) _ j, pay1_apply_zero, zero_add]
    exact (Finset.sum_range_one _).symm
  | n + 1, hn, h => by
    refine (congrFun (outsAt0_B m c ⟨n + 1, h⟩ (Nat.succ_ne_zero n) (by show n + 1 ≠ 255; omega)) j).trans ?_
    rw [pay2_point m c fn lb h44 h45 h46 ⟨n + 1, h⟩ (by show n + 1 < 256; omega) _ j, Finset.sum_range_succ _ (n + 1)]
    exact congrArg (· + blockSum (gmat fn lb) (n + 1)) (outs_partial j n (by omega) _)

/-- THE RESULT of the region: the accumulator after the last point is the sum of all entries of the masked product
    matrix, started from zero, divided by 2²⁸. -/
theorem acc_last (h : 255 < cfg0.N) (j : S1x1.Idx) :
    outsAt0 (F := Ideal) m c 255 h j
      = Ideal.div (Ideal.ofBits .f32 0x00000000#32 + ∑ i : Fin 16384, ∑ j' : Fin 16384,
          (if lb (ix1 i) ≠ lb (ix1 j') then (1 : EReal) else 0) * ∑ k : Fin 64, fn (ix2 i k) * fn (ix2 j' k))
        (Ideal.ofBits .f32 0x4D800000#32) := by
  show _ = Ideal.div (Ideal.ofBits .f32 0x00000000#32 + ∑ i : Fin 16384, ∑ j' : Fin 16384, gmat fn lb i j') _
  refine (congrFun (outsAt0_C m c ⟨255, h⟩ rfl) j).trans ?_
  have e : outsAt0 (F := Ideal) m c ((⟨255, h⟩ : Fin cfg0.N).val - 1) (Nat.lt_of_le_of_lt (Nat.sub_le _ _) (⟨255, h⟩ : Fin cfg0.N).isLt) j
      = ∑ k ∈ Finset.range (254 + 1), blockSum (gmat fn lb) k :=
    outs_partial m c fn lb h44 h45 h46 j 254 (by omega) _
  rw [pay3_apply, pay2_point m c fn lb h44 h45 h46 ⟨255, h⟩ (by show 255 < 256; omega) _ j, e]
  show (∑ k ∈ Finset.range (254 + 1), blockSum (gmat fn lb) k + blockSum (gmat fn lb) (254 + 1)) * _ = _
  rw [← Finset.sum_range_succ _ (254 + 1), scale_eq, Ideal.ofBits_zero_f32, zero_add, whole_eq]

end Cert.KernelIdeal.Hand

end
-- ==== Proof.Ref.Ops.lean ====
import proofs.«164804_j46385646796817_1_alg».proof.Defs
import proofs.«164804_j46385646796817_1_alg».proof.Proof.Gen.ReferenceIdeal
import proofs.«164804_j46385646796817_1_alg».proof.Proof.Gen.Pre_finite_inputs
import Idealize.ShloMosaic.Lib.StableHlo.Run

/-! The reference program read as one function of its two arguments.

The program is a straight line of tensor operations (its three helper functions are run in place at
their calls). Its result is written here as a composition of four stages,

  result = tailR (normF (preF x)) (preL l),

where `x` is the float argument and `l` the integer one:

* `preF` takes every second row and every second column of each 128 × 128 plane (two gathers along the two
  plane axes with the index vector `k ↦ ⌊128 k / 64⌋`, wrapped when negative), moves the channel axis last and
  flattens to a 16384 × 64 matrix of feature rows;
* `preL` subsamples the labels the same way and flattens them to a vector of 16384 labels;
* `normF` divides each feature row by the larger of its Euclidean norm and a small positive constant;
* `tailR` forms the Gram matrix of the normalised rows, keeps the entries whose two labels differ, sums them
  all and divides by the constant `16384²`.

This module states the four stages and the index vectors they read, lists the program's operations in order
(`ops0`, `ops1`: the two windows it is printed in) and shows the program is that list; the module importing it
reads the run back: every execution ends with the result buffer at this composition of the arguments' initial
contents, the arguments unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The index vectors -/

/-- `k ↦ 128 · k` for `k < 64`. -/
def idxTimes : IVec S64 32 :=
  muli (iotaInDim S64 32 0) (broadcastInDim S64 ![] bcast_S_S64 (constantI S_ 32 128#32))

/-- Floor division of a vector by a scalar as the program's helper computes it: the truncated quotient,
    lowered by one where dividend and divisor differ in sign and the remainder is not zero. -/
def floorDiv (a : IVec S64 32) (d : IVec S_ 32) : IVec S64 32 :=
  select
    (andi (cmpi .ne (signi a) (broadcastInDim S64 ![] bcast_S_S64 (signi (id d))))
      (cmpi .ne (Host.remsi a (broadcastInDim S64 ![] bcast_S_S64 (id d)))
        (broadcastInDim S64 ![] bcast_S_S64 (constantI S_ 32 0#32))))
    (subi (Host.divsi a (broadcastInDim S64 ![] bcast_S_S64 (id d)))
      (broadcastInDim S64 ![] bcast_S_S64 (constantI S_ 32 1#32)))
    (Host.divsi a (broadcastInDim S64 ![] bcast_S_S64 (id d)))

/-- `k ↦ ⌊128 · k / 64⌋` (that is `2 k`): the coordinate the `k`-th kept row, or column, is read at. -/
def idxBase : IVec S64 32 := floorDiv idxTimes (constantI S_ 32 64#32)

/-- A negative coordinate counts from the end of an axis of length 128. -/
def idxWrap (v : IVec S64 32) : IVec S64 32 :=
  select (cmpi .slt v (broadcastInDim S64 ![] bcast_S_S64 (constantI S_ 32 0#32)))
    (addi v (broadcastInDim S64 ![] bcast_S_S64 (constantI S_ 32 128#32))) v

/-- The row coordinates, as the column of start indices the first gather of each argument takes. -/
def idxRows : IVec S64x1 32 := broadcastInDim S64x1 ![0] bcast_S64_S64x1_0 (idxWrap idxBase)

/-- The column coordinates, for the second gather: the same vector, computed a second time by the program. -/
def idxCols : IVec S64x1 32 := broadcastInDim S64x1 ![0] bcast_S64_S64x1_0 (idxWrap idxBase)

theorem idxCols_eq : idxCols = idxRows := rfl

variable {F : FTy → Type} [FloatOps F]

/-! ## The four stages -/

/-- The feature rows: rows then columns of each plane subsampled, channels moved last, flattened. -/
def preF (x : FVec F S4x64x128x128 .f32) : FVec F S16384x64 .f32 :=
  shapeCast S16384x64
    (transpose S4x64x64x64 [0, 2, 3, 1]
      (Host.gather gather_S4x64x64x128_S64x1_S4x64x64x64_012_3_n_n_3_1_464641
        (Host.gather gather_S4x64x128x128_S64x1_S4x64x64x128_013_2_n_n_2_1_4641128 x idxRows) idxCols)
      transposes_S4x64x64x64_S4x64x64x64_0_2_3_1)
    shapeCasts_S4x64x64x64_S16384x64

/-- The labels: subsampled the same way and flattened. -/
def preL (l : IVec S4x1x128x128 32) : IVec S16384 32 :=
  shapeCast S16384
    (Host.gather gather_S4x1x64x128_S64x1_S4x1x64x64_012_3_n_n_3_1_41641
      (Host.gather gather_S4x1x128x128_S64x1_S4x1x64x128_013_2_n_n_2_1_411128 l idxRows) idxCols)
    shapeCasts_S4x1x64x64_S16384

/-- Each row divided by the larger of its Euclidean norm and the constant `0x2B8CBCCC` (about `1e-12`). -/
def normF (f : FVec F S16384x64 .f32) : FVec F S16384x64 .f32 :=
  Host.divf f
    (broadcastInDim S16384x64 ![0, 1] bcast_S16384x1_S16384x64_0_1
      (maximumf
        (Host.sqrt (broadcastInDim S16384x1 ![0] bcast_S16384_S16384x1_0
          (Host.reduceAdd (mulf f f) (constant S_ .f32 0x00000000#32) reducesTo_S16384x64_S16384_d1 h_S_)))
        (broadcastInDim S16384x1 ![] bcast_S_S16384x1 (constant S_ .f32 0x2B8CBCCC#32))))

/-- The sum, over the pairs of rows whose labels differ, of the rows' inner products, divided by `16384²`
    (the constant `0x4D800000`). -/
def tailR (fn : FVec F S16384x64 .f32) (lb : IVec S16384 32) : FVec F S_ .f32 :=
  Host.divf
    (Host.reduceAdd
      (mulf
        (uitofp .f32
          (cmpf .une
            (broadcastInDim S16384x16384 ![0, 1] bcast_S16384x1_S16384x16384_0_1
              (broadcastInDim S16384x1 ![0] bcast_S16384_S16384x1_0 (sitofp .f32 lb : FVec F S16384 .f32)))
            (broadcastInDim S16384x16384 ![0, 1] bcast_S1x16384_S16384x16384_0_1
              (broadcastInDim S1x16384 ![1] bcast_S16384_S1x16384_1 (sitofp .f32 lb : FVec F S16384 .f32)))))
        (Host.dotGeneral dot_S16384x64_S64x16384_S16384x16384_1_0_0_1_n_n none fn
          (transpose S64x16384 [1, 0] fn transposes_S16384x64_S64x16384_1_0)))
      (constant S_ .f32 0x00000000#32) reducesTo_S16384x16384_S_d0_1 h_S_)
    (constant S_ .f32 0x4D800000#32)

/-! ## The program as a list of operations -/

/-- The first 60 statements of the program (its first window), the helper functions' operations in place at
    their calls: 96 operations. -/
abbrev ops0 : List (HloOp τ sig (Elt F)) :=
  [ StableHlo.nullary main_v0 (iotaInDim S64 32 0),
    StableHlo.nullary main_c (constantI S_ 32 128#32),
    StableHlo.unary main_c main_v1 (broadcastInDim S64 ![] bcast_S_S64 : (⟨S_, .i32⟩ : BufTy).Contents (Elt F) → (⟨S64, .i32⟩ : BufTy).Contents (Elt F)),
    StableHlo.binary main_v0 main_v1 main_v2 (muli : (⟨S64, .i32⟩ : BufTy).Contents (Elt F) → (⟨S64, .i32⟩ : BufTy).Contents (Elt F) → (⟨S64, .i32⟩ : BufTy).Contents (Elt F)),
    StableHlo.nullary main_c_0 (constantI S_ 32 64#32),
    StableHlo.TRef.unary (.of main_c_0 : StableHlo.TRef sig ⟨S_, .i32⟩) main_call0.v0 id,
    StableHlo.TRef.unary main_call0.v0 main_call0.v1 (broadcastInDim S64 ![] bcast_S_S64),
    StableHlo.TRef.binary (.of main_v2 : StableHlo.TRef sig ⟨S64, .i32⟩) main_call0.v1 main_call0.v2 Host.divsi,
    StableHlo.TRef.unary (.of main_v2 : StableHlo.TRef sig ⟨S64, .i32⟩) main_call0.v3 signi,
    StableHlo.TRef.unary main_call0.v0 main_call0.v4 signi,
    StableHlo.TRef.unary main_call0.v4 main_call0.v5 (broadcastInDim S64 ![] bcast_S_S64),
    StableHlo.TRef.binary main_call0.v3 main_call0.v5 main_call0.v6 (cmpi .ne),
    StableHlo.TRef.unary main_call0.v0 main_call0.v7 (broadcastInDim S64 ![] bcast_S_S64),
    StableHlo.TRef.binary (.of main_v2 : StableHlo.TRef sig ⟨S64, .i32⟩) main_call0.v7 main_call0.v8 Host.remsi,
    StableHlo.TRef.nullary main_call0.c (constantI S_ 32 0#32),
    StableHlo.TRef.unary main_call0.c main_call0.v9 (broadcastInDim S64 ![] bcast_S_S64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S64 ![] bcast_S_S64),
    StableHlo.TRef.binary main_call0.v2 main_call0.v12 main_call0.v13 subi,
    StableHlo.TRef.ternary main_call0.v11 main_call0.v13 main_call0.v2 main_call0.call0.v0 select,
    StableHlo.nullary main_v4 (iotaInDim S64 32 0),
    StableHlo.nullary main_c_1 (constantI S_ 32 128#32),
    StableHlo.unary main_c_1 main_v5 (broadcastInDim S64 ![] bcast_S_S64 : (⟨S_, .i32⟩ : BufTy).Contents (Elt F) → (⟨S64, .i32⟩ : BufTy).Contents (Elt F)),
    StableHlo.binary main_v4 main_v5 main_v6 (muli : (⟨S64, .i32⟩ : BufTy).Contents (Elt F) → (⟨S64, .i32⟩ : BufTy).Contents (Elt F) → (⟨S64, .i32⟩ : BufTy).Contents (Elt F)),
    StableHlo.nullary main_c_2 (constantI S_ 32 64#32),
    StableHlo.TRef.unary (.of main_c_2 : StableHlo.TRef sig ⟨S_, .i32⟩) main_call1.v0 id,
    StableHlo.TRef.unary main_call1.v0 main_call1.v1 (broadcastInDim S64 ![] bcast_S_S64),
    StableHlo.TRef.binary (.of main_v6 : StableHlo.TRef sig ⟨S64, .i32⟩) main_call1.v1 main_call1.v2 Host.divsi,
    StableHlo.TRef.unary (.of main_v6 : StableHlo.TRef sig ⟨S64, .i32⟩) main_call1.v3 signi,
    StableHlo.TRef.unary main_call1.v0 main_call1.v4 signi,
    StableHlo.TRef.unary main_call1.v4 main_call1.v5 (broadcastInDim S64 ![] bcast_S_S64),
    StableHlo.TRef.binary main_call1.v3 main_call1.v5 main_call1.v6 (cmpi .ne),
    StableHlo.TRef.unary main_call1.v0 main_call1.v7 (broadcastInDim S64 ![] bcast_S_S64),
    StableHlo.TRef.binary (.of main_v6 : StableHlo.TRef sig ⟨S64, .i32⟩) main_call1.v7 main_call1.v8 Host.remsi,
    StableHlo.TRef.nullary main_call1.c (constantI S_ 32 0#32),
    StableHlo.TRef.unary main_call1.c main_call1.v9 (broadcastInDim S64 ![] bcast_S_S64),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S64 ![] bcast_S_S64),
    StableHlo.TRef.binary main_call1.v2 main_call1.v12 main_call1.v13 subi,
    StableHlo.TRef.ternary main_call1.v11 main_call1.v13 main_call1.v2 main_call1.call0.v0 select,
    StableHlo.nullary main_c_3 (constantI S_ 32 0#32),
    StableHlo.unary main_c_3 main_v8 (broadcastInDim S64 ![] bcast_S_S64 : (⟨S_, .i32⟩ : BufTy).Contents (Elt F) → (⟨S64, .i32⟩ : BufTy).Contents (Elt F)),
    StableHlo.binary main_v3 main_v8 main_v9 (cmpi .slt : (⟨S64, .i32⟩ : BufTy).Contents (Elt F) → (⟨S64, .i32⟩ : BufTy).Contents (Elt F) → (⟨S64, .i1⟩ : BufTy).Contents (Elt F)),
    StableHlo.nullary main_c_4 (constantI S_ 32 128#32),
    StableHlo.unary main_c_4 main_v10 (broadcastInDim S64 ![] bcast_S_S64 : (⟨S_, .i32⟩ : BufTy).Contents (Elt F) → (⟨S64, .i32⟩ : BufTy).Contents (Elt F)),
    StableHlo.binary main_v3 main_v10 main_v11 (addi : (⟨S64, .i32⟩ : BufTy).Contents (Elt F) → (⟨S64, .i32⟩ : BufTy).Contents (Elt F) → (⟨S64, .i32⟩ : BufTy).Contents (Elt F)),
    StableHlo.ternary main_v9 main_v11 main_v3 main_v12 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v12 main_v13 (broadcastInDim S64x1 ![0] bcast_S64_S64x1_0 : (⟨S64, .i32⟩ : BufTy).Contents (Elt F) → (⟨S64x1, .i32⟩ : BufTy).Contents (Elt F)),
    StableHlo.binary main_arg0 main_v13 main_v14 ((fun x i => Host.gather gather_S4x64x128x128_S64x1_S4x64x64x128_013_2_n_n_2_1_4641128 x i) : (⟨S4x64x128x128, .f32⟩ : BufTy).Contents (Elt F) → (⟨S64x1, .i32⟩ : BufTy).Contents (Elt F) → (⟨S4x64x64x128, .f32⟩ : BufTy).Contents (Elt F)),
    StableHlo.nullary main_c_5 (constantI S_ 32 0#32),
    StableHlo.unary main_c_5 main_v15 (broadcastInDim S64 ![] bcast_S_S64 : (⟨S_, .i32⟩ : BufTy).Contents (Elt F) → (⟨S64, .i32⟩ : BufTy).Contents (Elt F)),
    StableHlo.binary main_v7 main_v15 main_v16 (cmpi .slt : (⟨S64, .i32⟩ : BufTy).Contents (Elt F) → (⟨S64, .i32⟩ : BufTy).Contents (Elt F) → (⟨S64, .i1⟩ : BufTy).Contents (Elt F)),
    StableHlo.nullary main_c_6 (constantI S_ 32 128#32),
    StableHlo.unary main_c_6 main_v17 (broadcastInDim S64 ![] bcast_S_S64 : (⟨S_, .i32⟩ : BufTy).Contents (Elt F) → (⟨S64, .i32⟩ : BufTy).Contents (Elt F)),
    StableHlo.binary main_v7 main_v17 main_v18 (addi : (⟨S64, .i32⟩ : BufTy).Contents (Elt F) → (⟨S64, .i32⟩ : BufTy).Contents (Elt F) → (⟨S64, .i32⟩ : BufTy).Contents (Elt F)),
    StableHlo.ternary main_v16 main_v18 main_v7 main_v19 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v19 main_v20 (broadcastInDim S64x1 ![0] bcast_S64_S64x1_0 : (⟨S64, .i32⟩ : BufTy).Contents (Elt F) → (⟨S64x1, .i32⟩ : BufTy).Contents (Elt F)),
    StableHlo.binary main_v14 main_v20 main_v21 ((fun x i => Host.gather gather_S4x64x64x128_S64x1_S4x64x64x64_012_3_n_n_3_1_464641 x i) : (⟨S4x64x64x128, .f32⟩ : BufTy).Contents (Elt F) → (⟨S64x1, .i32⟩ : BufTy).Contents (Elt F) → (⟨S4x64x64x64, .f32⟩ : BufTy).Contents (Elt F)),
    StableHlo.nullary main_c_7 (constantI S_ 32 0#32),
    StableHlo.unary main_c_7 main_v22 (broadcastInDim S64 ![] bcast_S_S64 : (⟨S_, .i32⟩ : BufTy).Contents (Elt F) → (⟨S64, .i32⟩ : BufTy).Contents (Elt F)),
    StableHlo.binary main_v3 main_v22 main_v23 (cmpi .slt : (⟨S64, .i32⟩ : BufTy).Contents (Elt F) → (⟨S64, .i32⟩ : BufTy).Contents (Elt F) → (⟨S64, .i1⟩ : BufTy).Contents (Elt F)),
    StableHlo.nullary main_c_8 (constantI S_ 32 128#32),
    StableHlo.unary main_c_8 main_v24 (broadcastInDim S64 ![] bcast_S_S64 : (⟨S_, .i32⟩ : BufTy).Contents (Elt F) → (⟨S64, .i32⟩ : BufTy).Contents (Elt F)),
    StableHlo.binary main_v3 main_v24 main_v25 (addi : (⟨S64, .i32⟩ : BufTy).Contents (Elt F) → (⟨S64, .i32⟩ : BufTy).Contents (Elt F) → (⟨S64, .i32⟩ : BufTy).Contents (Elt F)),
    StableHlo.ternary main_v23 main_v25 main_v3 main_v26 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v26 main_v27 (broadcastInDim S64x1 ![0] bcast_S64_S64x1_0 : (⟨S64, .i32⟩ : BufTy).Contents (Elt F) → (⟨S64x1, .i32⟩ : BufTy).Contents (Elt F)),
    StableHlo.binary main_arg1 main_v27 main_v28 ((fun x i => Host.gather gather_S4x1x128x128_S64x1_S4x1x64x128_013_2_n_n_2_1_411128 x i) : (⟨S4x1x128x128, .i32⟩ : BufTy).Contents (Elt F) → (⟨S64x1, .i32⟩ : BufTy).Contents (Elt F) → (⟨S4x1x64x128, .i32⟩ : BufTy).Contents (Elt F)),
    StableHlo.nullary main_c_9 (constantI S_ 32 0#32),
    StableHlo.unary main_c_9 main_v29 (broadcastInDim S64 ![] bcast_S_S64 : (⟨S_, .i32⟩ : BufTy).Contents (Elt F) → (⟨S64, .i32⟩ : BufTy).Contents (Elt F)),
    StableHlo.binary main_v7 main_v29 main_v30 (cmpi .slt : (⟨S64, .i32⟩ : BufTy).Contents (Elt F) → (⟨S64, .i32⟩ : BufTy).Contents (Elt F) → (⟨S64, .i1⟩ : BufTy).Contents (Elt F)),
    StableHlo.nullary main_c_10 (constantI S_ 32 128#32),
    StableHlo.unary main_c_10 main_v31 (broadcastInDim S64 ![] bcast_S_S64 : (⟨S_, .i32⟩ : BufTy).Contents (Elt F) → (⟨S64, .i32⟩ : BufTy).Contents (Elt F)),
    StableHlo.binary main_v7 main_v31 main_v32 (addi : (⟨S64, .i32⟩ : BufTy).Contents (Elt F) → (⟨S64, .i32⟩ : BufTy).Contents (Elt F) → (⟨S64, .i32⟩ : BufTy).Contents (Elt F)),
    StableHlo.ternary main_v30 main_v32 main_v7 main_v33 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v33 main_v34 (broadcastInDim S64x1 ![0] bcast_S64_S64x1_0 : (⟨S64, .i32⟩ : BufTy).Contents (Elt F) → (⟨S64x1, .i32⟩ : BufTy).Contents (Elt F)),
    StableHlo.binary main_v28 main_v34 main_v35 ((fun x i => Host.gather gather_S4x1x64x128_S64x1_S4x1x64x64_012_3_n_n_3_1_41641 x i) : (⟨S4x1x64x128, .i32⟩ : BufTy).Contents (Elt F) → (⟨S64x1, .i32⟩ : BufTy).Contents (Elt F) → (⟨S4x1x64x64, .i32⟩ : BufTy).Contents (Elt F)),
    StableHlo.unary main_v21 main_v36 ((transpose S4x64x64x64 [0, 2, 3, 1] · transposes_S4x64x64x64_S4x64x64x64_0_2_3_1) : (⟨S4x64x64x64, .f32⟩ : BufTy).Contents (Elt F) → (⟨S4x64x64x64, .f32⟩ : BufTy).Contents (Elt F)),
    StableHlo.reshape main_v36 main_v37 rfl shapeCasts_S4x64x64x64_S16384x64,
    StableHlo.reshape main_v35 main_v38 rfl shapeCasts_S4x1x64x64_S16384,
    StableHlo.unary main_v38 main_v39 (sitofp .f32 : (⟨S16384, .i32⟩ : BufTy).Contents (Elt F) → (⟨S16384, .f32⟩ : BufTy).Contents (Elt F)),
    StableHlo.TRef.binary (.of main_v37 : StableHlo.TRef sig ⟨S16384x64, .f32⟩) (.of main_v37 : StableHlo.TRef sig ⟨S16384x64, .f32⟩) main_call2.v0 mulf,
    StableHlo.TRef.nullary main_call2.cst (constant S_ .f32 0x00000000#32),
    StableHlo.TRef.binary main_call2.v0 main_call2.cst main_call2.v1 (fun x v => Host.reduceAdd x v reducesTo_S16384x64_S16384_d1 h_S_),
    StableHlo.TRef.unary main_call2.v1 main_call2.v2 (broadcastInDim S16384x1 ![0] bcast_S16384_S16384x1_0),
    StableHlo.TRef.unary main_call2.v2 main_call2.v3 Host.sqrt,
    StableHlo.nullary main_cst (constant S_ .f32 0x2B8CBCCC#32),
    StableHlo.unary main_cst main_v41 (broadcastInDim S16384x1 ![] bcast_S_S16384x1 : (⟨S_, .f32⟩ : BufTy).Contents (Elt F) → (⟨S16384x1, .f32⟩ : BufTy).Contents (Elt F)),
    StableHlo.binary main_v40 main_v41 main_v42 (maximumf : (⟨S16384x1, .f32⟩ : BufTy).Contents (Elt F) → (⟨S16384x1, .f32⟩ : BufTy).Contents (Elt F) → (⟨S16384x1, .f32⟩ : BufTy).Contents (Elt F)),
    StableHlo.unary main_v42 main_v43 (broadcastInDim S16384x64 ![0, 1] bcast_S16384x1_S16384x64_0_1 : (⟨S16384x1, .f32⟩ : BufTy).Contents (Elt F) → (⟨S16384x64, .f32⟩ : BufTy).Contents (Elt F)),
    StableHlo.binary main_v37 main_v43 main_v44 (Host.divf : (⟨S16384x64, .f32⟩ : BufTy).Contents (Elt F) → (⟨S16384x64, .f32⟩ : BufTy).Contents (Elt F) → (⟨S16384x64, .f32⟩ : BufTy).Contents (Elt F)),
    StableHlo.unary main_v44 main_v45 ((transpose S64x16384 [1, 0] · transposes_S16384x64_S64x16384_1_0) : (⟨S16384x64, .f32⟩ : BufTy).Contents (Elt F) → (⟨S64x16384, .f32⟩ : BufTy).Contents (Elt F)),
    StableHlo.binary main_v44 main_v45 main_v46 ((fun l r => Host.dotGeneral dot_S16384x64_S64x16384_S16384x16384_1_0_0_1_n_n none l r) : (⟨S16384x64, .f32⟩ : BufTy).Contents (Elt F) → (⟨S64x16384, .f32⟩ : BufTy).Contents (Elt F) → (⟨S16384x16384, .f32⟩ : BufTy).Contents (Elt F)) ]

/-- The last 12 statements (the second window): 11 operations. -/
abbrev ops1 : List (HloOp τ sig (Elt F)) :=
  [ StableHlo.unary main_v39 main_v47 (broadcastInDim S16384x1 ![0] bcast_S16384_S16384x1_0 : (⟨S16384, .f32⟩ : BufTy).Contents (Elt F) → (⟨S16384x1, .f32⟩ : BufTy).Contents (Elt F)),
    StableHlo.unary main_v39 main_v48 (broadcastInDim S1x16384 ![1] bcast_S16384_S1x16384_1 : (⟨S16384, .f32⟩ : BufTy).Contents (Elt F) → (⟨S1x16384, .f32⟩ : BufTy).Contents (Elt F)),
    StableHlo.unary main_v47 main_v49 (broadcastInDim S16384x16384 ![0, 1] bcast_S16384x1_S16384x16384_0_1 : (⟨S16384x1, .f32⟩ : BufTy).Contents (Elt F) → (⟨S16384x16384, .f32⟩ : BufTy).Contents (Elt F)),
    StableHlo.unary main_v48 main_v50 (broadcastInDim S16384x16384 ![0, 1] bcast_S1x16384_S16384x16384_0_1 : (⟨S1x16384, .f32⟩ : BufTy).Contents (Elt F) → (⟨S16384x16384, .f32⟩ : BufTy).Contents (Elt F)),
    StableHlo.binary main_v49 main_v50 main_v51 (cmpf .une : (⟨S16384x16384, .f32⟩ : BufTy).Contents (Elt F) → (⟨S16384x16384, .f32⟩ : BufTy).Contents (Elt F) → (⟨S16384x16384, .i1⟩ : BufTy).Contents (Elt F)),
    StableHlo.unary main_v51 main_v52 (uitofp .f32 : (⟨S16384x16384, .i1⟩ : BufTy).Contents (Elt F) → (⟨S16384x16384, .f32⟩ : BufTy).Contents (Elt F)),
    StableHlo.binary main_v52 main_v46 main_v53 (mulf : (⟨S16384x16384, .f32⟩ : BufTy).Contents (Elt F) → (⟨S16384x16384, .f32⟩ : BufTy).Contents (Elt F) → (⟨S16384x16384, .f32⟩ : BufTy).Contents (Elt F)),
    StableHlo.nullary main_cst_11 (constant S_ .f32 0x00000000#32),
    StableHlo.binary main_v53 main_cst_11 main_v54 ((fun x v => Host.reduceAdd x v reducesTo_S16384x16384_S_d0_1 h_S_) : (⟨S16384x16384, .f32⟩ : BufTy).Contents (Elt F) → (⟨S_, .f32⟩ : BufTy).Contents (Elt F) → (⟨S_, .f32⟩ : BufTy).Contents (Elt F)),
    StableHlo.nullary main_cst_12 (constant S_ .f32 0x4D800000#32),
    StableHlo.binary main_v54 main_cst_12 main_v55 (Host.divf : (⟨S_, .f32⟩ : BufTy).Contents (Elt F) → (⟨S_, .f32⟩ : BufTy).Contents (Elt F) → (⟨S_, .f32⟩ : BufTy).Contents (Elt F)) ]

/-- The whole program. -/
abbrev ops : List (HloOp τ sig (Elt F)) := ops0 ++ ops1

-- ninety-six binds re-associated: the rewrite under the chain recurses once per statement
set_option maxRecDepth 4096 in
set_option maxHeartbeats 1600000 in
/-- The first window is that straight line: the helper functions unfolded at their calls. -/
theorem part0_eq (c : Dev nD) : main_part0 (F := F) c = seq ops0 := by
  simp only [main_part0, fn_floor_divide.body, fn_where.body, fn_norm.body, seq, bind_assoc, pure_bind]
  rfl

theorem part1_eq (c : Dev nD) : main_part1 (F := F) c = seq ops1 := rfl

theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., reshape_bufs_sub .., unary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., binary_bufs_sub ..⟩
theorem ops1_sub : (ops1 : List (HloOp τ sig (Elt F))).Forall fun op => op.bufs ⊆ tcRefs τ sig :=
  ⟨unary_bufs_sub .., unary_bufs_sub .., unary_bufs_sub .., unary_bufs_sub .., binary_bufs_sub .., unary_bufs_sub ..,
    binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Every operation determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl⟩
theorem ops_fresh : ∀ op ∈ (ops : List (HloOp τ sig (Elt F))), op.fresh = ∅ :=
  fun op h => (List.mem_append.mp h).elim
    (List.forall_iff_forall_mem.mp ops0_fresh op) (List.forall_iff_forall_mem.mp ops1_fresh op)

/-- The contents after two lines run one after the other. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

end Cert.ReferenceIdeal.Hand

end
-- ==== Proof.KI.SameChains.lean ====
import proofs.«164804_j46385646796817_1_alg».proof.Proof.KI.HostValue
import proofs.«164804_j46385646796817_1_alg».proof.Proof.Ref.Ops

/-! The kernel program's host chain and the reference's are one function.

Both programs subsample, flatten and normalise by the same operations over vocabularies of their own: the shapes
are the same shapes and the dimension records of the gathers hold the same lists, so the stages agree as
functions, by unfolding. -/

noncomputable section

namespace Cert.KernelIdeal.Hand

open Idealize.ShloMosaic

variable {F : FTy → Type} [FloatOps F]

/-- The index vectors are the same vectors. -/
theorem idxRows_ref : Cert.KernelIdeal.Hand.idxRows = Cert.ReferenceIdeal.Hand.idxRows := rfl
theorem idxCols_ref : Cert.KernelIdeal.Hand.idxCols = Cert.ReferenceIdeal.Hand.idxCols := rfl

/-- The feature rows are the same function of the float argument. -/
theorem preF_eq :
    (Cert.KernelIdeal.Hand.preF : FVec F Cert.KernelIdeal.S4x64x128x128 .f32 → FVec F Cert.KernelIdeal.S16384x64 .f32)
      = Cert.ReferenceIdeal.Hand.preF := rfl

/-- The labels are the same function of the integer argument. -/
theorem preL_eq :
    (Cert.KernelIdeal.Hand.preL : IVec Cert.KernelIdeal.S4x1x128x128 32 → IVec Cert.KernelIdeal.S16384 32)
      = Cert.ReferenceIdeal.Hand.preL := rfl

/-- The row normalisation is the same function. -/
theorem normF_eq :
    (Cert.KernelIdeal.Hand.normF : FVec F Cert.KernelIdeal.S16384x64 .f32 → FVec F Cert.KernelIdeal.S16384x64 .f32)
      = Cert.ReferenceIdeal.Hand.normF := rfl

end Cert.KernelIdeal.Hand

end
-- ==== Proof.Ref.Value.lean ====
import proofs.«164804_j46385646796817_1_alg».proof.Proof.Ref.Ops
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember
import Idealize.ShloMosaic.Lib.Pipeline.Value

/-! The last stage of the reference read at the extended reals.

At the ideal values every float is an extended real and every operation its exact one, so the last stage
is a plain double sum: over all pairs `(i, j)` of rows, the indicator that the two labels differ times the
inner product of the two (normalised) feature rows, added to the sum's initial value and divided by the
constant the program divides by. A label converted to a float is the integer itself, so two converted labels
differ exactly when the labels do; the indicator converted to a float is `1` or `0`. -/

noncomputable section

namespace Cert.ReferenceIdeal.Hand

open Cert.ReferenceIdeal Cert.ReferenceIdeal.Gen Idealize.ShloMosaic Idealize.ShloMosaic.ValueIdx Idealize.ShloMosaic.StackMember
open scoped BigOperators

/-- The labels as floats, copied along the rows: entry `(i, j)` is label `i`. -/
theorem rowLabels_apply (s : FVec Ideal S16384 .f32) (i j : Fin 16384) :
    broadcastInDim S16384x16384 ![0, 1] bcast_S16384x1_S16384x16384_0_1
        (broadcastInDim S16384x1 ![0] bcast_S16384_S16384x1_0 s) (ix2 i j) = s (ix1 i) := by
  rw [broadcastInDim_apply _ _ _ _ (ix2 i (0 : Fin 1)) (fun a => match a with | ⟨0, _⟩ => rfl | ⟨1, _⟩ => rfl),
    broadcastInDim_apply _ _ _ _ (ix1 i) (fun a => match a with | ⟨0, _⟩ => rfl)]

/-- The labels as floats, copied along the columns: entry `(i, j)` is label `j`. -/
theorem colLabels_apply (s : FVec Ideal S16384 .f32) (i j : Fin 16384) :
    broadcastInDim S16384x16384 ![0, 1] bcast_S1x16384_S16384x16384_0_1
        (broadcastInDim S1x16384 ![1] bcast_S16384_S1x16384_1 s) (ix2 i j) = s (ix1 j) := by
  rw [broadcastInDim_apply _ _ _ _ (ix2 (0 : Fin 1) j) (fun a => match a with | ⟨0, _⟩ => rfl | ⟨1, _⟩ => rfl),
    broadcastInDim_apply _ _ _ _ (ix1 j) (fun a => match a with | ⟨0, _⟩ => rfl)]

/-- Two words converted to extended reals (read signed) differ exactly when the words do. -/
theorem sitofp_ne_iff (a b : BitVec 32) :
    (((a.toInt : ℝ) : EReal) ≠ ((b.toInt : ℝ) : EReal)) ↔ a ≠ b := by
  rw [Ne, Ne, EReal.coe_eq_coe_iff, Int.cast_inj, BitVec.toInt_inj]

/-- The mask of pairs with different labels, as a float: `1` where the labels differ, `0` where they agree. -/
theorem mask_apply (lb : IVec S16384 32) (i j : Fin 16384) :
    (uitofp .f32
        (cmpf .une
          (broadcastInDim S16384x16384 ![0, 1] bcast_S16384x1_S16384x16384_0_1
            (broadcastInDim S16384x1 ![0] bcast_S16384_S16384x1_0 (sitofp .f32 lb : FVec Ideal S16384 .f32)))
          (broadcastInDim S16384x16384 ![0, 1] bcast_S1x16384_S16384x16384_0_1
            (broadcastInDim S1x16384 ![1] bcast_S16384_S1x16384_1 (sitofp .f32 lb : FVec Ideal S16384 .f32))))
        : FVec Ideal S16384x16384 .f32) (ix2 i j)
      = if lb (ix1 i) ≠ lb (ix1 j) then (1 : EReal) else 0 := by
  show (((Ideal.cmp .une _ _).toNat : ℝ) : EReal) = _
  rw [rowLabels_apply, colLabels_apply]
  show (((BitVec.ofBool (decide ((((lb (ix1 i)).toInt : ℝ) : EReal) ≠ (((lb (ix1 j)).toInt : ℝ) : EReal)))).toNat : ℝ) : EReal) = _
  by_cases h : lb (ix1 i) ≠ lb (ix1 j)
  · rw [if_pos h, decide_eq_true ((sitofp_ne_iff _ _).2 h)]; simp
  · rw [if_neg h, decide_eq_false (fun h' => h ((sitofp_ne_iff _ _).1 h'))]; simp

/-- The Gram matrix at `(i, j)`: the inner product of rows `i` and `j`. -/
theorem gram_apply (fn : FVec Ideal S16384x64 .f32) (i j : Fin 16384) :
    Host.dotGeneral dot_S16384x64_S64x16384_S16384x16384_1_0_0_1_n_n none fn
        (transpose S64x16384 [1, 0] fn transposes_S16384x64_S64x16384_1_0) (ix2 i j)
      = ∑ c : Fin 64, fn (ix2 i c) * fn (ix2 j c) :=
  (dotGeneral_plain_apply (m := 16384) (n := 16384) (k := 64) none fn
      (transpose S64x16384 [1, 0] fn transposes_S16384x64_S64x16384_1_0) i j).trans
    (Finset.sum_congr rfl fun c _ => by rw [transpose_ix2_apply])

/-- The last stage at the extended reals: the initial value plus the sum, over all pairs of rows with different
    labels, of the rows' inner products, divided by the program's constant. -/
theorem tailR_apply (fn : FVec Ideal S16384x64 .f32) (lb : IVec S16384 32) :
    tailR (F := Ideal) fn lb ix0
      = Ideal.div
          (Ideal.ofBits .f32 0x00000000#32
            + ∑ i : Fin 16384, ∑ j : Fin 16384,
                (if lb (ix1 i) ≠ lb (ix1 j) then (1 : EReal) else 0) * ∑ c : Fin 64, fn (ix2 i c) * fn (ix2 j c))
          (Ideal.ofBits .f32 0x4D800000#32) := by
  unfold tailR
  rw [hostDivf_apply, hostReduceAdd_apply, Ideal.hostReduceAdd_total _ (fun b => b.elim0), sum_idx2]
  refine congrArg₂ Ideal.div (congrArg₂ (· + ·) rfl (Finset.sum_congr rfl fun i _ => Finset.sum_congr rfl fun j _ => ?_)) rfl
  rw [mulf_apply, mask_apply, gram_apply]

end Cert.ReferenceIdeal.Hand

end
-- ==== Proof.KI.ValueEq.lean ====
import proofs.«164804_j46385646796817_1_alg».proof.Proof.KI.Accum
import proofs.«164804_j46385646796817_1_alg».proof.Proof.KI.Final
import proofs.«164804_j46385646796817_1_alg».proof.Proof.KI.SameChains
import proofs.«164804_j46385646796817_1_alg».proof.Proof.Ref.Value
import Idealize.ShloMosaic.Lib.ValueLayout
import Idealize.ShloMosaic.Lib.Pipeline.Value

/-! The region's result and the reference's result are the same extended real.

After the last grid point the accumulator holds the sum, over all pairs of rows whose labels differ, of the
inner products of the normalised feature rows, started from zero and divided by `16384²`; the reference's last
stage is the same double sum of the same rows and labels. The rows the region reads are the reference's normalised
rows (rounding to the narrower format changes nothing at the extended reals), and its label column and label
row are the reference's label vector laid out two ways. -/

noncomputable section

namespace Cert.KernelIdeal.Hand

open Cert.KernelIdeal Cert.KernelIdeal.Gen
open Idealize.ShloMosaic Idealize.ShloMosaic.TcCoe Idealize.ShloMosaic.ValueIdx Idealize.SL.Sem

/-- The accumulator after the last point, read as a scalar, is the reference's result. -/
theorem value_eq (m : (ℓ : Loc nD τ sig) → Buf (Elt Ideal) ℓ) (c : Dev nD) :
    (shapeCast S_ (outsAt0 (F := Ideal) m c 255 lastPt.isLt) shapeCasts_S1x1_S_ : FVec Ideal S_ .f32)
      = Cert.ReferenceIdeal.Hand.tailR
          (Cert.ReferenceIdeal.Hand.normF (Cert.ReferenceIdeal.Hand.preF (m ((c.tc : Thread nD τ).loc main_arg0))))
          (Cert.ReferenceIdeal.Hand.preL (m ((c.tc : Thread nD τ).loc main_arg1))) := by
  funext j
  obtain rfl := eq_ix0 j
  have h44 : ∀ (i : Fin 16384) (k : Fin 64), (V m c main_v44 : S16384x64.Idx → Elt Ideal .bf16) (ix2 i k)
      = normF (F := Ideal) (preF (F := Ideal) (m ((c.tc : Thread nD τ).loc main_arg0))) (ix2 i k) :=
by
    intro i k
    have e := congrFun (V_v44 m c) (ix2 i k)
    exact e.trans (truncf_apply (normF (F := Ideal) (preF (F := Ideal) (m ((c.tc : Thread nD τ).loc main_arg0)))) bitsLt_bf16_f32 (ix2 i k))
  have h45 : ∀ i : Fin 16384, (V m c main_v45 : S16384x1.Idx → Elt Ideal .i32) (ix2 i 0)
      = preL (m ((c.tc : Thread nD τ).loc main_arg1)) (ix1 i) :=
by
    intro i
    have e := congrFun (V_v45 m c) (ix2 i 0)
    exact e.trans (shapeCast_a_a1_apply _ _ i 0)
  have h46 : ∀ j : Fin 16384, (V m c main_v46 : S1x16384.Idx → Elt Ideal .i32) (ix2 0 j)
      = preL (m ((c.tc : Thread nD τ).loc main_arg1)) (ix1 j) :=
by
    intro j
    have e := congrFun (V_v46 m c) (ix2 0 j)
    exact e.trans (shapeCast_a_1a_apply _ _ 0 j)
  rw [Cert.ReferenceIdeal.Hand.tailR_apply, ← preF_eq, ← preL_eq, ← normF_eq,
    shapeCast_apply _ shapeCasts_S1x1_S_ ix0 (ix2 (0 : Fin 1) (0 : Fin 1)) rfl]
  exact acc_last m c _ _ h44 h45 h46 lastPt.isLt _

end Cert.KernelIdeal.Hand

end
-- ==== Proof.Ref.Run.lean ====
import proofs.«164804_j46385646796817_1_alg».proof.Proof.Ref.Ops

/-! The run of the reference program: every execution ends with the result buffer at

  tailR (normF (preF x)) (preL l)

of the arguments' initial contents `x`, `l`, and with the arguments unchanged.

The contents after the first window of the program are read off buffer by buffer (the feature rows, the
labels and their conversion to floats, the Gram matrix of the normalised rows); the second window's eleven
operations are then read over those. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The contents after the first window -/

attribute [local irreducible] Host.gather Host.reduceAdd in
set_option maxRecDepth 8192 in
set_option maxHeartbeats 1600000 in
/-- The feature-row buffer holds `preF` of the float argument. -/
theorem v37_eq (V : Valuation τ sig (Elt F)) :
    after ops0 V (main_v37 : DevRef τ sig) = preF (V (main_arg0 : DevRef τ sig)) := by
  after_results_simp
  rfl

attribute [local irreducible] Host.gather Host.reduceAdd in
set_option maxRecDepth 8192 in
set_option maxHeartbeats 1600000 in
/-- The label buffer holds `preL` of the integer argument. -/
theorem v38_eq (V : Valuation τ sig (Elt F)) :
    after ops0 V (main_v38 : DevRef τ sig) = preL (V (main_arg1 : DevRef τ sig)) := by
  after_results_simp
  rfl

attribute [local irreducible] Host.gather Host.reduceAdd in
set_option maxRecDepth 8192 in
set_option maxHeartbeats 1600000 in
/-- The labels converted to floats. -/
theorem v39_eq (V : Valuation τ sig (Elt F)) :
    after ops0 V (main_v39 : DevRef τ sig) = (sitofp .f32 (preL (V (main_arg1 : DevRef τ sig))) : FVec F S16384 .f32) := by
  after_results_simp
  rfl

attribute [local irreducible] Host.gather Host.reduceAdd in
set_option maxRecDepth 8192 in
set_option maxHeartbeats 3200000 in
/-- The normalised rows. -/
theorem v44_eq (V : Valuation τ sig (Elt F)) :
    after ops0 V (main_v44 : DevRef τ sig) = normF (preF (V (main_arg0 : DevRef τ sig))) := by
  after_results_simp
  rfl

attribute [local irreducible] Host.gather Host.reduceAdd in
set_option maxRecDepth 8192 in
set_option maxHeartbeats 3200000 in
/-- The Gram matrix of the normalised rows. -/
theorem v46_eq (V : Valuation τ sig (Elt F)) :
    after ops0 V (main_v46 : DevRef τ sig)
      = Host.dotGeneral dot_S16384x64_S64x16384_S16384x16384_1_0_0_1_n_n none (normF (preF (V (main_arg0 : DevRef τ sig))))
          (transpose S64x16384 [1, 0] (normF (preF (V (main_arg0 : DevRef τ sig)))) transposes_S16384x64_S64x16384_1_0) := by
  after_results_simp
  rfl

/-- No operation of the first window writes an argument. -/
theorem arg0_eq0 (V : Valuation τ sig (Elt F)) :
    after ops0 V (main_arg0 : DevRef τ sig) = V (main_arg0 : DevRef τ sig) := by
  after_results_simp

theorem arg1_eq0 (V : Valuation τ sig (Elt F)) :
    after ops0 V (main_arg1 : DevRef τ sig) = V (main_arg1 : DevRef τ sig) := by
  after_results_simp

/-! ## The result -/

attribute [local irreducible] Host.gather Host.reduceAdd in
set_option maxRecDepth 8192 in
set_option maxHeartbeats 1600000 in
/-- After the whole program the result buffer holds the composition of the four stages. -/
theorem out_eq (V : Valuation τ sig (Elt F)) :
    after ops V (main_v55 : DevRef τ sig)
      = tailR (normF (preF (V (main_arg0 : DevRef τ sig)))) (preL (V (main_arg1 : DevRef τ sig))) := by
  show after (ops0 ++ ops1) V _ = _
  rw [after_append']
  have h39 := v39_eq V
  have h46 := v46_eq V
  generalize after ops0 V = W at h39 h46 ⊢
  after_results_simp
  rw [h39, h46]
  rfl

/-- No operation writes an argument. -/
theorem arg0_eq (V : Valuation τ sig (Elt F)) :
    after ops V (main_arg0 : DevRef τ sig) = V (main_arg0 : DevRef τ sig) := by
  show after (ops0 ++ ops1) V _ = _
  rw [after_append']
  have h := arg0_eq0 V
  generalize after ops0 V = W at h ⊢
  after_results_simp
  exact h

theorem arg1_eq (V : Valuation τ sig (Elt F)) :
    after ops V (main_arg1 : DevRef τ sig) = V (main_arg1 : DevRef τ sig) := by
  show after (ops0 ++ ops1) V _ = _
  rw [after_append']
  have h := arg1_eq0 V
  generalize after ops0 V = W at h ⊢
  after_results_simp
  exact h

/-- On every device, for any float values, from any memory with zero counters: every weakly fair execution of
    the program terminates with the result at `tailR (normF (preF x)) (preL l)` of the arguments' launch
    contents `x`, `l`, and with the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v55)
        = tailR (normF (preF (m ((c.tc : Thread nD τ).loc main_arg0)))) (preL (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v55).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

/-- The program runs and leaves its arguments unchanged. -/
theorem frame : Cert.frame_ReferenceIdeal (hReferenceIdeal := Cert.ReferenceIdeal.Gen.facts)
    (hPre_finite_inputs := Cert.Pre_finite_inputs.Gen.facts) :=
  fun m ρ _ => (θ_run _ _ _).mono (fun _ h c => (h c).2) (run (F := Ideal) m ρ)

end Cert.ReferenceIdeal.Hand

end
-- ==== Proof.lean ====
/-
  The kernel and its reference compute one number from a feature map and a label map: both are resized to 64×64 by
  taking every second row and column, flattened to 16384 rows of 64 features, each row divided by the larger of its
  Euclidean norm and 1e-12; then the cosine similarities of all pairs of rows whose labels differ are summed and the sum
  divided by 16384² = 2²⁸.

  The kernel never forms the 16384×16384 similarity matrix. It walks a 16×16 grid of 1024×1024 blocks; at each block it
  multiplies the two 1024×64 row blocks, masks the products by "labels differ", sums the block, and adds the sum to one
  running scalar — zeroed at the first block, multiplied by 2⁻²⁸ after the last. The reference forms the whole matrix,
  masks it, sums it from zero and divides by 2²⁸.

  Over the extended reals the two results are equal for every input. The resize, the flattening and the normalisation
  are the same operations in both programs. The kernel compares the integer labels, the reference their conversions to
  floats, which over the extended reals are the exact integers, so the two masks agree. The matrix product of a row block
  with the transpose of a column block, read at an entry, is the same sum of 64 products as the whole product at that
  entry. A product with 2⁻²⁸ is a quotient by 2²⁸ on every extended real. And the sum over all pairs of rows is the sum over
  the 256 blocks of the blocks' sums, because addition on the extended reals is commutative and associative; no other law
  is used, so the finiteness of the inputs is never needed.

  Each program's frame — it runs to the end, faults nowhere, and leaves its two argument arrays as it found them — is read
  off the same runs: no host operation writes an argument, and the kernel region only reads arrays computed from them.
  Two of the region's input windows read one array (the normalised features, by row block and by column block); its
  buffer is held by halves, one per window, while the region runs.
-/
import proofs.«164804_j46385646796817_1_alg».proof.Defs
import proofs.«164804_j46385646796817_1_alg».proof.Proof.Gen.Kernel
import proofs.«164804_j46385646796817_1_alg».proof.Proof.Gen.KernelIdeal
import proofs.«164804_j46385646796817_1_alg».proof.Proof.Gen.ReferenceIdeal
import proofs.«164804_j46385646796817_1_alg».proof.Proof.Gen.Pre_finite_inputs
import proofs.«164804_j46385646796817_1_alg».proof.Proof.K.Frame
import proofs.«164804_j46385646796817_1_alg».proof.Proof.KI.Frame
import proofs.«164804_j46385646796817_1_alg».proof.Proof.KI.ValueEq
import proofs.«164804_j46385646796817_1_alg».proof.Proof.Ref.Run

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- From memories that agree on the arguments both idealized programs end with the same scalar: the reference's term of
    the arguments, which the kernel's accumulated, scaled block sums equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Hand.tailR (F := Ideal)
      (Cert.ReferenceIdeal.Hand.normF (F := Ideal) (Cert.ReferenceIdeal.Hand.preF (F := Ideal)
        (m ((c.tc : Thread Cert.KernelIdeal.nD Cert.KernelIdeal.τ).loc Cert.KernelIdeal.main_arg0))))
      (Cert.ReferenceIdeal.Hand.preL (m ((c.tc : Thread Cert.KernelIdeal.nD Cert.KernelIdeal.τ).loc Cert.KernelIdeal.main_arg1))), ?_, ?_⟩
  · exact (θ_run _ _ _).mono (fun r h c => ⟨(h c).1.trans (Cert.KernelIdeal.Hand.value_eq m c), (h c).2⟩)
      (Cert.KernelIdeal.Hand.run (F := Ideal) m ρ)
  · refine (θ_run _ _ _).mono (fun r h c => ⟨?_, (h c).2⟩) (Cert.ReferenceIdeal.Hand.run (F := Ideal) m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame, trivial, algebraic⟩

end Cert.Proof

end
